-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S512x128 .f32) (main_arg7 : FVec F S128 .f32) (main_arg8 : FVec F S128x10 .f32) (main_arg9 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S4x128x128 .f32) (main_arg6 : FVec F S512x128 .f32) (main_arg7 : FVec F S128 .f32) (main_arg8 : FVec F S128x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S2000x128 : Shape := ⟨2, ![2000, 128]⟩
abbrev S2000x1 : Shape := ⟨2, ![2000, 1]⟩
abbrev S128x512 : Shape := ⟨2, ![128, 512]⟩
abbrev S128x1 : Shape := ⟨2, ![128, 1]⟩
abbrev S1x10 : Shape := ⟨2, ![1, 10]⟩

abbrev nBuf : Space → Nat
  | .hbm => 150
  | .vmem => 51
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S512x128, .f32⟩
  | 7 => ⟨S128, .f32⟩
  | 8 => ⟨S128x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x128, .bf16⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .bf16⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S50000x128, .bf16⟩
  | 50 => ⟨S50000x128, .f32⟩
  | 51 => ⟨S_, .f32⟩
  | 52 => ⟨S128x128, .f32⟩
  | 53 => ⟨S50000x1, .i32⟩
  | 54 => ⟨S128x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .bf16⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S1x128x128, .f32⟩
  | 70 => ⟨S128x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S50000x128, .bf16⟩
  | 77 => ⟨S50000x128, .f32⟩
  | 78 => ⟨S_, .f32⟩
  | 79 => ⟨S128x128, .f32⟩
  | 80 => ⟨S50000x1, .i32⟩
  | 81 => ⟨S128x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .bf16⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S50000x128, .bf16⟩
  | 104 => ⟨S50000x128, .f32⟩
  | 105 => ⟨S_, .f32⟩
  | 106 => ⟨S128x128, .f32⟩
  | 107 => ⟨S50000x1, .i32⟩
  | 108 => ⟨S128x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .bf16⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S1x128x128, .f32⟩
  | _ => ⟨S50000x128, .f32⟩

abbrev hbmTy0_1 (i : Nat) : BufTy := match i % 128 with
  | 0 => ⟨S128x128, .f32⟩
  | 1 => ⟨S1x128, .f32⟩
  | 2 => ⟨S50000x128, .bf16⟩
  | 3 => ⟨S50000x128, .f32⟩
  | 4 => ⟨S_, .f32⟩
  | 5 => ⟨S128x128, .f32⟩
  | 6 => ⟨S50000x1, .i32⟩
  | 7 => ⟨S128x128, .f32⟩
  | 8 => ⟨S128x512, .f32⟩
  | 9 => ⟨S_, .f32⟩
  | 10 => ⟨S50000, .f32⟩
  | 11 => ⟨S_, .f32⟩
  | 12 => ⟨S128, .f32⟩
  | 13 => ⟨S50000x1, .i32⟩
  | 14 => ⟨S128, .f32⟩
  | 15 => ⟨S_, .f32⟩
  | 16 => ⟨S128, .f32⟩
  | 17 => ⟨S128, .f32⟩
  | 18 => ⟨S128x1, .f32⟩
  | 19 => ⟨S1x128, .f32⟩
  | 20 => ⟨S1x10, .f32⟩
  | 21 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x128, .bf16⟩
  | .local _ .vmem, ⟨14, _⟩ => ⟨S2000x128, .bf16⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .bf16⟩
  | .local _ .vmem, ⟨21, _⟩ => ⟨S2000x128, .bf16⟩
  | .local _ .vmem, ⟨22, _⟩ => ⟨S2000x128, .f32⟩
  | .local _ .vmem, ⟨23, _⟩ => ⟨S2000x128, .f32⟩
  | .local _ .vmem, ⟨24, _⟩ => ⟨S2000x128, .bf16⟩
  | .local _ .vmem, ⟨25, _⟩ => ⟨S2000x128, .bf16⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x128, .bf16⟩
  | .local _ .vmem, ⟨32, _⟩ => ⟨S2000x128, .bf16⟩
  | .local _ .vmem, ⟨33, _⟩ => ⟨S2000x128, .f32⟩
  | .local _ .vmem, ⟨34, _⟩ => ⟨S2000x128, .f32⟩
  | .local _ .vmem, ⟨35, _⟩ => ⟨S2000x128, .bf16⟩
  | .local _ .vmem, ⟨36, _⟩ => ⟨S2000x128, .bf16⟩
  | .local _ .vmem, ⟨37, _⟩ => ⟨S2000x1, .f32⟩
  | .local _ .vmem, ⟨38, _⟩ => ⟨S2000x1, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S2000x128, .bf16⟩
  | .local _ .vmem, ⟨43, _⟩ => ⟨S2000x128, .bf16⟩
  | .local _ .vmem, ⟨44, _⟩ => ⟨S128x512, .f32⟩
  | .local _ .vmem, ⟨45, _⟩ => ⟨S128x1, .f32⟩
  | .local _ .vmem, ⟨46, _⟩ => ⟨S512x128, .f32⟩
  | .local _ .vmem, ⟨47, _⟩ => ⟨S1x128, .f32⟩
  | .local _ .vmem, ⟨48, _⟩ => ⟨S128x10, .f32⟩
  | .local _ .vmem, ⟨49, _⟩ => ⟨S1x10, .f32⟩
  | .local _ .vmem, ⟨50, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_14 : Ref sig .tc := ⟨.hbm, 109, rfl⟩
abbrev main_v83 : Ref sig .tc := ⟨.hbm, 110, rfl⟩
abbrev main_v84 : Ref sig .tc := ⟨.hbm, 111, rfl⟩
abbrev main_c_15 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_17 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_18 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_20 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S128x128 : S_.BroadcastsInDim S128x128 (![] : Fin 0 → Fin S128x128.rank)
  bcast_S50000_S50000x1_0 : S50000.BroadcastsInDim S50000x1 (![0] : Fin 1 → Fin S50000x1.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S128x128_S128x128_S128x128_S128x128_S128x512_d1 : Shape.Concatenates [S128x128, S128x128, S128x128, S128x128] S128x512 1
  bcast_S_S128 : S_.BroadcastsInDim S128 (![] : Fin 0 → Fin S128.rank)
  shapeCasts_S128_S128x1 : S128.ShapeCasts S128x1
  shapeCasts_S10_S1x10 : S10.ShapeCasts S1x10
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x512 : S128x1.Broadcasts S128x512
  inb_S512x128_S512x128_0_0 : ∀ a, (![0, 0] : Fin 2 → Nat) a + S512x128.size a ≤ S512x128.size a
  h_S512x128 : 0 < S512x128.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x128_S128x128 : S1x128.Broadcasts S128x128
  broadcasts_S1x10_S128x10 : S1x10.Broadcasts S128x10
  reduces_S128x10_S128 : S128x10.Reduces [1] S128
  broadcasts_S128x1_S128x10 : S128x1.Broadcasts S128x10
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x512_S512x128_S128x128_1_0_0_1_n_n_wf : DotDims.WF S128x512 S512x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .bf16 = 32 ∨ (Rect.block (s := S50000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .bf16 = 32 ∨ (Rect.block (s := S50000x128) S2000x128.size (cc3_transform_6 i) (hinb3_6 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x512.size a ≤ S128x512.size a
  hwx4_0 : ∀ i : grid4.Coords, EltTy.bits .f32 = 32 ∨ (Rect.block (s := S128x512) S128x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S512x128.size a
  hwx4_2 : ∀ i : grid4.Coords, EltTy.bits .f32 = 32 ∨ (Rect.block (s := S512x128) S512x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x10.size a ≤ S128x10.size a
  hwx4_4 : ∀ i : grid4.Coords, EltTy.bits .f32 = 32 ∨ (Rect.block (s := S128x10) S128x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x10.size a ≤ S128x10.size a
  hwx4_6 : ∀ i : grid4.Coords, EltTy.bits .f32 = 32 ∨ (Rect.block (s := S128x10) S128x10.size (cc4_transform_6 i) (hinb4_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v72) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v93) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v95) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v99) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v101) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v106) S128x512.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v113) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S512x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v114) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S128x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v115) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v116) S128x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S50000x512 : Shape := ⟨2, ![50000, 512]⟩
abbrev S128x512 : Shape := ⟨2, ![128, 512]⟩
abbrev S128x1 : Shape := ⟨2, ![128, 1]⟩
abbrev S1x10 : Shape := ⟨2, ![1, 10]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S512x128, .f32⟩
  | 7 => ⟨S128, .f32⟩
  | 8 => ⟨S128x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S1x128x128, .f32⟩
  | 13 => ⟨S128x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x512, .f32⟩
  | 20 => ⟨S_, .f32⟩
  | 21 => ⟨S128x512, .f32⟩
  | 22 => ⟨S50000x1, .i32⟩
  | 23 => ⟨S128x512, .f32⟩
  | 24 => ⟨S_, .f32⟩
  | 25 => ⟨S50000, .f32⟩
  | 26 => ⟨S_, .f32⟩
  | 27 => ⟨S128, .f32⟩
  | 28 => ⟨S50000x1, .i32⟩
  | 29 => ⟨S128, .f32⟩
  | 30 => ⟨S_, .f32⟩
  | 31 => ⟨S128, .f32⟩
  | 32 => ⟨S128, .f32⟩
  | 33 => ⟨S128x1, .f32⟩
  | 34 => ⟨S128x512, .f32⟩
  | 35 => ⟨S128x512, .f32⟩
  | 36 => ⟨S128x128, .f32⟩
  | 37 => ⟨S1x128, .f32⟩
  | 38 => ⟨S128x128, .f32⟩
  | 39 => ⟨S128x128, .f32⟩
  | 40 => ⟨S_, .f32⟩
  | 41 => ⟨S128x128, .f32⟩
  | 42 => ⟨S128x128, .f32⟩
  | 43 => ⟨S128x10, .f32⟩
  | 44 => ⟨S1x10, .f32⟩
  | 45 => ⟨S128x10, .f32⟩
  | 46 => ⟨S128x10, .f32⟩
  | 47 => ⟨S_, .f32⟩
  | 48 => ⟨S128, .f32⟩
  | 49 => ⟨S_, .f32⟩
  | 50 => ⟨S128, .f32⟩
  | 51 => ⟨S128, .f32⟩
  | 52 => ⟨S128x1, .f32⟩
  | 53 => ⟨S128x10, .f32⟩
  | 54 => ⟨S128x10, .f32⟩
  | 55 => ⟨S128x10, .f32⟩
  | 56 => ⟨S_, .f32⟩
  | 57 => ⟨S128, .f32⟩
  | 58 => ⟨S128x1, .f32⟩
  | 59 => ⟨S128x1, .f32⟩
  | 60 => ⟨S128x10, .f32⟩
  | 61 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_c_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call2_cst : Ref sig .tc := ⟨.hbm, 114, rfl⟩
abbrev main_call2_v0 : Ref sig .tc := ⟨.hbm, 115, rfl⟩
abbrev main_v87 : Ref sig .tc := ⟨.hbm, 116, rfl⟩
abbrev main_c_11 : Ref sig .tc := ⟨.hbm, 117, rfl⟩
abbrev main_v88 : Ref sig .tc := ⟨.hbm, 118, rfl⟩
abbrev main_v89 : Ref sig .tc := ⟨.hbm, 119, rfl⟩
abbrev main_c_12 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_13 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_call3_cst : Ref sig .tc := ⟨.hbm, 144, rfl⟩
abbrev main_call3_v0 : Ref sig .tc := ⟨.hbm, 145, rfl⟩
abbrev main_v112 : Ref sig .tc := ⟨.hbm, 146, rfl⟩
abbrev main_v113 : Ref sig .tc := ⟨.hbm, 147, rfl⟩
abbrev main_cst_14 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_15 : Ref sig .tc := ⟨.hbm, 152, rfl⟩
abbrev main_v117 : Ref sig .tc := ⟨.hbm, 153, rfl⟩
abbrev main_cst_16 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_17 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_call4_cst : Ref sig .tc := ⟨.hbm, 168, rfl⟩
abbrev main_call4_v0 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_call5_cst : Ref sig .tc := ⟨.hbm, 175, rfl⟩
abbrev main_call5_v0 : Ref sig .tc := ⟨.hbm, 176, rfl⟩
abbrev main_call5_cst_0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_call5_v5 : Ref sig .tc := ⟨.hbm, 182, rfl⟩
abbrev main_call5_v6 : Ref sig .tc := ⟨.hbm, 183, rfl⟩
abbrev main_call5_cst_1 : Ref sig .tc := ⟨.hbm, 184, rfl⟩
abbrev main_call5_v7 : Ref sig .tc := ⟨.hbm, 185, rfl⟩
abbrev main_call5_v8 : Ref sig .tc := ⟨.hbm, 186, rfl⟩
abbrev main_call5_v9 : Ref sig .tc := ⟨.hbm, 187, rfl⟩
abbrev main_call5_v10 : Ref sig .tc := ⟨.hbm, 188, rfl⟩
abbrev main_v135 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x128_S50000x128_S50000x512_d1 : Shape.Concatenates [S50000x128, S50000x128, S50000x128, S50000x128] S50000x512 1
  bcast_S_S128x512 : S_.BroadcastsInDim S128x512 (![] : Fin 0 → Fin S128x512.rank)
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x512_S50000x1_S50000x512_1_0_0_1_wf : ScatterDims.WF S128x512 S50000x1 S50000x512 [1] [0] [0] 1
  scatter_S128_S50000x1_S50000_n_0_0_1_wf : ScatterDims.WF S128 S50000x1 S50000 [] [0] [0] 1
  dot_S128x512_S512x128_S128x128_1_0_0_1_n_n_wf : DotDims.WF S128x512 S512x128 S128x128 [1] [0] [0] [1] [] []
  dot_S128x128_S128x10_S128x10_1_0_0_1_n_n_wf : DotDims.WF S128x128 S128x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x512_S50000x1_S50000x512_1_0_0_1 : ScatterDims S128x512 S50000x1 S50000x512 where
  updateWindowDims := [1]
  insertedWindowDims := [0]
  scatterDimsToOperandDims := [0]
  indexVectorDim := 1
  wf := scatter_S128x512_S50000x1_S50000x512_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KB.Sage0.lean ====
import proofs.«121412_j16045997818029_2_alg».proof.Proof.Gen.Kernel.Launch
import proofs.«121412_j16045997818029_2_alg».proof.Proof.Gen.Kernel.Skeleton
import proofs.«121412_j16045997818029_2_alg».proof.Proof.Gen.Kernel.Points
import Idealize.ShloMosaic.Lib.Pipeline.FrameBody
import Idealize.ShloMosaic.Lib.Ring
import Idealize.ShloMosaic.Lib.Tactic

/-!
# Region 0: the kernel `cc0__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 is an input fetched at every point.  For any proof data whose array
    is the entry contents (`hA`) and whose body leaves the window's buffer at its block (`hafter`), the buffer the body
    is handed at point `t` holds that block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 is an input fetched at every point.  For any proof data whose array
    is the entry contents (`hA`) and whose body leaves the window's buffer at its block (`hafter`), the buffer the body
    is handed at point `t` holds that block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 is an input fetched at every point.  For any proof data whose array
    is the entry contents (`hA`) and whose body leaves the window's buffer at its block (`hafter`), the buffer the body
    is handed at point `t` holds that block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

/-- All of a 2000x128 buffer (the blocks of windows 0 and 1, and the output block). -/
abbrev r0_0 : Rect S2000x128 := Rect.unit (s := S2000x128) ![0, 0] S2000x128.size inb_S2000x128_S2000x128_0_0
/-- All of the 2000x1 column (window 2). -/
abbrev r0_1 : Rect S2000x1 := Rect.unit (s := S2000x1) ![0, 0] S2000x1.size inb_S2000x1_S2000x1_0_0
/-- All of a 128x128 matrix (windows 3 and 5). -/
abbrev r0_2 : Rect S128x128 := Rect.unit (s := S128x128) ![0, 0] S128x128.size inb_S128x128_S128x128_0_0
/-- All of the 1x128 row (window 4). -/
abbrev r0_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out0_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r0_0, k0_pay1 (View.ld x0 r0_0) (View.ld x2 r0_1) (View.ld x1 r0_0) (View.ld x3 r0_2) (View.ld x5 r0_2) (View.ld x4 r0_3)⟩]

/-- The one stored rectangle is the whole 2000x128 block, so every position of the block lies in it. -/
theorem cover0_6 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out0_6 x0 … x5`.  The grid point `i` the body is
    called at plays no part. -/
theorem sound_kernel0 (c : Dev nD) (E : Set ℕ) (i : grid0.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_layer_kernel i arg1 harg1 arg2 harg2 arg3 harg3 arg4 harg4 arg5 harg5 arg6 harg6 arg7 harg7) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of this region's pipeline on core `c`: its arrays are the entry contents `V`; the body leaves each
    input's buffer at that input's block and the output's buffer at `out0_6` of the six input blocks; the invariant is
    the one of a region whose body touches nothing else (the scoped remainder and the generator register ride along);
    full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the entry contents (a projection of the definition; `V` itself is never opened). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's debts, and each window's current staging
    buffer at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it gives back: the same, each buffer now at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six inputs' buffers hold their blocks (`before0_w`), so the body's triple applies with those
    blocks; the invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Sage1.lean ====
import proofs.«121412_j16045997818029_2_alg».proof.Proof.Gen.Kernel.Launch
import proofs.«121412_j16045997818029_2_alg».proof.Proof.Gen.Kernel.Skeleton
import proofs.«121412_j16045997818029_2_alg».proof.Proof.Gen.Kernel.Points
import Idealize.ShloMosaic.Lib.Pipeline.FrameBody
import Idealize.ShloMosaic.Lib.Ring
import Idealize.ShloMosaic.Lib.Tactic

/-!
# Region 1: the kernel `cc1__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 is an input fetched at every point.  For any proof data whose array
    is the entry contents (`hA`) and whose body leaves the window's buffer at its block (`hafter`), the buffer the body
    is handed at point `t` holds that block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 is an input fetched at every point.  For any proof data whose array
    is the entry contents (`hA`) and whose body leaves the window's buffer at its block (`hafter`), the buffer the body
    is handed at point `t` holds that block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 is an input fetched at every point.  For any proof data whose array
    is the entry contents (`hA`) and whose body leaves the window's buffer at its block (`hafter`), the buffer the body
    is handed at point `t` holds that block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

/-- All of a 2000x128 buffer (the blocks of windows 0 and 1, and the output block). -/
abbrev r1_0 : Rect S2000x128 := Rect.unit (s := S2000x128) ![0, 0] S2000x128.size inb_S2000x128_S2000x128_0_0
/-- All of the 2000x1 column (window 2). -/
abbrev r1_1 : Rect S2000x1 := Rect.unit (s := S2000x1) ![0, 0] S2000x1.size inb_S2000x1_S2000x1_0_0
/-- All of a 128x128 matrix (windows 3 and 5). -/
abbrev r1_2 : Rect S128x128 := Rect.unit (s := S128x128) ![0, 0] S128x128.size inb_S128x128_S128x128_0_0
/-- All of the 1x128 row (window 4). -/
abbrev r1_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out1_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r1_0, k1_pay1 (View.ld x0 r1_0) (View.ld x2 r1_1) (View.ld x1 r1_0) (View.ld x3 r1_2) (View.ld x5 r1_2) (View.ld x4 r1_3)⟩]

/-- The one stored rectangle is the whole 2000x128 block, so every position of the block lies in it. -/
theorem cover1_6 (p0 : Vec F S2000x128 .bf16) (y : S2000x128.Idx) :
    ∃ pc ∈ ([⟨r1_0, p0⟩] : List (View.Piece (Elt F) S2000x128 .bf16)), y ∈ pc.1.set :=
  View.cover_of_tiled [⟨r1_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out1_6 x0 … x5`.  The grid point `i` the body is
    called at plays no part. -/
theorem sound_kernel1 (c : Dev nD) (E : Set ℕ) (i : grid1.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_layer_kernel i arg1 harg1 arg2 harg2 arg3 harg3 arg4 harg4 arg5 harg5 arg6 harg6 arg7 harg7) K := by
  simp only [cc1__sage_layer_kernel_eq_skeleton]; unfold cc1__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this region's pipeline on core `c`: its arrays are the entry contents `V`; the body leaves each
    input's buffer at that input's block and the output's buffer at `out1_6` of the six input blocks; the invariant is
    the one of a region whose body touches nothing else (the scoped remainder and the generator register ride along);
    full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents (a projection of the definition; `V` itself is never opened). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

/-- Each input's buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's debts, and each window's current staging
    buffer at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it gives back: the same, each buffer now at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six inputs' buffers hold their blocks (`before1_w`), so the body's triple applies with those
    blocks; the invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Sage2.lean ====
import proofs.«121412_j16045997818029_2_alg».proof.Proof.Gen.Kernel.Launch
import proofs.«121412_j16045997818029_2_alg».proof.Proof.Gen.Kernel.Skeleton
import proofs.«121412_j16045997818029_2_alg».proof.Proof.Gen.Kernel.Points
import Idealize.ShloMosaic.Lib.Pipeline.FrameBody
import Idealize.ShloMosaic.Lib.Ring
import Idealize.ShloMosaic.Lib.Tactic

/-!
# Region 2: the kernel `cc2__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is an input fetched at every point.  For any proof data whose array
    is the entry contents (`hA`) and whose body leaves the window's buffer at its block (`hafter`), the buffer the body
    is handed at point `t` holds that block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is an input fetched at every point.  For any proof data whose array
    is the entry contents (`hA`) and whose body leaves the window's buffer at its block (`hafter`), the buffer the body
    is handed at point `t` holds that block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 is an input fetched at every point.  For any proof data whose array
    is the entry contents (`hA`) and whose body leaves the window's buffer at its block (`hafter`), the buffer the body
    is handed at point `t` holds that block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

/-- All of a 2000x128 buffer (the blocks of windows 0 and 1, and the output block). -/
abbrev r2_0 : Rect S2000x128 := Rect.unit (s := S2000x128) ![0, 0] S2000x128.size inb_S2000x128_S2000x128_0_0
/-- All of the 2000x1 column (window 2). -/
abbrev r2_1 : Rect S2000x1 := Rect.unit (s := S2000x1) ![0, 0] S2000x1.size inb_S2000x1_S2000x1_0_0
/-- All of a 128x128 matrix (windows 3 and 5). -/
abbrev r2_2 : Rect S128x128 := Rect.unit (s := S128x128) ![0, 0] S128x128.size inb_S128x128_S128x128_0_0
/-- All of the 1x128 row (window 4). -/
abbrev r2_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out2_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r2_0, k2_pay1 (View.ld x0 r2_0) (View.ld x2 r2_1) (View.ld x1 r2_0) (View.ld x3 r2_2) (View.ld x5 r2_2) (View.ld x4 r2_3)⟩]

/-- The one stored rectangle is the whole 2000x128 block, so every position of the block lies in it. -/
theorem cover2_6 (p0 : Vec F S2000x128 .bf16) (y : S2000x128.Idx) :
    ∃ pc ∈ ([⟨r2_0, p0⟩] : List (View.Piece (Elt F) S2000x128 .bf16)), y ∈ pc.1.set :=
  View.cover_of_tiled [⟨r2_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out2_6 x0 … x5`.  The grid point `i` the body is
    called at plays no part. -/
theorem sound_kernel2 (c : Dev nD) (E : Set ℕ) (i : grid2.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__sage_layer_kernel i arg1 harg1 arg2 harg2 arg3 harg3 arg4 harg4 arg5 harg5 arg6 harg6 arg7 harg7) K := by
  simp only [cc2__sage_layer_kernel_eq_skeleton]; unfold cc2__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this region's pipeline on core `c`: its arrays are the entry contents `V`; the body leaves each
    input's buffer at that input's block and the output's buffer at `out2_6` of the six input blocks; the invariant is
    the one of a region whose body touches nothing else (the scoped remainder and the generator register ride along);
    full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents (a projection of the definition; `V` itself is never opened). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

/-- Each input's buffer holds its block when the body is called, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, the core's debts, and each window's current staging
    buffer at what the pipeline has put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it gives back: the same, each buffer now at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the six inputs' buffers hold their blocks (`before2_w`), so the body's triple applies with those
    blocks; the invariant and the debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Sage3.lean ====
import proofs.«121412_j16045997818029_2_alg».proof.Proof.Gen.Kernel.Launch
import proofs.«121412_j16045997818029_2_alg».proof.Proof.Gen.Kernel.Skeleton
import proofs.«121412_j16045997818029_2_alg».proof.Proof.Gen.Kernel.Points
import Idealize.ShloMosaic.Lib.Pipeline.FrameBody
import Idealize.ShloMosaic.Lib.Ring
import Idealize.ShloMosaic.Lib.Tactic

/-!
# Region 3: the kernel `cc3__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is an input fetched at every point.  For any proof data whose array
    is the entry contents (`hA`) and whose body leaves the window's buffer at its block (`hafter`), the buffer the body
    is handed at point `t` holds that block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 is an input fetched at every point.  For any proof data whose array
    is the entry contents (`hA`) and whose body leaves the window's buffer at its block (`hafter`), the buffer the body
    is handed at point `t` holds that block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 is an input fetched at every point.  For any proof data whose array
    is the entry contents (`hA`) and whose body leaves the window's buffer at its block (`hafter`), the buffer the body
    is handed at point `t` holds that block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is a whole buffer -/

/-- All of a 2000x128 buffer (the blocks of windows 0 and 1, and the output block). -/
abbrev r3_0 : Rect S2000x128 := Rect.unit (s := S2000x128) ![0, 0] S2000x128.size inb_S2000x128_S2000x128_0_0
/-- All of the 2000x1 column (window 2). -/
abbrev r3_1 : Rect S2000x1 := Rect.unit (s := S2000x1) ![0, 0] S2000x1.size inb_S2000x1_S2000x1_0_0
/-- All of a 128x128 matrix (windows 3 and 5). -/
abbrev r3_2 : Rect S128x128 := Rect.unit (s := S128x128) ![0, 0] S128x128.size inb_S128x128_S128x128_0_0
/-- All of the 1x128 row (window 4). -/
abbrev r3_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out3_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r3_0, k3_pay1 (View.ld x0 r3_0) (View.ld x2 r3_1) (View.ld x1 r3_0) (View.ld x3 r3_2) (View.ld x5 r3_2) (View.ld x4 r3_3)⟩]

/-- The one stored rectangle is the whole 2000x128 block, so every position of the block lies in it. -/
theorem cover3_6 (p0 : Vec F S2000x128 .bf16) (y : S2000x128.Idx) :
    ∃ pc ∈ ([⟨r3_0, p0⟩] : List (View.Piece (Elt F) S2000x128 .bf16)), y ∈ pc.1.set :=
  View.cover_of_tiled [⟨r3_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out3_6 x0 … x5`.  The grid point `i` the body is
    called at plays no part. -/
theorem sound_kernel3 (c : Dev nD) (E : Set ℕ) (i : grid3.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__sage_layer_kernel i arg1 harg1 arg2 harg2 arg3 harg3 arg4 harg4 arg5 harg5 arg6 harg6 arg7 harg7) K := by
  simp only [cc3__sage_layer_kernel_eq_skeleton]; unfold cc3__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of this region's pipeline on core `c`: its arrays are the entry contents `V`; the body leaves each
    input's buffer at that input's block and the output's buffer at `out3_6` of the six input blocks; the invariant is
    the one of a region whose body touches nothing else (the scoped remainder and the generator register ride along);
    full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the entry contents (a projection of the definition; `V` itself is never opened). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

/-- Each input's buffer holds its block when the body is called, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`: the invariant, the core's debts, and each window's current staging
    buffer at what the pipeline has put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it gives back: the same, each buffer now at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the six inputs' buffers hold their blocks (`before3_w`), so the body's triple applies with those
    blocks; the invariant and the debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Mlp.lean ====
import proofs.«121412_j16045997818029_2_alg».proof.Proof.Gen.Kernel.Launch
import proofs.«121412_j16045997818029_2_alg».proof.Proof.Gen.Kernel.Skeleton
import proofs.«121412_j16045997818029_2_alg».proof.Proof.Gen.Kernel.Points
import Idealize.ShloMosaic.Lib.Pipeline.FrameBody
import Idealize.ShloMosaic.Lib.Ring
import Idealize.ShloMosaic.Lib.Tactic

/-!
# Region 4: the kernel `cc4__mlp_kernel`, a grid of one point

The region reads six f32 arrays through windows 0..5, each window one block that is the whole array: a 128x512
matrix, a 128x1 column, a 512x128 matrix, a 1x128 row, a 128x10 matrix and a 1x10 row.  At its single point the
body reads the six blocks and overwrites the 128x10 output block (window 6) with one value computed from them.
Everything here is stated at a parameter `V`: the contents of the core's buffers when the region is entered.  The
module gives, for that `V`, each window's block, the contents the body leaves in the output block as a function of
the six input blocks, the body's Hoare triple, and the pipeline's proof data together with the body obligation the
pipeline library asks for.
-/

-- deciding that one rectangle tiles its shape recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at point `t` (there is one point, and every block is its whole array): the entries of the
    window's array, as the region finds it, at the block's positions. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 is an input fetched at the region's one point.  For any proof data whose array is the entry contents
    (`hA`) and whose body leaves the window's buffer at its block (`hafter`), the buffer the body is handed holds that block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 is an input fetched at the region's one point.  For any proof data whose array is the entry contents
    (`hA`) and whose body leaves the window's buffer at its block (`hafter`), the buffer the body is handed holds that block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 is an input fetched at the region's one point.  For any proof data whose array is the entry contents
    (`hA`) and whose body leaves the window's buffer at its block (`hafter`), the buffer the body is handed holds that block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 is an input fetched at the region's one point.  For any proof data whose array is the entry contents
    (`hA`) and whose body leaves the window's buffer at its block (`hafter`), the buffer the body is handed holds that block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 is an input fetched at the region's one point.  For any proof data whose array is the entry contents
    (`hA`) and whose body leaves the window's buffer at its block (`hafter`), the buffer the body is handed holds that block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 is an input fetched at the region's one point.  For any proof data whose array is the entry contents
    (`hA`) and whose body leaves the window's buffer at its block (`hafter`), the buffer the body is handed holds that block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each is a whole buffer -/

/-- All of the 128x512 matrix (window 0). -/
abbrev r4_0 : Rect S128x512 := Rect.unit (s := S128x512) ![0, 0] S128x512.size inb_S128x512_S128x512_0_0
/-- All of the 128x1 column (window 1). -/
abbrev r4_1 : Rect S128x1 := Rect.unit (s := S128x1) ![0, 0] S128x1.size inb_S128x1_S128x1_0_0
/-- All of the 512x128 matrix (window 2). -/
abbrev r4_2 : Rect S512x128 := Rect.unit (s := S512x128) ![0, 0] S512x128.size inb_S512x128_S512x128_0_0
/-- All of the 1x128 row (window 3). -/
abbrev r4_3 : Rect S1x128 := Rect.unit (s := S1x128) ![0, 0] S1x128.size inb_S1x128_S1x128_0_0
/-- All of a 128x10 buffer (window 4's block, and the output block). -/
abbrev r4_4 : Rect S128x10 := Rect.unit (s := S128x10) ![0, 0] S128x10.size inb_S128x10_S128x10_0_0
/-- All of the 1x10 row (window 5). -/
abbrev r4_5 : Rect S1x10 := Rect.unit (s := S1x10) ![0, 0] S1x10.size inb_S1x10_S1x10_0_0

/-! ## What the body leaves in the output block -/

/-- The output block after the body, as a function of the six input blocks `x0 … x5` (window order, which is also the
    order the body reads them in): the body's single store covers the whole block, and the stored value is, row by row,
    `z - log (Σ exp z)` with `z = y - max y` (sum and maximum along each row of 10) and
    `y = bf16 (max (bf16 (x0 / x1) · bf16 x2 + x3) 0) · bf16 x4 + x5`: the rows of `x0` divided by the column `x1`, times `x2`, plus the
    row `x3` added to every row, the maximum with zero, times `x4`, plus the row `x5` added to every row — each factor of a
    product rounded to bf16 first, the products accumulated in f32. -/
def out4_6 (x0 : Vec F S128x512 .f32) (x1 : Vec F S128x1 .f32) (x2 : Vec F S512x128 .f32) (x3 : Vec F S1x128 .f32)
    (x4 : Vec F S128x10 .f32) (x5 : Vec F S1x10 .f32) : Vec F S128x10 .f32 :=
  View.canon [⟨r4_4, k4_pay1 (View.ld x0 r4_0) (View.ld x1 r4_1) (View.ld x2 r4_2) (View.ld x3 r4_3) (View.ld x4 r4_4) (View.ld x5 r4_5)⟩]

/-- The one stored rectangle is the whole 128x10 block, so every position of the block lies in it. -/
theorem cover4_6 (p0 : Vec F S128x10 .f32) (y : S128x10.Idx) :
    ∃ pc ∈ ([⟨r4_4, p0⟩] : List (View.Piece (Elt F) S128x10 .f32)), y ∈ pc.1.set :=
  View.cover_of_tiled [⟨r4_4, p0⟩] S128x10.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out4_6 x0 … x5`.  The grid point `i` the body is
    called at plays no part. -/
theorem sound_kernel4 (c : Dev nD) (E : Set ℕ) (i : grid4.Coords)
    (arg1 : Memref sig .tc .vmem S128x512 .f32) (harg1 : arg1.IsWhole) (arg2 : Memref sig .tc .vmem S128x1 .f32) (harg2 : arg2.IsWhole)
    (arg3 : Memref sig .tc .vmem S512x128 .f32) (harg3 : arg3.IsWhole) (arg4 : Memref sig .tc .vmem S1x128 .f32) (harg4 : arg4.IsWhole)
    (arg5 : Memref sig .tc .vmem S128x10 .f32) (harg5 : arg5.IsWhole) (arg6 : Memref sig .tc .vmem S1x10 .f32) (harg6 : arg6.IsWhole)
    (arg7 : Memref sig .tc .vmem S128x10 .f32) (harg7 : arg7.IsWhole)
    (x0 : Vec F S128x512 .f32) (x1 : Vec F S128x1 .f32) (x2 : Vec F S512x128 .f32) (x3 : Vec F S1x128 .f32)
    (x4 : Vec F S128x10 .f32) (x5 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of this region's pipeline on core `c`: its arrays are the entry contents `V`; the body leaves each
    input's buffer at that input's block and the output's buffer at `out4_6` of the six input blocks; the invariant is
    the one of a region whose body touches nothing else (the scoped remainder and the generator register ride along);
    full shares, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the entry contents (a projection of the definition; `V` itself is never opened). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t =
    out4_6 (iblk4 V c 0 t) (iblk4 V c 1 t) (iblk4 V c 2 t) (iblk4 V c 3 t) (iblk4 V c 4 t) (iblk4 V c 5 t) := by dsimp only [dat4]

/-- Each input's buffer holds its block when the body is called. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`: the invariant, the core's debts, and each window's current staging
    buffer at what the pipeline has put there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- What it gives back: the same, each buffer now at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at the point: the six inputs' buffers hold their blocks (`before4_w`), so the body's triple applies with those
    blocks; the invariant and the debts pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
import proofs.«121412_j16045997818029_2_alg».proof.Proof.KB.Sage0
import proofs.«121412_j16045997818029_2_alg».proof.Proof.KB.Sage1
import proofs.«121412_j16045997818029_2_alg».proof.Proof.KB.Sage2
import proofs.«121412_j16045997818029_2_alg».proof.Proof.KB.Sage3
import proofs.«121412_j16045997818029_2_alg».proof.Proof.KB.Mlp
import proofs.«121412_j16045997818029_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's ten segments from the launch to the return

## The buffer contents at each segment boundary: a fold through @main -/

/-- Core `c`'s buffers at launch. -/
abbrev W0 : Dev nD → Valuation τ sig (Elt F) := fun c b => (s₀ m ρ).mem ((c : Dev nD), b)

/-- After `hostOps0`: the contents region 0 is entered with. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays hold what the pipeline leaves (an input as entered, the output with every
    block's write-back folded in), every other buffer what it held at entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: the contents region 1 is entered with. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays hold what the pipeline leaves (an input as entered, the output with every
    block's write-back folded in), every other buffer what it held at entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: the contents region 2 is entered with. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays hold what the pipeline leaves (an input as entered, the output with every
    block's write-back folded in), every other buffer what it held at entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: the contents region 3 is entered with. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays hold what the pipeline leaves (an input as entered, the output with every
    block's write-back folded in), every other buffer what it held at entry. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: the contents region 4 is entered with. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays hold what the pipeline leaves (an input as entered, the output with every
    block's write-back folded in), every other buffer what it held at entry. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ### The arguments end as launched: no host operation writes one, and a region either does not touch it or
    reads it through an input window, whose array the pipeline leaves as entered -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := (W10_arr m ρ c 2).trans (((dat4 (V9 m ρ) c).arrAt_in 2 rfl _).trans (A_eq4 (V9 m ρ) c 2))
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := (W10_arr m ρ c 4).trans (((dat4 (V9 m ρ) c).arrAt_in 4 rfl _).trans (A_eq4 (V9 m ρ) c 4))
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- The result buffer at the return: region 4's output array with its one block written back. -/
theorem W10_result (c : Dev nD) : W10 m ρ c (Proc.devRef .tc main_v116) = (dat4 (V9 m ρ) c).arrAt 6 cfg4.N :=
  W10_arr m ρ c 6

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W1`, left with them at `W2`. Its
    arrays are split out of the unscoped buffers at entry and put back at the exit contents; the generator register goes
    into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers at entry and put back at the exit contents; the generator register goes
    into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers at entry and put back at the exit contents; the generator register goes
    into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers at entry and put back at the exit contents; the generator register goes
    into the pipeline's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W9`, left with them at `W10`. Its
    arrays are split out of the unscoped buffers at entry and put back at the exit contents; the generator register goes
    into the pipeline's invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and in every final state each unscoped buffer of each core holds the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩) (run_all m ρ)

/-- The result buffer ends holding region 4's output array with its block written back, and every argument array as
    launched. -/
theorem run_result : θ_run defs (onTc (τ := τ) (main (F := F))) ⟨m, fun _ => 0, ρ⟩ (fun r => ∀ c : Dev nD,
      r.2.mem ((c.tc : Thread nD τ).loc main_v116) = (dat4 (V9 m ρ) c).arrAt 6 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v116 (by decide))).trans (W10_result m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩) (run_all m ρ)

end Cert.Kernel.Hand

end
-- ==== Proof.KI.Sage0.lean ====
import proofs.«121412_j16045997818029_2_alg».proof.Proof.Gen.KernelIdeal.Launch
import proofs.«121412_j16045997818029_2_alg».proof.Proof.Gen.KernelIdeal.Skeleton
import proofs.«121412_j16045997818029_2_alg».proof.Proof.Gen.KernelIdeal.Points
import Idealize.ShloMosaic.Lib.Pipeline.FrameBody
import Idealize.ShloMosaic.Lib.Ring
import Idealize.ShloMosaic.Lib.Tactic

/-!
# Region 0: the kernel `cc0__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 is an input fetched at every point.  For any proof data whose array
    is the entry contents (`hA`) and whose body leaves the window's buffer at its block (`hafter`), the buffer the body
    is handed at point `t` holds that block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 is an input fetched at every point.  For any proof data whose array
    is the entry contents (`hA`) and whose body leaves the window's buffer at its block (`hafter`), the buffer the body
    is handed at point `t` holds that block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 is an input fetched at every point.  For any proof data whose array
    is the entry contents (`hA`) and whose body leaves the window's buffer at its block (`hafter`), the buffer the body
    is handed at point `t` holds that block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

/-- All of a 2000x128 buffer (the blocks of windows 0 and 1, and the output block). -/
abbrev r0_0 : Rect S2000x128 := Rect.unit (s := S2000x128) ![0, 0] S2000x128.size inb_S2000x128_S2000x128_0_0
/-- All of the 2000x1 column (window 2). -/
abbrev r0_1 : Rect S2000x1 := Rect.unit (s := S2000x1) ![0, 0] S2000x1.size inb_S2000x1_S2000x1_0_0
/-- All of a 128x128 matrix (windows 3 and 5). -/
abbrev r0_2 : Rect S128x128 := Rect.unit (s := S128x128) ![0, 0] S128x128.size inb_S128x128_S128x128_0_0
/-- All of the 1x128 row (window 4). -/
abbrev r0_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out0_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r0_0, k0_pay1 (View.ld x0 r0_0) (View.ld x2 r0_1) (View.ld x1 r0_0) (View.ld x3 r0_2) (View.ld x5 r0_2) (View.ld x4 r0_3)⟩]

/-- The one stored rectangle is the whole 2000x128 block, so every position of the block lies in it. -/
theorem cover0_6 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out0_6 x0 … x5`.  The grid point `i` the body is
    called at plays no part. -/
theorem sound_kernel0 (c : Dev nD) (E : Set ℕ) (i : grid0.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_layer_kernel i arg1 harg1 arg2 harg2 arg3 harg3 arg4 harg4 arg5 harg5 arg6 harg6 arg7 harg7) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of this region's pipeline on core `c`: its arrays are the entry contents `V`; the body leaves each
    input's buffer at that input's block and the output's buffer at `out0_6` of the six input blocks; the invariant is
    the one of a region whose body touches nothing else (the scoped remainder and the generator register ride along);
    full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the entry contents (a projection of the definition; `V` itself is never opened). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the core's debts, and each window's current staging
    buffer at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it gives back: the same, each buffer now at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six inputs' buffers hold their blocks (`before0_w`), so the body's triple applies with those
    blocks; the invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Sage1.lean ====
import proofs.«121412_j16045997818029_2_alg».proof.Proof.Gen.KernelIdeal.Launch
import proofs.«121412_j16045997818029_2_alg».proof.Proof.Gen.KernelIdeal.Skeleton
import proofs.«121412_j16045997818029_2_alg».proof.Proof.Gen.KernelIdeal.Points
import Idealize.ShloMosaic.Lib.Pipeline.FrameBody
import Idealize.ShloMosaic.Lib.Ring
import Idealize.ShloMosaic.Lib.Tactic

/-!
# Region 1: the kernel `cc1__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 is an input fetched at every point.  For any proof data whose array
    is the entry contents (`hA`) and whose body leaves the window's buffer at its block (`hafter`), the buffer the body
    is handed at point `t` holds that block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 is an input fetched at every point.  For any proof data whose array
    is the entry contents (`hA`) and whose body leaves the window's buffer at its block (`hafter`), the buffer the body
    is handed at point `t` holds that block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 is an input fetched at every point.  For any proof data whose array
    is the entry contents (`hA`) and whose body leaves the window's buffer at its block (`hafter`), the buffer the body
    is handed at point `t` holds that block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

/-- All of a 2000x128 buffer (the blocks of windows 0 and 1, and the output block). -/
abbrev r1_0 : Rect S2000x128 := Rect.unit (s := S2000x128) ![0, 0] S2000x128.size inb_S2000x128_S2000x128_0_0
/-- All of the 2000x1 column (window 2). -/
abbrev r1_1 : Rect S2000x1 := Rect.unit (s := S2000x1) ![0, 0] S2000x1.size inb_S2000x1_S2000x1_0_0
/-- All of a 128x128 matrix (windows 3 and 5). -/
abbrev r1_2 : Rect S128x128 := Rect.unit (s := S128x128) ![0, 0] S128x128.size inb_S128x128_S128x128_0_0
/-- All of the 1x128 row (window 4). -/
abbrev r1_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out1_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r1_0, k1_pay1 (View.ld x0 r1_0) (View.ld x2 r1_1) (View.ld x1 r1_0) (View.ld x3 r1_2) (View.ld x5 r1_2) (View.ld x4 r1_3)⟩]

/-- The one stored rectangle is the whole 2000x128 block, so every position of the block lies in it. -/
theorem cover1_6 (p0 : Vec F S2000x128 .bf16) (y : S2000x128.Idx) :
    ∃ pc ∈ ([⟨r1_0, p0⟩] : List (View.Piece (Elt F) S2000x128 .bf16)), y ∈ pc.1.set :=
  View.cover_of_tiled [⟨r1_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out1_6 x0 … x5`.  The grid point `i` the body is
    called at plays no part. -/
theorem sound_kernel1 (c : Dev nD) (E : Set ℕ) (i : grid1.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_layer_kernel i arg1 harg1 arg2 harg2 arg3 harg3 arg4 harg4 arg5 harg5 arg6 harg6 arg7 harg7) K := by
  simp only [cc1__sage_layer_kernel_eq_skeleton]; unfold cc1__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of this region's pipeline on core `c`: its arrays are the entry contents `V`; the body leaves each
    input's buffer at that input's block and the output's buffer at `out1_6` of the six input blocks; the invariant is
    the one of a region whose body touches nothing else (the scoped remainder and the generator register ride along);
    full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents (a projection of the definition; `V` itself is never opened). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

/-- Each input's buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's debts, and each window's current staging
    buffer at what the pipeline has put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it gives back: the same, each buffer now at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six inputs' buffers hold their blocks (`before1_w`), so the body's triple applies with those
    blocks; the invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Sage2.lean ====
import proofs.«121412_j16045997818029_2_alg».proof.Proof.Gen.KernelIdeal.Launch
import proofs.«121412_j16045997818029_2_alg».proof.Proof.Gen.KernelIdeal.Skeleton
import proofs.«121412_j16045997818029_2_alg».proof.Proof.Gen.KernelIdeal.Points
import Idealize.ShloMosaic.Lib.Pipeline.FrameBody
import Idealize.ShloMosaic.Lib.Ring
import Idealize.ShloMosaic.Lib.Tactic

/-!
# Region 2: the kernel `cc2__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is an input fetched at every point.  For any proof data whose array
    is the entry contents (`hA`) and whose body leaves the window's buffer at its block (`hafter`), the buffer the body
    is handed at point `t` holds that block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is an input fetched at every point.  For any proof data whose array
    is the entry contents (`hA`) and whose body leaves the window's buffer at its block (`hafter`), the buffer the body
    is handed at point `t` holds that block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 is an input fetched at every point.  For any proof data whose array
    is the entry contents (`hA`) and whose body leaves the window's buffer at its block (`hafter`), the buffer the body
    is handed at point `t` holds that block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

/-- All of a 2000x128 buffer (the blocks of windows 0 and 1, and the output block). -/
abbrev r2_0 : Rect S2000x128 := Rect.unit (s := S2000x128) ![0, 0] S2000x128.size inb_S2000x128_S2000x128_0_0
/-- All of the 2000x1 column (window 2). -/
abbrev r2_1 : Rect S2000x1 := Rect.unit (s := S2000x1) ![0, 0] S2000x1.size inb_S2000x1_S2000x1_0_0
/-- All of a 128x128 matrix (windows 3 and 5). -/
abbrev r2_2 : Rect S128x128 := Rect.unit (s := S128x128) ![0, 0] S128x128.size inb_S128x128_S128x128_0_0
/-- All of the 1x128 row (window 4). -/
abbrev r2_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out2_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r2_0, k2_pay1 (View.ld x0 r2_0) (View.ld x2 r2_1) (View.ld x1 r2_0) (View.ld x3 r2_2) (View.ld x5 r2_2) (View.ld x4 r2_3)⟩]

/-- The one stored rectangle is the whole 2000x128 block, so every position of the block lies in it. -/
theorem cover2_6 (p0 : Vec F S2000x128 .bf16) (y : S2000x128.Idx) :
    ∃ pc ∈ ([⟨r2_0, p0⟩] : List (View.Piece (Elt F) S2000x128 .bf16)), y ∈ pc.1.set :=
  View.cover_of_tiled [⟨r2_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out2_6 x0 … x5`.  The grid point `i` the body is
    called at plays no part. -/
theorem sound_kernel2 (c : Dev nD) (E : Set ℕ) (i : grid2.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__sage_layer_kernel i arg1 harg1 arg2 harg2 arg3 harg3 arg4 harg4 arg5 harg5 arg6 harg6 arg7 harg7) K := by
  simp only [cc2__sage_layer_kernel_eq_skeleton]; unfold cc2__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this region's pipeline on core `c`: its arrays are the entry contents `V`; the body leaves each
    input's buffer at that input's block and the output's buffer at `out2_6` of the six input blocks; the invariant is
    the one of a region whose body touches nothing else (the scoped remainder and the generator register ride along);
    full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents (a projection of the definition; `V` itself is never opened). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

/-- Each input's buffer holds its block when the body is called, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, the core's debts, and each window's current staging
    buffer at what the pipeline has put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it gives back: the same, each buffer now at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the six inputs' buffers hold their blocks (`before2_w`), so the body's triple applies with those
    blocks; the invariant and the debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Sage3.lean ====
import proofs.«121412_j16045997818029_2_alg».proof.Proof.Gen.KernelIdeal.Launch
import proofs.«121412_j16045997818029_2_alg».proof.Proof.Gen.KernelIdeal.Skeleton
import proofs.«121412_j16045997818029_2_alg».proof.Proof.Gen.KernelIdeal.Points
import Idealize.ShloMosaic.Lib.Pipeline.FrameBody
import Idealize.ShloMosaic.Lib.Ring
import Idealize.ShloMosaic.Lib.Tactic

/-!
# Region 3: the kernel `cc3__sage_layer_kernel` on its grid of 25 points

The region reads six arrays through windows 0..5 and writes one through window 6.  A point of the grid
owns a block of 2000 rows of three of the inputs: an f32 2000x128 block (window 0), a bf16 2000x128 block
(window 1) and an f32 2000x1 column (window 2).  The other three inputs — two f32 128x128 matrices
(windows 3 and 5) and an f32 1x128 row (window 4) — are one block each, the same at every point.  At a
point the body reads the six blocks and overwrites the output block (window 6, bf16, 2000x128) with one
value computed from them.  Everything here is stated at a parameter `V`: the contents of the core's buffers
when the region is entered.  The module gives, for that `V`, each window's block at a point, the contents
the body leaves in the output block as a function of the six input blocks, the body's Hoare triple, and the
pipeline's proof data together with the body obligation the pipeline library asks for.
-/

-- deciding that one rectangle of 2000x128 entries tiles its shape recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` that belongs to point `t`: the entries of the window's array, as the region finds it,
    at the block's positions. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is an input fetched at every point.  For any proof data whose array
    is the entry contents (`hA`) and whose body leaves the window's buffer at its block (`hafter`), the buffer the body
    is handed at point `t` holds that block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 is an input fetched at every point.  For any proof data whose array
    is the entry contents (`hA`) and whose body leaves the window's buffer at its block (`hafter`), the buffer the body
    is handed at point `t` holds that block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 is an input fetched at every point.  For any proof data whose array
    is the entry contents (`hA`) and whose body leaves the window's buffer at its block (`hafter`), the buffer the body
    is handed at point `t` holds that block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 is an input fetched at the first point only, its block index never moving.  For any proof data whose array
    is the entry contents (`hA`) and whose body leaves the window's buffer at its block (`hafter`), the buffer the body
    is handed at point `t` holds that block: at a point without a fetch it still holds the previous point's block, which is the same one. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 is an input fetched at the first point only, its block index never moving.  For any proof data whose array
    is the entry contents (`hA`) and whose body leaves the window's buffer at its block (`hafter`), the buffer the body
    is handed at point `t` holds that block: at a point without a fetch it still holds the previous point's block, which is the same one. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Window 5 is an input fetched at the first point only, its block index never moving.  For any proof data whose array
    is the entry contents (`hA`) and whose body leaves the window's buffer at its block (`hafter`), the buffer the body
    is handed at point `t` holds that block: at a point without a fetch it still holds the previous point's block, which is the same one. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is a whole buffer -/

/-- All of a 2000x128 buffer (the blocks of windows 0 and 1, and the output block). -/
abbrev r3_0 : Rect S2000x128 := Rect.unit (s := S2000x128) ![0, 0] S2000x128.size inb_S2000x128_S2000x128_0_0
/-- All of the 2000x1 column (window 2). -/
abbrev r3_1 : Rect S2000x1 := Rect.unit (s := S2000x1) ![0, 0] S2000x1.size inb_S2000x1_S2000x1_0_0
/-- All of a 128x128 matrix (windows 3 and 5). -/
abbrev r3_2 : Rect S128x128 := Rect.unit (s := S128x128) ![0, 0] S128x128.size inb_S128x128_S128x128_0_0
/-- All of the 1x128 row (window 4). -/
abbrev r3_3 : Rect S1x128 := Rect.unit (s := S1x128) ![0, 0] S1x128.size inb_S1x128_S1x128_0_0

/-! ## What the body leaves in the output block -/

/-- The output block after the body, as a function of the six input blocks `x0 … x5` (in window order): the
    body's single store covers the whole block, and the stored value is
    `bf16 (max (bf16 (x0 * x2) · bf16 x3 + x1 · bf16 x5 + x4) 0)`: the rows of `x0` scaled by the column `x2` and rounded to bf16,
    times `x3` rounded to bf16, plus `x1` times `x5` rounded to bf16 (both products accumulated in f32), plus the row `x4`
    added to every row, the maximum with zero, rounded to bf16.  The formula takes the blocks in the order the body reads
    them: `x0, x2, x1, x3, x5, x4`. -/
def out3_6 (x0 : Vec F S2000x128 .f32) (x1 : Vec F S2000x128 .bf16) (x2 : Vec F S2000x1 .f32) (x3 : Vec F S128x128 .f32)
    (x4 : Vec F S1x128 .f32) (x5 : Vec F S128x128 .f32) : Vec F S2000x128 .bf16 :=
  View.canon [⟨r3_0, k3_pay1 (View.ld x0 r3_0) (View.ld x2 r3_1) (View.ld x1 r3_0) (View.ld x3 r3_2) (View.ld x5 r3_2) (View.ld x4 r3_3)⟩]

/-- The one stored rectangle is the whole 2000x128 block, so every position of the block lies in it. -/
theorem cover3_6 (p0 : Vec F S2000x128 .bf16) (y : S2000x128.Idx) :
    ∃ pc ∈ ([⟨r3_0, p0⟩] : List (View.Piece (Elt F) S2000x128 .bf16)), y ∈ pc.1.set :=
  View.cover_of_tiled [⟨r3_0, p0⟩] S2000x128.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out3_6 x0 … x5`.  The grid point `i` the body is
    called at plays no part. -/
theorem sound_kernel3 (c : Dev nD) (E : Set ℕ) (i : grid3.Coords)
    (arg1 : Memref sig .tc .vmem S2000x128 .f32) (harg1 : arg1.IsWhole) (arg2 : Memref sig .tc .vmem S2000x128 .bf16) (harg2 : arg2.IsWhole)
    (arg3 : Memref sig .tc .vmem S2000x1 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S2000x128 .bf16) (harg7 : arg7.IsWhole)
    (x0 : Vec F S2000x128 .f32) (x1 : Vec F S2000x128 .bf16) (x2 : Vec F S2000x1 .f32) (x3 : Vec F S128x128 .f32)
    (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__sage_layer_kernel i arg1 harg1 arg2 harg2 arg3 harg3 arg4 harg4 arg5 harg5 arg6 harg6 arg7 harg7) K := by
  simp only [cc3__sage_layer_kernel_eq_skeleton]; unfold cc3__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of this region's pipeline on core `c`: its arrays are the entry contents `V`; the body leaves each
    input's buffer at that input's block and the output's buffer at `out3_6` of the six input blocks; the invariant is
    the one of a region whose body touches nothing else (the scoped remainder and the generator register ride along);
    full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the entry contents (a projection of the definition; `V` itself is never opened). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

/-- Each input's buffer holds its block when the body is called, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`: the invariant, the core's debts, and each window's current staging
    buffer at what the pipeline has put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it gives back: the same, each buffer now at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the six inputs' buffers hold their blocks (`before3_w`), so the body's triple applies with those
    blocks; the invariant and the debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Mlp.lean ====
import proofs.«121412_j16045997818029_2_alg».proof.Proof.Gen.KernelIdeal.Launch
import proofs.«121412_j16045997818029_2_alg».proof.Proof.Gen.KernelIdeal.Skeleton
import proofs.«121412_j16045997818029_2_alg».proof.Proof.Gen.KernelIdeal.Points
import Idealize.ShloMosaic.Lib.Pipeline.FrameBody
import Idealize.ShloMosaic.Lib.Ring
import Idealize.ShloMosaic.Lib.Tactic

/-!
# Region 4: the kernel `cc4__mlp_kernel`, a grid of one point

The region reads six f32 arrays through windows 0..5, each window one block that is the whole array: a 128x512
matrix, a 128x1 column, a 512x128 matrix, a 1x128 row, a 128x10 matrix and a 1x10 row.  At its single point the
body reads the six blocks and overwrites the 128x10 output block (window 6) with one value computed from them.
Everything here is stated at a parameter `V`: the contents of the core's buffers when the region is entered.  The
module gives, for that `V`, each window's block, the contents the body leaves in the output block as a function of
the six input blocks, the body's Hoare triple, and the pipeline's proof data together with the body obligation the
pipeline library asks for.
-/

-- deciding that one rectangle tiles its shape recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- The block of window `w` at point `t` (there is one point, and every block is its whole array): the entries of the
    window's array, as the region finds it, at the block's positions. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 is an input fetched at the region's one point.  For any proof data whose array is the entry contents
    (`hA`) and whose body leaves the window's buffer at its block (`hafter`), the buffer the body is handed holds that block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 is an input fetched at the region's one point.  For any proof data whose array is the entry contents
    (`hA`) and whose body leaves the window's buffer at its block (`hafter`), the buffer the body is handed holds that block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 is an input fetched at the region's one point.  For any proof data whose array is the entry contents
    (`hA`) and whose body leaves the window's buffer at its block (`hafter`), the buffer the body is handed holds that block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 is an input fetched at the region's one point.  For any proof data whose array is the entry contents
    (`hA`) and whose body leaves the window's buffer at its block (`hafter`), the buffer the body is handed holds that block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 is an input fetched at the region's one point.  For any proof data whose array is the entry contents
    (`hA`) and whose body leaves the window's buffer at its block (`hafter`), the buffer the body is handed holds that block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 is an input fetched at the region's one point.  For any proof data whose array is the entry contents
    (`hA`) and whose body leaves the window's buffer at its block (`hafter`), the buffer the body is handed holds that block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each is a whole buffer -/

/-- All of the 128x512 matrix (window 0). -/
abbrev r4_0 : Rect S128x512 := Rect.unit (s := S128x512) ![0, 0] S128x512.size inb_S128x512_S128x512_0_0
/-- All of the 128x1 column (window 1). -/
abbrev r4_1 : Rect S128x1 := Rect.unit (s := S128x1) ![0, 0] S128x1.size inb_S128x1_S128x1_0_0
/-- All of the 512x128 matrix (window 2). -/
abbrev r4_2 : Rect S512x128 := Rect.unit (s := S512x128) ![0, 0] S512x128.size inb_S512x128_S512x128_0_0
/-- All of the 1x128 row (window 3). -/
abbrev r4_3 : Rect S1x128 := Rect.unit (s := S1x128) ![0, 0] S1x128.size inb_S1x128_S1x128_0_0
/-- All of a 128x10 buffer (window 4's block, and the output block). -/
abbrev r4_4 : Rect S128x10 := Rect.unit (s := S128x10) ![0, 0] S128x10.size inb_S128x10_S128x10_0_0
/-- All of the 1x10 row (window 5). -/
abbrev r4_5 : Rect S1x10 := Rect.unit (s := S1x10) ![0, 0] S1x10.size inb_S1x10_S1x10_0_0

/-! ## What the body leaves in the output block -/

/-- The output block after the body, as a function of the six input blocks `x0 … x5` (window order, which is also the
    order the body reads them in): the body's single store covers the whole block, and the stored value is, row by row,
    `z - log (Σ exp z)` with `z = y - max y` (sum and maximum along each row of 10) and
    `y = bf16 (max (bf16 (x0 / x1) · bf16 x2 + x3) 0) · bf16 x4 + x5`: the rows of `x0` divided by the column `x1`, times `x2`, plus the
    row `x3` added to every row, the maximum with zero, times `x4`, plus the row `x5` added to every row — each factor of a
    product rounded to bf16 first, the products accumulated in f32. -/
def out4_6 (x0 : Vec F S128x512 .f32) (x1 : Vec F S128x1 .f32) (x2 : Vec F S512x128 .f32) (x3 : Vec F S1x128 .f32)
    (x4 : Vec F S128x10 .f32) (x5 : Vec F S1x10 .f32) : Vec F S128x10 .f32 :=
  View.canon [⟨r4_4, k4_pay1 (View.ld x0 r4_0) (View.ld x1 r4_1) (View.ld x2 r4_2) (View.ld x3 r4_3) (View.ld x4 r4_4) (View.ld x5 r4_5)⟩]

/-- The one stored rectangle is the whole 128x10 block, so every position of the block lies in it. -/
theorem cover4_6 (p0 : Vec F S128x10 .f32) (y : S128x10.Idx) :
    ∃ pc ∈ ([⟨r4_4, p0⟩] : List (View.Piece (Elt F) S128x10 .f32)), y ∈ pc.1.set :=
  View.cover_of_tiled [⟨r4_4, p0⟩] S128x10.size (by rfl) y

/-! ## The body's triple -/

set_option maxHeartbeats 1000000 in
/-- The body run on seven whole staging buffers: the six inputs holding `x0 … x5`, the output holding anything.
    It reads the six inputs whole, reads the output buffer (the value is not used), and stores over the whole output
    buffer; so it ends with the inputs unchanged and the output at `out4_6 x0 … x5`.  The grid point `i` the body is
    called at plays no part. -/
theorem sound_kernel4 (c : Dev nD) (E : Set ℕ) (i : grid4.Coords)
    (arg1 : Memref sig .tc .vmem S128x512 .f32) (harg1 : arg1.IsWhole) (arg2 : Memref sig .tc .vmem S128x1 .f32) (harg2 : arg2.IsWhole)
    (arg3 : Memref sig .tc .vmem S512x128 .f32) (harg3 : arg3.IsWhole) (arg4 : Memref sig .tc .vmem S1x128 .f32) (harg4 : arg4.IsWhole)
    (arg5 : Memref sig .tc .vmem S128x10 .f32) (harg5 : arg5.IsWhole) (arg6 : Memref sig .tc .vmem S1x10 .f32) (harg6 : arg6.IsWhole)
    (arg7 : Memref sig .tc .vmem S128x10 .f32) (harg7 : arg7.IsWhole)
    (x0 : Vec F S128x512 .f32) (x1 : Vec F S128x1 .f32) (x2 : Vec F S512x128 .f32) (x3 : Vec F S1x128 .f32)
    (x4 : Vec F S128x10 .f32) (x5 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of this region's pipeline on core `c`: its arrays are the entry contents `V`; the body leaves each
    input's buffer at that input's block and the output's buffer at `out4_6` of the six input blocks; the invariant is
    the one of a region whose body touches nothing else (the scoped remainder and the generator register ride along);
    full shares, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the entry contents (a projection of the definition; `V` itself is never opened). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t =
    out4_6 (iblk4 V c 0 t) (iblk4 V c 1 t) (iblk4 V c 2 t) (iblk4 V c 3 t) (iblk4 V c 4 t) (iblk4 V c 5 t) := by dsimp only [dat4]

/-- Each input's buffer holds its block when the body is called. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`: the invariant, the core's debts, and each window's current staging
    buffer at what the pipeline has put there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- What it gives back: the same, each buffer now at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at the point: the six inputs' buffers hold their blocks (`before4_w`), so the body's triple applies with those
    blocks; the invariant and the debts pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for this region. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«121412_j16045997818029_2_alg».proof.Proof.KI.Sage0
import proofs.«121412_j16045997818029_2_alg».proof.Proof.KI.Sage1
import proofs.«121412_j16045997818029_2_alg».proof.Proof.KI.Sage2
import proofs.«121412_j16045997818029_2_alg».proof.Proof.KI.Sage3
import proofs.«121412_j16045997818029_2_alg».proof.Proof.KI.Mlp
import proofs.«121412_j16045997818029_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's ten segments from the launch to the return

## The buffer contents at each segment boundary: a fold through @main -/

/-- Core `c`'s buffers at launch. -/
abbrev W0 : Dev nD → Valuation τ sig (Elt F) := fun c b => (s₀ m ρ).mem ((c : Dev nD), b)

/-- After `hostOps0`: the contents region 0 is entered with. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays hold what the pipeline leaves (an input as entered, the output with every
    block's write-back folded in), every other buffer what it held at entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: the contents region 1 is entered with. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays hold what the pipeline leaves (an input as entered, the output with every
    block's write-back folded in), every other buffer what it held at entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: the contents region 2 is entered with. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays hold what the pipeline leaves (an input as entered, the output with every
    block's write-back folded in), every other buffer what it held at entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: the contents region 3 is entered with. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays hold what the pipeline leaves (an input as entered, the output with every
    block's write-back folded in), every other buffer what it held at entry. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: the contents region 4 is entered with. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays hold what the pipeline leaves (an input as entered, the output with every
    block's write-back folded in), every other buffer what it held at entry. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ### The arguments end as launched: no host operation writes one, and a region either does not touch it or
    reads it through an input window, whose array the pipeline leaves as entered -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := (W10_arr m ρ c 2).trans (((dat4 (V9 m ρ) c).arrAt_in 2 rfl _).trans (A_eq4 (V9 m ρ) c 2))
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := (W10_arr m ρ c 4).trans (((dat4 (V9 m ρ) c).arrAt_in 4 rfl _).trans (A_eq4 (V9 m ρ) c 4))
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- The result buffer at the return: region 4's output array with its one block written back. -/
theorem W10_result (c : Dev nD) : W10 m ρ c (Proc.devRef .tc main_v116) = (dat4 (V9 m ρ) c).arrAt 6 cfg4.N :=
  W10_arr m ρ c 6

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W1`, left with them at `W2`. Its
    arrays are split out of the unscoped buffers at entry and put back at the exit contents; the generator register goes
    into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers at entry and put back at the exit contents; the generator register goes
    into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers at entry and put back at the exit contents; the generator register goes
    into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers at entry and put back at the exit contents; the generator register goes
    into the pipeline's invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W9`, left with them at `W10`. Its
    arrays are split out of the unscoped buffers at entry and put back at the exit contents; the generator register goes
    into the pipeline's invariant and comes back; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and in every final state each unscoped buffer of each core holds the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩) (run_all m ρ)

/-- The result buffer ends holding region 4's output array with its block written back, and every argument array as
    launched. -/
theorem run_result : θ_run defs (onTc (τ := τ) (main (F := F))) ⟨m, fun _ => 0, ρ⟩ (fun r => ∀ c : Dev nD,
      r.2.mem ((c.tc : Thread nD τ).loc main_v116) = (dat4 (V9 m ρ) c).arrAt 6 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v116 (by decide))).trans (W10_result m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩) (run_all m ρ)

end Cert.KernelIdeal.Hand

end
-- ==== Proof.KernelTerms.lean ====
/-
  WHAT THE KERNEL PROGRAM'S BUFFERS HOLD, as functions of the ten argument arrays, over the extended reals.

  The program gathers each edge's source-node features, adds them into the edge's destination node (`agg`), scales by
  the inverse in-degree (`inv`), and applies the dense layer of SageSpec (`layerK`), four times; after each layer it sums
  the node features of every graph (`pool`); it joins the four pooled arrays along the columns (`pooled`), counts the
  nodes of every graph (`cnt`), and applies the classifier (`outK`, the last kernel's stored value).  Every function
  below is spelt with the program's own host operations, so that each is what the corresponding stretch of @main
  leaves in its buffer.
-/
import proofs.«121412_j16045997818029_2_alg».proof.Proof.Gen.KernelIdeal.Skeleton
import Idealize.ShloMosaic.PureOps.Ideal

noncomputable section

namespace Cert.KernelIdeal.Terms

open Cert.KernelIdeal Cert.KernelIdeal.Gen Idealize.ShloMosaic

/-- The edges' source nodes. -/
def src (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- The edges' destination nodes. -/
def dst (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The destination nodes as a column of scatter indices. -/
def dstIdx (x1 : (⟨S2x800000, .i32⟩ : BufTy).Contents (Elt Ideal)) : (⟨S800000x1, .i32⟩ : BufTy).Contents (Elt Ideal) :=
  broadcastInDim S800000x1 ![0] bcast_S800000_S800000x1_0 (dst x1)

/-- The source nodes as a column of gather indices, a negative index counted from the end. -/
def srcIdx (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (src x1) (broadcastInDim S800000 ![] bcast_S_S800000 (constantI S_ 32 0#32)))
      (addi (src x1) (broadcastInDim S800000 ![] bcast_S_S800000 (constantI S_ 32 50000#32))) (src x1))

/-- The inverse in-degree of every node (a node without in-edges counts one), as a column. -/
def inv (x1 : (⟨S2x800000, .i32⟩ : BufTy).Contents (Elt Ideal)) : (⟨S50000x1, .f32⟩ : BufTy).Contents (Elt Ideal) :=
  shapeCast _
    (Host.divf (F := Ideal) (broadcastInDim S50000 ![] bcast_S_S50000 (constant (F := Ideal) S_ .f32 0x3F800000#32))
      (maximumf
        (Host.scatterAdd (F := Ideal) scatter_S50000_S800000x1_S800000_n_0_0_1
          (broadcastInDim S50000 ![] bcast_S_S50000 (constant (F := Ideal) S_ .f32 0x00000000#32)) (dstIdx x1)
          (broadcastInDim S800000 ![] bcast_S_S800000 (constant (F := Ideal) S_ .f32 0x3F800000#32)))
        (broadcastInDim S50000 ![] bcast_S_S50000 (constant (F := Ideal) S_ .f32 0x3F800000#32))))
    shapeCasts_S50000_S50000x1

/-- The node features as the first layer reads them: the input in the narrower float format (the same numbers). -/
def h0 (x0 : (⟨S50000x128, .f32⟩ : BufTy).Contents (Elt Ideal)) : (⟨S50000x128, .bf16⟩ : BufTy).Contents (Elt Ideal) :=
  ((truncf (F := Ideal) .bf16 · bitsLt_bf16_f32) : (⟨S50000x128, .f32⟩ : BufTy).Contents (Elt Ideal) → (⟨S50000x128, .bf16⟩ : BufTy).Contents (Elt Ideal)) x0

/-- The neighbour sum: every edge's source row added into its destination row. -/
def agg (x1 : (⟨S2x800000, .i32⟩ : BufTy).Contents (Elt Ideal)) (h : (⟨S50000x128, .bf16⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dstIdx x1)
    (extf (F := Ideal) .f32 (Host.gather gather_S50000x128_S800000x1_S800000x128_1_0_n_n_0_1_1128 h (srcIdx x1)) bitsLt_bf16_f32)

/-- The per-graph sum of the node features. -/
def pool (x2 : (⟨S50000, .i32⟩ : BufTy).Contents (Elt Ideal)) (h : (⟨S50000x128, .bf16⟩ : BufTy).Contents (Elt Ideal)) :
    (⟨S128x128, .f32⟩ : BufTy).Contents (Elt Ideal) :=
  Host.scatterAdd (F := Ideal) scatter_S128x128_S50000x1_S50000x128_1_0_0_1
    (broadcastInDim S128x128 ![] bcast_S_S128x128 (constant (F := Ideal) S_ .f32 0x00000000#32))
    (broadcastInDim S50000x1 ![0] bcast_S50000_S50000x1_0 x2) (extf (F := Ideal) .f32 h bitsLt_bf16_f32)

/-- The number of nodes of every graph, at least one, as a column. -/
def cnt (x2 : (⟨S50000, .i32⟩ : BufTy).Contents (Elt Ideal)) : (⟨S128x1, .f32⟩ : BufTy).Contents (Elt Ideal) :=
  shapeCast _
    (maximumf
      (Host.scatterAdd (F := Ideal) scatter_S128_S50000x1_S50000_n_0_0_1
        (broadcastInDim S128 ![] bcast_S_S128 (constant (F := Ideal) S_ .f32 0x00000000#32))
        (broadcastInDim S50000x1 ![0] bcast_S50000_S50000x1_0 x2)
        (broadcastInDim S50000 ![] bcast_S_S50000 (constant (F := Ideal) S_ .f32 0x3F800000#32)))
      (broadcastInDim S128 ![] bcast_S_S128 (constant (F := Ideal) S_ .f32 0x3F800000#32)))
    shapeCasts_S128_S128x1

/-- Layer 0's neighbour weight matrix: slice 0 of the stacked weights. -/
def wl0 (x3 : (⟨S4x128x128, .f32⟩ : BufTy).Contents (Elt Ideal)) : (⟨S128x128, .f32⟩ : BufTy).Contents (Elt Ideal) :=
  shapeCast _ (extractStridedSlice S1x128x128 ![0, 0, 0] x3 slices_S4x128x128_S1x128x128_0_0_0) shapeCasts_S1x128x128_S128x128

/-- Layer 0's bias, as a vector. -/
def blv0 (x4 : (⟨S4x128, .f32⟩ : BufTy).Contents (Elt Ideal)) : (⟨S128, .f32⟩ : BufTy).Contents (Elt Ideal) :=
  shapeCast _ (extractStridedSlice S1x128 ![0, 0] x4 slices_S4x128_S1x128_0_0) shapeCasts_S1x128_S128

/-- Layer 0's bias, as the one-row array the kernel is handed. -/
def bl0 (x4 : (⟨S4x128, .f32⟩ : BufTy).Contents (Elt Ideal)) : (⟨S1x128, .f32⟩ : BufTy).Contents (Elt Ideal) :=
  shapeCast _ (blv0 x4) shapeCasts_S128_S1x128

/-- Layer 0's own-feature weight matrix. -/
def wr0 (x5 : (⟨S4x128x128, .f32⟩ : BufTy).Contents (Elt Ideal)) : (⟨S128x128, .f32⟩ : BufTy).Contents (Elt Ideal) :=
  shapeCast _ (extractStridedSlice S1x128x128 ![0, 0, 0] x5 slices_S4x128x128_S1x128x128_0_0_0) shapeCasts_S1x128x128_S128x128

/-- Layer 1's neighbour weight matrix: slice 1 of the stacked weights. -/
def wl1 (x3 : (⟨S4x128x128, .f32⟩ : BufTy).Contents (Elt Ideal)) : (⟨S128x128, .f32⟩ : BufTy).Contents (Elt Ideal) :=
  shapeCast _ (extractStridedSlice S1x128x128 ![1, 0, 0] x3 slices_S4x128x128_S1x128x128_1_0_0) shapeCasts_S1x128x128_S128x128

/-- Layer 1's bias, as a vector. -/
def blv1 (x4 : (⟨S4x128, .f32⟩ : BufTy).Contents (Elt Ideal)) : (⟨S128, .f32⟩ : BufTy).Contents (Elt Ideal) :=
  shapeCast _ (extractStridedSlice S1x128 ![1, 0] x4 slices_S4x128_S1x128_1_0) shapeCasts_S1x128_S128

/-- Layer 1's bias, as the one-row array the kernel is handed. -/
def bl1 (x4 : (⟨S4x128, .f32⟩ : BufTy).Contents (Elt Ideal)) : (⟨S1x128, .f32⟩ : BufTy).Contents (Elt Ideal) :=
  shapeCast _ (blv1 x4) shapeCasts_S128_S1x128

/-- Layer 1's own-feature weight matrix. -/
def wr1 (x5 : (⟨S4x128x128, .f32⟩ : BufTy).Contents (Elt Ideal)) : (⟨S128x128, .f32⟩ : BufTy).Contents (Elt Ideal) :=
  shapeCast _ (extractStridedSlice S1x128x128 ![1, 0, 0] x5 slices_S4x128x128_S1x128x128_1_0_0) shapeCasts_S1x128x128_S128x128

/-- Layer 2's neighbour weight matrix: slice 2 of the stacked weights. -/
def wl2 (x3 : (⟨S4x128x128, .f32⟩ : BufTy).Contents (Elt Ideal)) : (⟨S128x128, .f32⟩ : BufTy).Contents (Elt Ideal) :=
  shapeCast _ (extractStridedSlice S1x128x128 ![2, 0, 0] x3 slices_S4x128x128_S1x128x128_2_0_0) shapeCasts_S1x128x128_S128x128

/-- Layer 2's bias, as a vector. -/
def blv2 (x4 : (⟨S4x128, .f32⟩ : BufTy).Contents (Elt Ideal)) : (⟨S128, .f32⟩ : BufTy).Contents (Elt Ideal) :=
  shapeCast _ (extractStridedSlice S1x128 ![2, 0] x4 slices_S4x128_S1x128_2_0) shapeCasts_S1x128_S128

/-- Layer 2's bias, as the one-row array the kernel is handed. -/
def bl2 (x4 : (⟨S4x128, .f32⟩ : BufTy).Contents (Elt Ideal)) : (⟨S1x128, .f32⟩ : BufTy).Contents (Elt Ideal) :=
  shapeCast _ (blv2 x4) shapeCasts_S128_S1x128

/-- Layer 2's own-feature weight matrix. -/
def wr2 (x5 : (⟨S4x128x128, .f32⟩ : BufTy).Contents (Elt Ideal)) : (⟨S128x128, .f32⟩ : BufTy).Contents (Elt Ideal) :=
  shapeCast _ (extractStridedSlice S1x128x128 ![2, 0, 0] x5 slices_S4x128x128_S1x128x128_2_0_0) shapeCasts_S1x128x128_S128x128

/-- Layer 3's neighbour weight matrix: slice 3 of the stacked weights. -/
def wl3 (x3 : (⟨S4x128x128, .f32⟩ : BufTy).Contents (Elt Ideal)) : (⟨S128x128, .f32⟩ : BufTy).Contents (Elt Ideal) :=
  shapeCast _ (extractStridedSlice S1x128x128 ![3, 0, 0] x3 slices_S4x128x128_S1x128x128_3_0_0) shapeCasts_S1x128x128_S128x128

/-- Layer 3's bias, as a vector. -/
def blv3 (x4 : (⟨S4x128, .f32⟩ : BufTy).Contents (Elt Ideal)) : (⟨S128, .f32⟩ : BufTy).Contents (Elt Ideal) :=
  shapeCast _ (extractStridedSlice S1x128 ![3, 0] x4 slices_S4x128_S1x128_3_0) shapeCasts_S1x128_S128

/-- Layer 3's bias, as the one-row array the kernel is handed. -/
def bl3 (x4 : (⟨S4x128, .f32⟩ : BufTy).Contents (Elt Ideal)) : (⟨S1x128, .f32⟩ : BufTy).Contents (Elt Ideal) :=
  shapeCast _ (blv3 x4) shapeCasts_S128_S1x128

/-- Layer 3's own-feature weight matrix. -/
def wr3 (x5 : (⟨S4x128x128, .f32⟩ : BufTy).Contents (Elt Ideal)) : (⟨S128x128, .f32⟩ : BufTy).Contents (Elt Ideal) :=
  shapeCast _ (extractStridedSlice S1x128x128 ![3, 0, 0] x5 slices_S4x128x128_S1x128x128_3_0_0) shapeCasts_S1x128x128_S128x128

/-- The four pooled arrays joined along the columns. -/
def pooled (g0 g1 g2 g3 : (⟨S128x128, .f32⟩ : BufTy).Contents (Elt Ideal)) : (⟨S128x512, .f32⟩ : BufTy).Contents (Elt Ideal) :=
  concatenate S128x512 1 [⟨S128x128, g0⟩, ⟨S128x128, g1⟩, ⟨S128x128, g2⟩, ⟨S128x128, g3⟩] concatenates_S128x128_S128x128_S128x128_S128x128_S128x512_d1

/-- The classifier's first bias as a one-row array. -/
def b1row (x7 : (⟨S128, .f32⟩ : BufTy).Contents (Elt Ideal)) : (⟨S1x128, .f32⟩ : BufTy).Contents (Elt Ideal) :=
  shapeCast _ x7 shapeCasts_S128_S1x128

/-- The classifier's second bias as a one-row array. -/
def b2row (x9 : (⟨S10, .f32⟩ : BufTy).Contents (Elt Ideal)) : (⟨S1x10, .f32⟩ : BufTy).Contents (Elt Ideal) :=
  shapeCast _ x9 shapeCasts_S10_S1x10

end Cert.KernelIdeal.Terms

end
-- ==== Proof.KI.Glue.lean ====
import proofs.«121412_j16045997818029_2_alg».proof.Proof.KI.Run
import proofs.«121412_j16045997818029_2_alg».proof.Proof.KernelTerms
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! # What the buffers hold at each region's entry, as functions of the argument arrays

Throughout, the argument arrays are read off the launch memory, `m (c, main_argJ)`, and `H_l` (l = 1 … 4) is what
region l - 1 left in its output buffer, as the following host stretch finds it. -/

/-! ## The arguments at every boundary: nothing writes them -/
theorem W1_arg0 : W1 m ρ c (Proc.devRef .tc main_arg0) = (m (c, Proc.devRef .tc main_arg0)) :=
  (StableHlo.after_of_writes_sub hostOps0 _ hostOps0_writes (by decide))
theorem W2_arg0 : W2 m ρ c (Proc.devRef .tc main_arg0) = (m (c, Proc.devRef .tc main_arg0)) :=
  (W2_of_ne m ρ c main_arg0 (by decide)).trans (W1_arg0 m ρ c)
theorem W3_arg0 : W3 m ρ c (Proc.devRef .tc main_arg0) = (m (c, Proc.devRef .tc main_arg0)) :=
  (StableHlo.after_of_writes_sub hostOps1 _ hostOps1_writes (by decide)).trans (W2_arg0 m ρ c)
theorem W4_arg0 : W4 m ρ c (Proc.devRef .tc main_arg0) = (m (c, Proc.devRef .tc main_arg0)) :=
  (W4_of_ne m ρ c main_arg0 (by decide)).trans (W3_arg0 m ρ c)
theorem W5_arg0 : W5 m ρ c (Proc.devRef .tc main_arg0) = (m (c, Proc.devRef .tc main_arg0)) :=
  (StableHlo.after_of_writes_sub hostOps2 _ hostOps2_writes (by decide)).trans (W4_arg0 m ρ c)
theorem W6_arg0 : W6 m ρ c (Proc.devRef .tc main_arg0) = (m (c, Proc.devRef .tc main_arg0)) :=
  (W6_of_ne m ρ c main_arg0 (by decide)).trans (W5_arg0 m ρ c)
theorem W7_arg0 : W7 m ρ c (Proc.devRef .tc main_arg0) = (m (c, Proc.devRef .tc main_arg0)) :=
  (StableHlo.after_of_writes_sub hostOps3 _ hostOps3_writes (by decide)).trans (W6_arg0 m ρ c)
theorem W8_arg0 : W8 m ρ c (Proc.devRef .tc main_arg0) = (m (c, Proc.devRef .tc main_arg0)) :=
  (W8_of_ne m ρ c main_arg0 (by decide)).trans (W7_arg0 m ρ c)
theorem W9_arg0 : W9 m ρ c (Proc.devRef .tc main_arg0) = (m (c, Proc.devRef .tc main_arg0)) :=
  (StableHlo.after_of_writes_sub hostOps4 _ hostOps4_writes (by decide)).trans (W8_arg0 m ρ c)
theorem W1_arg1 : W1 m ρ c (Proc.devRef .tc main_arg1) = (m (c, Proc.devRef .tc main_arg1)) :=
  (StableHlo.after_of_writes_sub hostOps0 _ hostOps0_writes (by decide))
theorem W2_arg1 : W2 m ρ c (Proc.devRef .tc main_arg1) = (m (c, Proc.devRef .tc main_arg1)) :=
  (W2_of_ne m ρ c main_arg1 (by decide)).trans (W1_arg1 m ρ c)
theorem W3_arg1 : W3 m ρ c (Proc.devRef .tc main_arg1) = (m (c, Proc.devRef .tc main_arg1)) :=
  (StableHlo.after_of_writes_sub hostOps1 _ hostOps1_writes (by decide)).trans (W2_arg1 m ρ c)
theorem W4_arg1 : W4 m ρ c (Proc.devRef .tc main_arg1) = (m (c, Proc.devRef .tc main_arg1)) :=
  (W4_of_ne m ρ c main_arg1 (by decide)).trans (W3_arg1 m ρ c)
theorem W5_arg1 : W5 m ρ c (Proc.devRef .tc main_arg1) = (m (c, Proc.devRef .tc main_arg1)) :=
  (StableHlo.after_of_writes_sub hostOps2 _ hostOps2_writes (by decide)).trans (W4_arg1 m ρ c)
theorem W6_arg1 : W6 m ρ c (Proc.devRef .tc main_arg1) = (m (c, Proc.devRef .tc main_arg1)) :=
  (W6_of_ne m ρ c main_arg1 (by decide)).trans (W5_arg1 m ρ c)
theorem W7_arg1 : W7 m ρ c (Proc.devRef .tc main_arg1) = (m (c, Proc.devRef .tc main_arg1)) :=
  (StableHlo.after_of_writes_sub hostOps3 _ hostOps3_writes (by decide)).trans (W6_arg1 m ρ c)
theorem W8_arg1 : W8 m ρ c (Proc.devRef .tc main_arg1) = (m (c, Proc.devRef .tc main_arg1)) :=
  (W8_of_ne m ρ c main_arg1 (by decide)).trans (W7_arg1 m ρ c)
theorem W9_arg1 : W9 m ρ c (Proc.devRef .tc main_arg1) = (m (c, Proc.devRef .tc main_arg1)) :=
  (StableHlo.after_of_writes_sub hostOps4 _ hostOps4_writes (by decide)).trans (W8_arg1 m ρ c)
theorem W1_arg2 : W1 m ρ c (Proc.devRef .tc main_arg2) = (m (c, Proc.devRef .tc main_arg2)) :=
  (StableHlo.after_of_writes_sub hostOps0 _ hostOps0_writes (by decide))
theorem W2_arg2 : W2 m ρ c (Proc.devRef .tc main_arg2) = (m (c, Proc.devRef .tc main_arg2)) :=
  (W2_of_ne m ρ c main_arg2 (by decide)).trans (W1_arg2 m ρ c)
theorem W3_arg2 : W3 m ρ c (Proc.devRef .tc main_arg2) = (m (c, Proc.devRef .tc main_arg2)) :=
  (StableHlo.after_of_writes_sub hostOps1 _ hostOps1_writes (by decide)).trans (W2_arg2 m ρ c)
theorem W4_arg2 : W4 m ρ c (Proc.devRef .tc main_arg2) = (m (c, Proc.devRef .tc main_arg2)) :=
  (W4_of_ne m ρ c main_arg2 (by decide)).trans (W3_arg2 m ρ c)
theorem W5_arg2 : W5 m ρ c (Proc.devRef .tc main_arg2) = (m (c, Proc.devRef .tc main_arg2)) :=
  (StableHlo.after_of_writes_sub hostOps2 _ hostOps2_writes (by decide)).trans (W4_arg2 m ρ c)
theorem W6_arg2 : W6 m ρ c (Proc.devRef .tc main_arg2) = (m (c, Proc.devRef .tc main_arg2)) :=
  (W6_of_ne m ρ c main_arg2 (by decide)).trans (W5_arg2 m ρ c)
theorem W7_arg2 : W7 m ρ c (Proc.devRef .tc main_arg2) = (m (c, Proc.devRef .tc main_arg2)) :=
  (StableHlo.after_of_writes_sub hostOps3 _ hostOps3_writes (by decide)).trans (W6_arg2 m ρ c)
theorem W8_arg2 : W8 m ρ c (Proc.devRef .tc main_arg2) = (m (c, Proc.devRef .tc main_arg2)) :=
  (W8_of_ne m ρ c main_arg2 (by decide)).trans (W7_arg2 m ρ c)
theorem W9_arg2 : W9 m ρ c (Proc.devRef .tc main_arg2) = (m (c, Proc.devRef .tc main_arg2)) :=
  (StableHlo.after_of_writes_sub hostOps4 _ hostOps4_writes (by decide)).trans (W8_arg2 m ρ c)
theorem W1_arg3 : W1 m ρ c (Proc.devRef .tc main_arg3) = (m (c, Proc.devRef .tc main_arg3)) :=
  (StableHlo.after_of_writes_sub hostOps0 _ hostOps0_writes (by decide))
theorem W2_arg3 : W2 m ρ c (Proc.devRef .tc main_arg3) = (m (c, Proc.devRef .tc main_arg3)) :=
  (W2_of_ne m ρ c main_arg3 (by decide)).trans (W1_arg3 m ρ c)
theorem W3_arg3 : W3 m ρ c (Proc.devRef .tc main_arg3) = (m (c, Proc.devRef .tc main_arg3)) :=
  (StableHlo.after_of_writes_sub hostOps1 _ hostOps1_writes (by decide)).trans (W2_arg3 m ρ c)
theorem W4_arg3 : W4 m ρ c (Proc.devRef .tc main_arg3) = (m (c, Proc.devRef .tc main_arg3)) :=
  (W4_of_ne m ρ c main_arg3 (by decide)).trans (W3_arg3 m ρ c)
theorem W5_arg3 : W5 m ρ c (Proc.devRef .tc main_arg3) = (m (c, Proc.devRef .tc main_arg3)) :=
  (StableHlo.after_of_writes_sub hostOps2 _ hostOps2_writes (by decide)).trans (W4_arg3 m ρ c)
theorem W6_arg3 : W6 m ρ c (Proc.devRef .tc main_arg3) = (m (c, Proc.devRef .tc main_arg3)) :=
  (W6_of_ne m ρ c main_arg3 (by decide)).trans (W5_arg3 m ρ c)
theorem W7_arg3 : W7 m ρ c (Proc.devRef .tc main_arg3) = (m (c, Proc.devRef .tc main_arg3)) :=
  (StableHlo.after_of_writes_sub hostOps3 _ hostOps3_writes (by decide)).trans (W6_arg3 m ρ c)
theorem W8_arg3 : W8 m ρ c (Proc.devRef .tc main_arg3) = (m (c, Proc.devRef .tc main_arg3)) :=
  (W8_of_ne m ρ c main_arg3 (by decide)).trans (W7_arg3 m ρ c)
theorem W9_arg3 : W9 m ρ c (Proc.devRef .tc main_arg3) = (m (c, Proc.devRef .tc main_arg3)) :=
  (StableHlo.after_of_writes_sub hostOps4 _ hostOps4_writes (by decide)).trans (W8_arg3 m ρ c)
theorem W1_arg4 : W1 m ρ c (Proc.devRef .tc main_arg4) = (m (c, Proc.devRef .tc main_arg4)) :=
  (StableHlo.after_of_writes_sub hostOps0 _ hostOps0_writes (by decide))
theorem W2_arg4 : W2 m ρ c (Proc.devRef .tc main_arg4) = (m (c, Proc.devRef .tc main_arg4)) :=
  (W2_of_ne m ρ c main_arg4 (by decide)).trans (W1_arg4 m ρ c)
theorem W3_arg4 : W3 m ρ c (Proc.devRef .tc main_arg4) = (m (c, Proc.devRef .tc main_arg4)) :=
  (StableHlo.after_of_writes_sub hostOps1 _ hostOps1_writes (by decide)).trans (W2_arg4 m ρ c)
theorem W4_arg4 : W4 m ρ c (Proc.devRef .tc main_arg4) = (m (c, Proc.devRef .tc main_arg4)) :=
  (W4_of_ne m ρ c main_arg4 (by decide)).trans (W3_arg4 m ρ c)
theorem W5_arg4 : W5 m ρ c (Proc.devRef .tc main_arg4) = (m (c, Proc.devRef .tc main_arg4)) :=
  (StableHlo.after_of_writes_sub hostOps2 _ hostOps2_writes (by decide)).trans (W4_arg4 m ρ c)
theorem W6_arg4 : W6 m ρ c (Proc.devRef .tc main_arg4) = (m (c, Proc.devRef .tc main_arg4)) :=
  (W6_of_ne m ρ c main_arg4 (by decide)).trans (W5_arg4 m ρ c)
theorem W7_arg4 : W7 m ρ c (Proc.devRef .tc main_arg4) = (m (c, Proc.devRef .tc main_arg4)) :=
  (StableHlo.after_of_writes_sub hostOps3 _ hostOps3_writes (by decide)).trans (W6_arg4 m ρ c)
theorem W8_arg4 : W8 m ρ c (Proc.devRef .tc main_arg4) = (m (c, Proc.devRef .tc main_arg4)) :=
  (W8_of_ne m ρ c main_arg4 (by decide)).trans (W7_arg4 m ρ c)
theorem W9_arg4 : W9 m ρ c (Proc.devRef .tc main_arg4) = (m (c, Proc.devRef .tc main_arg4)) :=
  (StableHlo.after_of_writes_sub hostOps4 _ hostOps4_writes (by decide)).trans (W8_arg4 m ρ c)
theorem W1_arg5 : W1 m ρ c (Proc.devRef .tc main_arg5) = (m (c, Proc.devRef .tc main_arg5)) :=
  (StableHlo.after_of_writes_sub hostOps0 _ hostOps0_writes (by decide))
theorem W2_arg5 : W2 m ρ c (Proc.devRef .tc main_arg5) = (m (c, Proc.devRef .tc main_arg5)) :=
  (W2_of_ne m ρ c main_arg5 (by decide)).trans (W1_arg5 m ρ c)
theorem W3_arg5 : W3 m ρ c (Proc.devRef .tc main_arg5) = (m (c, Proc.devRef .tc main_arg5)) :=
  (StableHlo.after_of_writes_sub hostOps1 _ hostOps1_writes (by decide)).trans (W2_arg5 m ρ c)
theorem W4_arg5 : W4 m ρ c (Proc.devRef .tc main_arg5) = (m (c, Proc.devRef .tc main_arg5)) :=
  (W4_of_ne m ρ c main_arg5 (by decide)).trans (W3_arg5 m ρ c)
theorem W5_arg5 : W5 m ρ c (Proc.devRef .tc main_arg5) = (m (c, Proc.devRef .tc main_arg5)) :=
  (StableHlo.after_of_writes_sub hostOps2 _ hostOps2_writes (by decide)).trans (W4_arg5 m ρ c)
theorem W6_arg5 : W6 m ρ c (Proc.devRef .tc main_arg5) = (m (c, Proc.devRef .tc main_arg5)) :=
  (W6_of_ne m ρ c main_arg5 (by decide)).trans (W5_arg5 m ρ c)
theorem W7_arg5 : W7 m ρ c (Proc.devRef .tc main_arg5) = (m (c, Proc.devRef .tc main_arg5)) :=
  (StableHlo.after_of_writes_sub hostOps3 _ hostOps3_writes (by decide)).trans (W6_arg5 m ρ c)
theorem W8_arg5 : W8 m ρ c (Proc.devRef .tc main_arg5) = (m (c, Proc.devRef .tc main_arg5)) :=
  (W8_of_ne m ρ c main_arg5 (by decide)).trans (W7_arg5 m ρ c)
theorem W9_arg5 : W9 m ρ c (Proc.devRef .tc main_arg5) = (m (c, Proc.devRef .tc main_arg5)) :=
  (StableHlo.after_of_writes_sub hostOps4 _ hostOps4_writes (by decide)).trans (W8_arg5 m ρ c)
theorem W1_arg6 : W1 m ρ c (Proc.devRef .tc main_arg6) = (m (c, Proc.devRef .tc main_arg6)) :=
  (StableHlo.after_of_writes_sub hostOps0 _ hostOps0_writes (by decide))
theorem W2_arg6 : W2 m ρ c (Proc.devRef .tc main_arg6) = (m (c, Proc.devRef .tc main_arg6)) :=
  (W2_of_ne m ρ c main_arg6 (by decide)).trans (W1_arg6 m ρ c)
theorem W3_arg6 : W3 m ρ c (Proc.devRef .tc main_arg6) = (m (c, Proc.devRef .tc main_arg6)) :=
  (StableHlo.after_of_writes_sub hostOps1 _ hostOps1_writes (by decide)).trans (W2_arg6 m ρ c)
theorem W4_arg6 : W4 m ρ c (Proc.devRef .tc main_arg6) = (m (c, Proc.devRef .tc main_arg6)) :=
  (W4_of_ne m ρ c main_arg6 (by decide)).trans (W3_arg6 m ρ c)
theorem W5_arg6 : W5 m ρ c (Proc.devRef .tc main_arg6) = (m (c, Proc.devRef .tc main_arg6)) :=
  (StableHlo.after_of_writes_sub hostOps2 _ hostOps2_writes (by decide)).trans (W4_arg6 m ρ c)
theorem W6_arg6 : W6 m ρ c (Proc.devRef .tc main_arg6) = (m (c, Proc.devRef .tc main_arg6)) :=
  (W6_of_ne m ρ c main_arg6 (by decide)).trans (W5_arg6 m ρ c)
theorem W7_arg6 : W7 m ρ c (Proc.devRef .tc main_arg6) = (m (c, Proc.devRef .tc main_arg6)) :=
  (StableHlo.after_of_writes_sub hostOps3 _ hostOps3_writes (by decide)).trans (W6_arg6 m ρ c)
theorem W8_arg6 : W8 m ρ c (Proc.devRef .tc main_arg6) = (m (c, Proc.devRef .tc main_arg6)) :=
  (W8_of_ne m ρ c main_arg6 (by decide)).trans (W7_arg6 m ρ c)
theorem W9_arg6 : W9 m ρ c (Proc.devRef .tc main_arg6) = (m (c, Proc.devRef .tc main_arg6)) :=
  (StableHlo.after_of_writes_sub hostOps4 _ hostOps4_writes (by decide)).trans (W8_arg6 m ρ c)
theorem W1_arg7 : W1 m ρ c (Proc.devRef .tc main_arg7) = (m (c, Proc.devRef .tc main_arg7)) :=
  (StableHlo.after_of_writes_sub hostOps0 _ hostOps0_writes (by decide))
theorem W2_arg7 : W2 m ρ c (Proc.devRef .tc main_arg7) = (m (c, Proc.devRef .tc main_arg7)) :=
  (W2_of_ne m ρ c main_arg7 (by decide)).trans (W1_arg7 m ρ c)
theorem W3_arg7 : W3 m ρ c (Proc.devRef .tc main_arg7) = (m (c, Proc.devRef .tc main_arg7)) :=
  (StableHlo.after_of_writes_sub hostOps1 _ hostOps1_writes (by decide)).trans (W2_arg7 m ρ c)
theorem W4_arg7 : W4 m ρ c (Proc.devRef .tc main_arg7) = (m (c, Proc.devRef .tc main_arg7)) :=
  (W4_of_ne m ρ c main_arg7 (by decide)).trans (W3_arg7 m ρ c)
theorem W5_arg7 : W5 m ρ c (Proc.devRef .tc main_arg7) = (m (c, Proc.devRef .tc main_arg7)) :=
  (StableHlo.after_of_writes_sub hostOps2 _ hostOps2_writes (by decide)).trans (W4_arg7 m ρ c)
theorem W6_arg7 : W6 m ρ c (Proc.devRef .tc main_arg7) = (m (c, Proc.devRef .tc main_arg7)) :=
  (W6_of_ne m ρ c main_arg7 (by decide)).trans (W5_arg7 m ρ c)
theorem W7_arg7 : W7 m ρ c (Proc.devRef .tc main_arg7) = (m (c, Proc.devRef .tc main_arg7)) :=
  (StableHlo.after_of_writes_sub hostOps3 _ hostOps3_writes (by decide)).trans (W6_arg7 m ρ c)
theorem W8_arg7 : W8 m ρ c (Proc.devRef .tc main_arg7) = (m (c, Proc.devRef .tc main_arg7)) :=
  (W8_of_ne m ρ c main_arg7 (by decide)).trans (W7_arg7 m ρ c)
theorem W9_arg7 : W9 m ρ c (Proc.devRef .tc main_arg7) = (m (c, Proc.devRef .tc main_arg7)) :=
  (StableHlo.after_of_writes_sub hostOps4 _ hostOps4_writes (by decide)).trans (W8_arg7 m ρ c)
theorem W1_arg8 : W1 m ρ c (Proc.devRef .tc main_arg8) = (m (c, Proc.devRef .tc main_arg8)) :=
  (StableHlo.after_of_writes_sub hostOps0 _ hostOps0_writes (by decide))
theorem W2_arg8 : W2 m ρ c (Proc.devRef .tc main_arg8) = (m (c, Proc.devRef .tc main_arg8)) :=
  (W2_of_ne m ρ c main_arg8 (by decide)).trans (W1_arg8 m ρ c)
theorem W3_arg8 : W3 m ρ c (Proc.devRef .tc main_arg8) = (m (c, Proc.devRef .tc main_arg8)) :=
  (StableHlo.after_of_writes_sub hostOps1 _ hostOps1_writes (by decide)).trans (W2_arg8 m ρ c)
theorem W4_arg8 : W4 m ρ c (Proc.devRef .tc main_arg8) = (m (c, Proc.devRef .tc main_arg8)) :=
  (W4_of_ne m ρ c main_arg8 (by decide)).trans (W3_arg8 m ρ c)
theorem W5_arg8 : W5 m ρ c (Proc.devRef .tc main_arg8) = (m (c, Proc.devRef .tc main_arg8)) :=
  (StableHlo.after_of_writes_sub hostOps2 _ hostOps2_writes (by decide)).trans (W4_arg8 m ρ c)
theorem W6_arg8 : W6 m ρ c (Proc.devRef .tc main_arg8) = (m (c, Proc.devRef .tc main_arg8)) :=
  (W6_of_ne m ρ c main_arg8 (by decide)).trans (W5_arg8 m ρ c)
theorem W7_arg8 : W7 m ρ c (Proc.devRef .tc main_arg8) = (m (c, Proc.devRef .tc main_arg8)) :=
  (StableHlo.after_of_writes_sub hostOps3 _ hostOps3_writes (by decide)).trans (W6_arg8 m ρ c)
theorem W8_arg8 : W8 m ρ c (Proc.devRef .tc main_arg8) = (m (c, Proc.devRef .tc main_arg8)) :=
  (W8_of_ne m ρ c main_arg8 (by decide)).trans (W7_arg8 m ρ c)
theorem W9_arg8 : W9 m ρ c (Proc.devRef .tc main_arg8) = (m (c, Proc.devRef .tc main_arg8)) :=
  (StableHlo.after_of_writes_sub hostOps4 _ hostOps4_writes (by decide)).trans (W8_arg8 m ρ c)
theorem W1_arg9 : W1 m ρ c (Proc.devRef .tc main_arg9) = (m (c, Proc.devRef .tc main_arg9)) :=
  (StableHlo.after_of_writes_sub hostOps0 _ hostOps0_writes (by decide))
theorem W2_arg9 : W2 m ρ c (Proc.devRef .tc main_arg9) = (m (c, Proc.devRef .tc main_arg9)) :=
  (W2_of_ne m ρ c main_arg9 (by decide)).trans (W1_arg9 m ρ c)
theorem W3_arg9 : W3 m ρ c (Proc.devRef .tc main_arg9) = (m (c, Proc.devRef .tc main_arg9)) :=
  (StableHlo.after_of_writes_sub hostOps1 _ hostOps1_writes (by decide)).trans (W2_arg9 m ρ c)
theorem W4_arg9 : W4 m ρ c (Proc.devRef .tc main_arg9) = (m (c, Proc.devRef .tc main_arg9)) :=
  (W4_of_ne m ρ c main_arg9 (by decide)).trans (W3_arg9 m ρ c)
theorem W5_arg9 : W5 m ρ c (Proc.devRef .tc main_arg9) = (m (c, Proc.devRef .tc main_arg9)) :=
  (StableHlo.after_of_writes_sub hostOps2 _ hostOps2_writes (by decide)).trans (W4_arg9 m ρ c)
theorem W6_arg9 : W6 m ρ c (Proc.devRef .tc main_arg9) = (m (c, Proc.devRef .tc main_arg9)) :=
  (W6_of_ne m ρ c main_arg9 (by decide)).trans (W5_arg9 m ρ c)
theorem W7_arg9 : W7 m ρ c (Proc.devRef .tc main_arg9) = (m (c, Proc.devRef .tc main_arg9)) :=
  (StableHlo.after_of_writes_sub hostOps3 _ hostOps3_writes (by decide)).trans (W6_arg9 m ρ c)
theorem W8_arg9 : W8 m ρ c (Proc.devRef .tc main_arg9) = (m (c, Proc.devRef .tc main_arg9)) :=
  (W8_of_ne m ρ c main_arg9 (by decide)).trans (W7_arg9 m ρ c)
theorem W9_arg9 : W9 m ρ c (Proc.devRef .tc main_arg9) = (m (c, Proc.devRef .tc main_arg9)) :=
  (StableHlo.after_of_writes_sub hostOps4 _ hostOps4_writes (by decide)).trans (W8_arg9 m ρ c)

/-! ## The first host stretch: the edge lists, the inverse in-degree, layer 0's operands -/

/-- The edges' source nodes. -/
theorem W1_src : W1 m ρ c (Proc.devRef .tc main_v1) = Terms.src (m (c, Proc.devRef .tc main_arg1)) := by
  show StableHlo.after (hostOps0 (F := Ideal)) (fun b => m (c, b)) (Proc.devRef .tc main_v1) = _
  after_results_simp
  first | rfl | (unfold Terms.src; rfl)
/-- The edges' destination nodes. -/
theorem W1_dst : W1 m ρ c (Proc.devRef .tc main_v3) = Terms.dst (m (c, Proc.devRef .tc main_arg1)) := by
  show StableHlo.after (hostOps0 (F := Ideal)) (fun b => m (c, b)) (Proc.devRef .tc main_v3) = _
  after_results_simp
  first | rfl | (unfold Terms.dst; rfl)
/-- The inverse in-degree column. -/
theorem W1_inv : W1 m ρ c (Proc.devRef .tc main_v12) = Terms.inv (m (c, Proc.devRef .tc main_arg1)) := by
  show StableHlo.after (hostOps0 (F := Ideal)) (fun b => m (c, b)) (Proc.devRef .tc main_v12) = _
  after_results_simp
  first | rfl | (unfold Terms.inv Terms.dstIdx Terms.dst; rfl)
/-- Region 0's own-feature operand: the input features in the narrow format. -/
theorem entry0_h : W1 m ρ c (Proc.devRef .tc main_v13) = Terms.h0 (m (c, Proc.devRef .tc main_arg0)) := by
  show StableHlo.after (hostOps0 (F := Ideal)) (fun b => m (c, b)) (Proc.devRef .tc main_v13) = _
  after_results_simp
  first | rfl | (unfold Terms.h0; rfl)
/-- Region 0's neighbour sum. -/
theorem entry0_agg : W1 m ρ c (Proc.devRef .tc main_v24) = Terms.agg (m (c, Proc.devRef .tc main_arg1)) (Terms.h0 (m (c, Proc.devRef .tc main_arg0))) := by
  show StableHlo.after (hostOps0 (F := Ideal)) (fun b => m (c, b)) (Proc.devRef .tc main_v24) = _
  after_results_simp
  first | rfl | (unfold Terms.agg Terms.dstIdx Terms.srcIdx Terms.src Terms.dst Terms.h0; rfl)
theorem entry0_inv : W1 m ρ c (Proc.devRef .tc main_v12) = Terms.inv (m (c, Proc.devRef .tc main_arg1)) := W1_inv m ρ c
/-- Layer 0's weights and bias. -/
theorem entry0_wl : W1 m ρ c (Proc.devRef .tc main_v26) = Terms.wl0 (m (c, Proc.devRef .tc main_arg3)) := by
  show StableHlo.after (hostOps0 (F := Ideal)) (fun b => m (c, b)) (Proc.devRef .tc main_v26) = _
  after_results_simp
  first | rfl | (unfold Terms.wl0; rfl)
theorem entry0_bl : W1 m ρ c (Proc.devRef .tc main_v31) = Terms.bl0 (m (c, Proc.devRef .tc main_arg4)) := by
  show StableHlo.after (hostOps0 (F := Ideal)) (fun b => m (c, b)) (Proc.devRef .tc main_v31) = _
  after_results_simp
  first | rfl | (unfold Terms.bl0 Terms.blv0; rfl)
theorem entry0_wr : W1 m ρ c (Proc.devRef .tc main_v30) = Terms.wr0 (m (c, Proc.devRef .tc main_arg5)) := by
  show StableHlo.after (hostOps0 (F := Ideal)) (fun b => m (c, b)) (Proc.devRef .tc main_v30) = _
  after_results_simp
  first | rfl | (unfold Terms.wr0; rfl)

/-! ## The edge lists and the inverse in-degree at the later boundaries: no later stretch and no region writes them -/
theorem W2_src : W2 m ρ c (Proc.devRef .tc main_v1) = Terms.src (m (c, Proc.devRef .tc main_arg1)) := (W2_of_ne m ρ c main_v1 (by decide)).trans (W1_src m ρ c)
theorem W2_dst : W2 m ρ c (Proc.devRef .tc main_v3) = Terms.dst (m (c, Proc.devRef .tc main_arg1)) := (W2_of_ne m ρ c main_v3 (by decide)).trans (W1_dst m ρ c)
theorem W2_inv : W2 m ρ c (Proc.devRef .tc main_v12) = Terms.inv (m (c, Proc.devRef .tc main_arg1)) :=
  ((W2_arr m ρ c 2).trans (((dat0 (V1 m ρ) c).arrAt_in 2 rfl _).trans (A_eq0 (V1 m ρ) c 2))).trans (W1_inv m ρ c)
theorem W3_src : W3 m ρ c (Proc.devRef .tc main_v1) = Terms.src (m (c, Proc.devRef .tc main_arg1)) := (StableHlo.after_of_writes_sub hostOps1 _ hostOps1_writes (by decide)).trans (W2_src m ρ c)
theorem W3_dst : W3 m ρ c (Proc.devRef .tc main_v3) = Terms.dst (m (c, Proc.devRef .tc main_arg1)) := (StableHlo.after_of_writes_sub hostOps1 _ hostOps1_writes (by decide)).trans (W2_dst m ρ c)
theorem W3_inv : W3 m ρ c (Proc.devRef .tc main_v12) = Terms.inv (m (c, Proc.devRef .tc main_arg1)) := (StableHlo.after_of_writes_sub hostOps1 _ hostOps1_writes (by decide)).trans (W2_inv m ρ c)
theorem W4_src : W4 m ρ c (Proc.devRef .tc main_v1) = Terms.src (m (c, Proc.devRef .tc main_arg1)) := (W4_of_ne m ρ c main_v1 (by decide)).trans (W3_src m ρ c)
theorem W4_dst : W4 m ρ c (Proc.devRef .tc main_v3) = Terms.dst (m (c, Proc.devRef .tc main_arg1)) := (W4_of_ne m ρ c main_v3 (by decide)).trans (W3_dst m ρ c)
theorem W4_inv : W4 m ρ c (Proc.devRef .tc main_v12) = Terms.inv (m (c, Proc.devRef .tc main_arg1)) :=
  ((W4_arr m ρ c 2).trans (((dat1 (V3 m ρ) c).arrAt_in 2 rfl _).trans (A_eq1 (V3 m ρ) c 2))).trans (W3_inv m ρ c)
theorem W5_src : W5 m ρ c (Proc.devRef .tc main_v1) = Terms.src (m (c, Proc.devRef .tc main_arg1)) := (StableHlo.after_of_writes_sub hostOps2 _ hostOps2_writes (by decide)).trans (W4_src m ρ c)
theorem W5_dst : W5 m ρ c (Proc.devRef .tc main_v3) = Terms.dst (m (c, Proc.devRef .tc main_arg1)) := (StableHlo.after_of_writes_sub hostOps2 _ hostOps2_writes (by decide)).trans (W4_dst m ρ c)
theorem W5_inv : W5 m ρ c (Proc.devRef .tc main_v12) = Terms.inv (m (c, Proc.devRef .tc main_arg1)) := (StableHlo.after_of_writes_sub hostOps2 _ hostOps2_writes (by decide)).trans (W4_inv m ρ c)
theorem W6_src : W6 m ρ c (Proc.devRef .tc main_v1) = Terms.src (m (c, Proc.devRef .tc main_arg1)) := (W6_of_ne m ρ c main_v1 (by decide)).trans (W5_src m ρ c)
theorem W6_dst : W6 m ρ c (Proc.devRef .tc main_v3) = Terms.dst (m (c, Proc.devRef .tc main_arg1)) := (W6_of_ne m ρ c main_v3 (by decide)).trans (W5_dst m ρ c)
theorem W6_inv : W6 m ρ c (Proc.devRef .tc main_v12) = Terms.inv (m (c, Proc.devRef .tc main_arg1)) :=
  ((W6_arr m ρ c 2).trans (((dat2 (V5 m ρ) c).arrAt_in 2 rfl _).trans (A_eq2 (V5 m ρ) c 2))).trans (W5_inv m ρ c)
theorem W7_src : W7 m ρ c (Proc.devRef .tc main_v1) = Terms.src (m (c, Proc.devRef .tc main_arg1)) := (StableHlo.after_of_writes_sub hostOps3 _ hostOps3_writes (by decide)).trans (W6_src m ρ c)
theorem W7_dst : W7 m ρ c (Proc.devRef .tc main_v3) = Terms.dst (m (c, Proc.devRef .tc main_arg1)) := (StableHlo.after_of_writes_sub hostOps3 _ hostOps3_writes (by decide)).trans (W6_dst m ρ c)
theorem W7_inv : W7 m ρ c (Proc.devRef .tc main_v12) = Terms.inv (m (c, Proc.devRef .tc main_arg1)) := (StableHlo.after_of_writes_sub hostOps3 _ hostOps3_writes (by decide)).trans (W6_inv m ρ c)

/-! ## Host stretch 1: the pooled sum of layer 0's output and layer 1's operands, H_1 being `W2` at `main_v32` -/

/-- The per-graph sum of layer 0's output. -/
theorem pool1 : W3 m ρ c (Proc.devRef .tc main_v36) = Terms.pool (m (c, Proc.devRef .tc main_arg2)) (W2 m ρ c (Proc.devRef .tc main_v32)) := by
  show StableHlo.after (hostOps1 (F := Ideal)) (W2 m ρ c) (Proc.devRef .tc main_v36) = _
  after_results_simp
  rw [W2_arg2 m ρ c]
  first | rfl | (unfold Terms.pool; rfl)
/-- Region 1's neighbour sum. -/
theorem entry1_agg : W3 m ρ c (Proc.devRef .tc main_v47) = Terms.agg (m (c, Proc.devRef .tc main_arg1)) (W2 m ρ c (Proc.devRef .tc main_v32)) := by
  show StableHlo.after (hostOps1 (F := Ideal)) (W2 m ρ c) (Proc.devRef .tc main_v47) = _
  after_results_simp
  rw [W2_src m ρ c, W2_dst m ρ c]
  first | rfl | (unfold Terms.agg Terms.dstIdx Terms.srcIdx; rfl)
/-- Region 1's own-feature operand is the previous region's output, which the stretch does not write. -/
theorem entry1_h : W3 m ρ c (Proc.devRef .tc main_v32) = W2 m ρ c (Proc.devRef .tc main_v32) :=
  StableHlo.after_of_writes_sub hostOps1 _ hostOps1_writes (by decide)
theorem entry1_inv : W3 m ρ c (Proc.devRef .tc main_v12) = Terms.inv (m (c, Proc.devRef .tc main_arg1)) := W3_inv m ρ c
/-- Layer 1's weights and bias. -/
theorem entry1_wl : W3 m ρ c (Proc.devRef .tc main_v49) = Terms.wl1 (m (c, Proc.devRef .tc main_arg3)) := by
  show StableHlo.after (hostOps1 (F := Ideal)) (W2 m ρ c) (Proc.devRef .tc main_v49) = _
  after_results_simp
  rw [W2_arg3 m ρ c]
  first | rfl | (unfold Terms.wl1; rfl)
theorem entry1_bl : W3 m ρ c (Proc.devRef .tc main_v54) = Terms.bl1 (m (c, Proc.devRef .tc main_arg4)) := by
  show StableHlo.after (hostOps1 (F := Ideal)) (W2 m ρ c) (Proc.devRef .tc main_v54) = _
  after_results_simp
  rw [W2_arg4 m ρ c]
  first | rfl | (unfold Terms.bl1 Terms.blv1; rfl)
theorem entry1_wr : W3 m ρ c (Proc.devRef .tc main_v53) = Terms.wr1 (m (c, Proc.devRef .tc main_arg5)) := by
  show StableHlo.after (hostOps1 (F := Ideal)) (W2 m ρ c) (Proc.devRef .tc main_v53) = _
  after_results_simp
  rw [W2_arg5 m ρ c]
  first | rfl | (unfold Terms.wr1; rfl)
/-- The pooled sum stays in its buffer up to the last stretch. -/
theorem W4_pool1 : W4 m ρ c (Proc.devRef .tc main_v36) = Terms.pool (m (c, Proc.devRef .tc main_arg2)) (W2 m ρ c (Proc.devRef .tc main_v32)) := (W4_of_ne m ρ c main_v36 (by decide)).trans (pool1 m ρ c)
theorem W5_pool1 : W5 m ρ c (Proc.devRef .tc main_v36) = Terms.pool (m (c, Proc.devRef .tc main_arg2)) (W2 m ρ c (Proc.devRef .tc main_v32)) := (StableHlo.after_of_writes_sub hostOps2 _ hostOps2_writes (by decide)).trans (W4_pool1 m ρ c)
theorem W6_pool1 : W6 m ρ c (Proc.devRef .tc main_v36) = Terms.pool (m (c, Proc.devRef .tc main_arg2)) (W2 m ρ c (Proc.devRef .tc main_v32)) := (W6_of_ne m ρ c main_v36 (by decide)).trans (W5_pool1 m ρ c)
theorem W7_pool1 : W7 m ρ c (Proc.devRef .tc main_v36) = Terms.pool (m (c, Proc.devRef .tc main_arg2)) (W2 m ρ c (Proc.devRef .tc main_v32)) := (StableHlo.after_of_writes_sub hostOps3 _ hostOps3_writes (by decide)).trans (W6_pool1 m ρ c)
theorem W8_pool1 : W8 m ρ c (Proc.devRef .tc main_v36) = Terms.pool (m (c, Proc.devRef .tc main_arg2)) (W2 m ρ c (Proc.devRef .tc main_v32)) := (W8_of_ne m ρ c main_v36 (by decide)).trans (W7_pool1 m ρ c)

/-! ## Host stretch 2: the pooled sum of layer 1's output and layer 2's operands, H_2 being `W4` at `main_v55` -/

/-- The per-graph sum of layer 1's output. -/
theorem pool2 : W5 m ρ c (Proc.devRef .tc main_v59) = Terms.pool (m (c, Proc.devRef .tc main_arg2)) (W4 m ρ c (Proc.devRef .tc main_v55)) := by
  show StableHlo.after (hostOps2 (F := Ideal)) (W4 m ρ c) (Proc.devRef .tc main_v59) = _
  after_results_simp
  rw [W4_arg2 m ρ c]
  first | rfl | (unfold Terms.pool; rfl)
/-- Region 2's neighbour sum. -/
theorem entry2_agg : W5 m ρ c (Proc.devRef .tc main_v70) = Terms.agg (m (c, Proc.devRef .tc main_arg1)) (W4 m ρ c (Proc.devRef .tc main_v55)) := by
  show StableHlo.after (hostOps2 (F := Ideal)) (W4 m ρ c) (Proc.devRef .tc main_v70) = _
  after_results_simp
  rw [W4_src m ρ c, W4_dst m ρ c]
  first | rfl | (unfold Terms.agg Terms.dstIdx Terms.srcIdx; rfl)
/-- Region 2's own-feature operand is the previous region's output, which the stretch does not write. -/
theorem entry2_h : W5 m ρ c (Proc.devRef .tc main_v55) = W4 m ρ c (Proc.devRef .tc main_v55) :=
  StableHlo.after_of_writes_sub hostOps2 _ hostOps2_writes (by decide)
theorem entry2_inv : W5 m ρ c (Proc.devRef .tc main_v12) = Terms.inv (m (c, Proc.devRef .tc main_arg1)) := W5_inv m ρ c
/-- Layer 2's weights and bias. -/
theorem entry2_wl : W5 m ρ c (Proc.devRef .tc main_v72) = Terms.wl2 (m (c, Proc.devRef .tc main_arg3)) := by
  show StableHlo.after (hostOps2 (F := Ideal)) (W4 m ρ c) (Proc.devRef .tc main_v72) = _
  after_results_simp
  rw [W4_arg3 m ρ c]
  first | rfl | (unfold Terms.wl2; rfl)
theorem entry2_bl : W5 m ρ c (Proc.devRef .tc main_v77) = Terms.bl2 (m (c, Proc.devRef .tc main_arg4)) := by
  show StableHlo.after (hostOps2 (F := Ideal)) (W4 m ρ c) (Proc.devRef .tc main_v77) = _
  after_results_simp
  rw [W4_arg4 m ρ c]
  first | rfl | (unfold Terms.bl2 Terms.blv2; rfl)
theorem entry2_wr : W5 m ρ c (Proc.devRef .tc main_v76) = Terms.wr2 (m (c, Proc.devRef .tc main_arg5)) := by
  show StableHlo.after (hostOps2 (F := Ideal)) (W4 m ρ c) (Proc.devRef .tc main_v76) = _
  after_results_simp
  rw [W4_arg5 m ρ c]
  first | rfl | (unfold Terms.wr2; rfl)
/-- The pooled sum stays in its buffer up to the last stretch. -/
theorem W6_pool2 : W6 m ρ c (Proc.devRef .tc main_v59) = Terms.pool (m (c, Proc.devRef .tc main_arg2)) (W4 m ρ c (Proc.devRef .tc main_v55)) := (W6_of_ne m ρ c main_v59 (by decide)).trans (pool2 m ρ c)
theorem W7_pool2 : W7 m ρ c (Proc.devRef .tc main_v59) = Terms.pool (m (c, Proc.devRef .tc main_arg2)) (W4 m ρ c (Proc.devRef .tc main_v55)) := (StableHlo.after_of_writes_sub hostOps3 _ hostOps3_writes (by decide)).trans (W6_pool2 m ρ c)
theorem W8_pool2 : W8 m ρ c (Proc.devRef .tc main_v59) = Terms.pool (m (c, Proc.devRef .tc main_arg2)) (W4 m ρ c (Proc.devRef .tc main_v55)) := (W8_of_ne m ρ c main_v59 (by decide)).trans (W7_pool2 m ρ c)

/-! ## Host stretch 3: the pooled sum of layer 2's output and layer 3's operands, H_3 being `W6` at `main_v78` -/

/-- The per-graph sum of layer 2's output. -/
theorem pool3 : W7 m ρ c (Proc.devRef .tc main_v82) = Terms.pool (m (c, Proc.devRef .tc main_arg2)) (W6 m ρ c (Proc.devRef .tc main_v78)) := by
  show StableHlo.after (hostOps3 (F := Ideal)) (W6 m ρ c) (Proc.devRef .tc main_v82) = _
  after_results_simp
  rw [W6_arg2 m ρ c]
  first | rfl | (unfold Terms.pool; rfl)
/-- Region 3's neighbour sum. -/
theorem entry3_agg : W7 m ρ c (Proc.devRef .tc main_v93) = Terms.agg (m (c, Proc.devRef .tc main_arg1)) (W6 m ρ c (Proc.devRef .tc main_v78)) := by
  show StableHlo.after (hostOps3 (F := Ideal)) (W6 m ρ c) (Proc.devRef .tc main_v93) = _
  after_results_simp
  rw [W6_src m ρ c, W6_dst m ρ c]
  first | rfl | (unfold Terms.agg Terms.dstIdx Terms.srcIdx; rfl)
/-- Region 3's own-feature operand is the previous region's output, which the stretch does not write. -/
theorem entry3_h : W7 m ρ c (Proc.devRef .tc main_v78) = W6 m ρ c (Proc.devRef .tc main_v78) :=
  StableHlo.after_of_writes_sub hostOps3 _ hostOps3_writes (by decide)
theorem entry3_inv : W7 m ρ c (Proc.devRef .tc main_v12) = Terms.inv (m (c, Proc.devRef .tc main_arg1)) := W7_inv m ρ c
/-- Layer 3's weights and bias. -/
theorem entry3_wl : W7 m ρ c (Proc.devRef .tc main_v95) = Terms.wl3 (m (c, Proc.devRef .tc main_arg3)) := by
  show StableHlo.after (hostOps3 (F := Ideal)) (W6 m ρ c) (Proc.devRef .tc main_v95) = _
  after_results_simp
  rw [W6_arg3 m ρ c]
  first | rfl | (unfold Terms.wl3; rfl)
theorem entry3_bl : W7 m ρ c (Proc.devRef .tc main_v100) = Terms.bl3 (m (c, Proc.devRef .tc main_arg4)) := by
  show StableHlo.after (hostOps3 (F := Ideal)) (W6 m ρ c) (Proc.devRef .tc main_v100) = _
  after_results_simp
  rw [W6_arg4 m ρ c]
  first | rfl | (unfold Terms.bl3 Terms.blv3; rfl)
theorem entry3_wr : W7 m ρ c (Proc.devRef .tc main_v99) = Terms.wr3 (m (c, Proc.devRef .tc main_arg5)) := by
  show StableHlo.after (hostOps3 (F := Ideal)) (W6 m ρ c) (Proc.devRef .tc main_v99) = _
  after_results_simp
  rw [W6_arg5 m ρ c]
  first | rfl | (unfold Terms.wr3; rfl)
/-- The pooled sum stays in its buffer up to the last stretch. -/
theorem W8_pool3 : W8 m ρ c (Proc.devRef .tc main_v82) = Terms.pool (m (c, Proc.devRef .tc main_arg2)) (W6 m ρ c (Proc.devRef .tc main_v78)) := (W8_of_ne m ρ c main_v82 (by decide)).trans (pool3 m ρ c)

/-- Reads a buffer back through a stretch's operations, one operation at a time. -/
local macro "results_rw" : tactic =>
  `(tactic| repeat (first
     | rw [StableHlo.nullary_result] | rw [StableHlo.unary_result] | rw [StableHlo.binary_result]
     | rw [StableHlo.ternary_result] | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

/-! ## The last host stretch: the joined pooled sums, the graph sizes, the classifier's biases as rows; H_4 is `W8` at `main_v101` -/

/-- Region 4's first operand: the four pooled sums joined along the columns. -/
theorem entry4_pooled : W9 m ρ c (Proc.devRef .tc main_v106) = Terms.pooled (Terms.pool (m (c, Proc.devRef .tc main_arg2)) (W2 m ρ c (Proc.devRef .tc main_v32))) (Terms.pool (m (c, Proc.devRef .tc main_arg2)) (W4 m ρ c (Proc.devRef .tc main_v55)))
    (Terms.pool (m (c, Proc.devRef .tc main_arg2)) (W6 m ρ c (Proc.devRef .tc main_v78))) (Terms.pool (m (c, Proc.devRef .tc main_arg2)) (W8 m ρ c (Proc.devRef .tc main_v101))) := by
  show StableHlo.after (hostOps4 (F := Ideal)) (W8 m ρ c) (Proc.devRef .tc main_v106) = _
  after_results_simp
  simp only [Matrix.cons_val]
  results_rw
  rw [W8_pool1 m ρ c, W8_pool2 m ρ c, W8_pool3 m ρ c, W8_arg2 m ρ c]
  first | rfl | (unfold Terms.pooled Terms.pool; rfl)
/-- The number of nodes of every graph. -/
theorem entry4_cnt : W9 m ρ c (Proc.devRef .tc main_v113) = Terms.cnt (m (c, Proc.devRef .tc main_arg2)) := by
  show StableHlo.after (hostOps4 (F := Ideal)) (W8 m ρ c) (Proc.devRef .tc main_v113) = _
  after_results_simp
  rw [W8_arg2 m ρ c]
  first | rfl | (unfold Terms.cnt; rfl)
/-- The classifier's biases as rows. -/
theorem entry4_b1 : W9 m ρ c (Proc.devRef .tc main_v114) = Terms.b1row (m (c, Proc.devRef .tc main_arg7)) := by
  show StableHlo.after (hostOps4 (F := Ideal)) (W8 m ρ c) (Proc.devRef .tc main_v114) = _
  after_results_simp
  rw [W8_arg7 m ρ c]
  first | rfl | (unfold Terms.b1row; rfl)
theorem entry4_b2 : W9 m ρ c (Proc.devRef .tc main_v115) = Terms.b2row (m (c, Proc.devRef .tc main_arg9)) := by
  show StableHlo.after (hostOps4 (F := Ideal)) (W8 m ρ c) (Proc.devRef .tc main_v115) = _
  after_results_simp
  rw [W8_arg9 m ρ c]
  first | rfl | (unfold Terms.b2row; rfl)
/-- The classifier's weights are read straight off the arguments. -/
theorem entry4_w1 : W9 m ρ c (Proc.devRef .tc main_arg6) = (m (c, Proc.devRef .tc main_arg6)) := W9_arg6 m ρ c
theorem entry4_w2 : W9 m ρ c (Proc.devRef .tc main_arg8) = (m (c, Proc.devRef .tc main_arg8)) := W9_arg8 m ρ c

end Cert.KernelIdeal.Hand

end
-- ==== Proof.SageSpec.lean ====
/-
  THE TWO DENSE STAGES OF THE NETWORK, as functions of whole arrays, index by index, over the extended reals.

  A graph-convolution layer combines, for every node (row) `p`, the summed neighbour features `agg p` scaled by the
  node's inverse degree `inv p`, through a weight matrix `wl`, with the node's own features `h p` through a second
  weight matrix `wr`, adds a bias row `bl`, and rectifies:
      out (p, c) = max (((∑ k, (agg (p, k) · inv (p, 0)) · wl (k, c)) + ∑ k, h (p, k) · wr (k, c)) + bl (0, c)) 0.
  Row `p` of the result depends on row `p` of `agg`, `h` and `inv` only, so the layer is stated for ANY number of
  rows `R`: a block of rows of the result is the layer of the same block of rows of the operands (`sageArr_rows`).
-/
import Idealize.ShloMosaic.Lib.ValueIdx
import Mathlib.Data.EReal.Basic

noncomputable section

open scoped BigOperators

namespace Cert.Sage

open Idealize.ShloMosaic Idealize.ShloMosaic.ValueIdx

/-- `R` rows of `C` columns. -/
abbrev A2 (R C : ℕ) : Shape := ⟨2, ![R, C]⟩

/-- One row of the layer: the entry at column `c` from the row's neighbour sum `a`, its inverse degree `d`, its own
    features `x`, the two weight matrices and the bias row. -/
def sageRow (a x : Fin 128 → EReal) (d : EReal) (wl wr : Fin 128 → Fin 128 → EReal) (bl : Fin 128 → EReal)
    (c : Fin 128) : EReal :=
  max (((∑ k : Fin 128, (a k * d) * wl k c) + ∑ k : Fin 128, x k * wr k c) + bl c) 0

/-- The layer on an array of `R` rows. -/
def sageArr {R : ℕ} (agg h : (A2 R 128).Idx → EReal) (inv : (A2 R 1).Idx → EReal)
    (wl : (A2 128 128).Idx → EReal) (bl : (A2 1 128).Idx → EReal) (wr : (A2 128 128).Idx → EReal) :
    (A2 R 128).Idx → EReal :=
  fun i => sageRow (fun k => agg (ix2 (idxEquiv2 (n0 := R) (n1 := 128) i).1 k))
    (fun k => h (ix2 (idxEquiv2 (n0 := R) (n1 := 128) i).1 k)) (inv (ix2 (idxEquiv2 (n0 := R) (n1 := 128) i).1 0))
    (fun k c => wl (ix2 k c)) (fun k c => wr (ix2 k c)) (fun c => bl (ix2 0 c)) (idxEquiv2 (n0 := R) (n1 := 128) i).2

theorem sageArr_apply {R : ℕ} (agg h : (A2 R 128).Idx → EReal) (inv : (A2 R 1).Idx → EReal)
    (wl : (A2 128 128).Idx → EReal) (bl : (A2 1 128).Idx → EReal) (wr : (A2 128 128).Idx → EReal) (p : Fin R) (c : Fin 128) :
    sageArr agg h inv wl bl wr (ix2 p c)
      = sageRow (fun k => agg (ix2 p k)) (fun k => h (ix2 p k)) (inv (ix2 p 0)) (fun k c => wl (ix2 k c))
          (fun k c => wr (ix2 k c)) (fun c => bl (ix2 0 c)) c := rfl

/-- Row `p` of the layer of a block is row `p'` of the layer of the whole arrays when row `p` of each row-wise operand
    of the block is row `p'` of the whole operand (the weights and the bias are shared). -/
theorem sageArr_rows {R R' : ℕ} (agg h : (A2 R 128).Idx → EReal) (inv : (A2 R 1).Idx → EReal)
    (Agg H : (A2 R' 128).Idx → EReal) (Inv : (A2 R' 1).Idx → EReal)
    (wl : (A2 128 128).Idx → EReal) (bl : (A2 1 128).Idx → EReal) (wr : (A2 128 128).Idx → EReal) (p : Fin R) (p' : Fin R')
    (ha : ∀ k : Fin 128, agg (ix2 p k) = Agg (ix2 p' k)) (hh : ∀ k : Fin 128, h (ix2 p k) = H (ix2 p' k))
    (hi : inv (ix2 p 0) = Inv (ix2 p' 0)) (c : Fin 128) :
    sageArr agg h inv wl bl wr (ix2 p c) = sageArr Agg H Inv wl bl wr (ix2 p' c) := by
  rw [sageArr_apply, sageArr_apply, show (fun k => agg (ix2 p k)) = fun k => Agg (ix2 p' k) from funext ha,
    show (fun k => h (ix2 p k)) = fun k => H (ix2 p' k) from funext hh, hi]

end Cert.Sage

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«121412_j16045997818029_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«121412_j16045997818029_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.SagePayload.lean ====
/-
  THE LAYER KERNEL'S STORED VALUE IS THE GRAPH-CONVOLUTION LAYER ON A BLOCK OF 2000 ROWS, over the extended reals.

  The kernel scales the neighbour sums by the inverse-degree column (broadcast across the 128 feature columns), rounds
  to the narrower format (the identity at the ideal values), multiplies by the first weight matrix, multiplies the
  node's own features by the second weight matrix, adds the two products, adds the bias row (broadcast down the rows),
  and takes the maximum with zero.  Read at an index (p, c), each step is the corresponding step of the row formula
      max (((∑ k, (agg (p, k) · inv (p, 0)) · wl (k, c)) + ∑ k, h (p, k) · wr (k, c)) + bl (0, c)) 0,
  in the same association, so the two agree term by term: no algebra of the extended reals is used.
-/
import proofs.«121412_j16045997818029_2_alg».proof.Proof.Gen.KernelIdeal.Skeleton
import proofs.«121412_j16045997818029_2_alg».proof.Proof.SageSpec
import proofs.«121412_j16045997818029_2_alg».proof.Proof.LibBlockDot
import proofs.«121412_j16045997818029_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SageValue

open Idealize.ShloMosaic Idealize.ShloMosaic.ValueIdx Idealize.SL.Sem Cert.KernelIdeal Cert.KernelIdeal.Gen

/-- The scaled neighbour sums, read at (p, k): the neighbour sum times the row's inverse degree. -/
theorem scaled_apply (v0 : FVec Ideal S2000x128 .f32) (v2 : FVec Ideal S2000x1 .f32) (p : Fin 2000) (k : Fin 128) :
    (truncf .bf16 (mulf (shapeCast S2000x128 v0 shapeCasts_S2000x128_S2000x128)
        (broadcastTo S2000x128 (shapeCast S2000x1 v2 shapeCasts_S2000x1_S2000x1) broadcasts_S2000x1_S2000x128))
      bitsLt_bf16_f32 : FVec Ideal S2000x128 .bf16) (ix2 p k) = v0 (ix2 p k) * v2 (ix2 p 0) := by
  rw [truncf_apply, mulf_apply, shapeCast_self, shapeCast_self]
  exact congrArg (v0 (ix2 p k) * ·) (ColumnLayout.broadcastTo_a1_ab_apply v2 broadcasts_S2000x1_S2000x128 p k)

/-- A weight matrix rounded to the narrower format, read at (k, c): the weight itself. -/
theorem weight_apply (w : FVec Ideal S128x128 .f32) (k c : Fin 128) :
    (truncf .bf16 (shapeCast S128x128 w shapeCasts_S128x128_S128x128) bitsLt_bf16_f32 : FVec Ideal S128x128 .bf16)
      (ix2 k c) = w (ix2 k c) := by
  rw [truncf_apply, shapeCast_self]

/-- The first product, read at (p, c): the scaled neighbour sums of row p against column c of the first weights. -/
theorem prodL_apply (v0 : FVec Ideal S2000x128 .f32) (v2 : FVec Ideal S2000x1 .f32) (v9 : FVec Ideal S128x128 .f32)
    (p : Fin 2000) (c : Fin 128) :
    matmul dot_S2000x128_S128x128_S2000x128_1_0_0_1_n_n none
        (truncf .bf16 (mulf (shapeCast S2000x128 v0 shapeCasts_S2000x128_S2000x128)
          (broadcastTo S2000x128 (shapeCast S2000x1 v2 shapeCasts_S2000x1_S2000x1) broadcasts_S2000x1_S2000x128))
          bitsLt_bf16_f32 : FVec Ideal S2000x128 .bf16)
        (truncf .bf16 (shapeCast S128x128 v9 shapeCasts_S128x128_S128x128) bitsLt_bf16_f32 : FVec Ideal S128x128 .bf16)
        (constant S2000x128 .f32 0x00000000#32) (ix2 p c)
      = ∑ k : Fin 128, (v0 (ix2 p k) * v2 (ix2 p 0)) * v9 (ix2 k c) := by
  refine (Cert.BlockDot.kdot_apply (R := 2000) (K := 128) (N := 128) none _ _ p c).trans ?_
  exact Finset.sum_congr rfl fun k _ => by rw [scaled_apply, weight_apply]

/-- The second product, read at (p, c): the node's own features against column c of the second weights. -/
theorem prodR_apply (v7 : FVec Ideal S2000x128 .bf16) (v12 : FVec Ideal S128x128 .f32) (p : Fin 2000) (c : Fin 128) :
    matmul dot_S2000x128_S128x128_S2000x128_1_0_0_1_n_n none
        (shapeCast S2000x128 v7 shapeCasts_S2000x128_S2000x128)
        (truncf .bf16 (shapeCast S128x128 v12 shapeCasts_S128x128_S128x128) bitsLt_bf16_f32 : FVec Ideal S128x128 .bf16)
        (constant S2000x128 .f32 0x00000000#32) (ix2 p c)
      = ∑ k : Fin 128, v7 (ix2 p k) * v12 (ix2 k c) := by
  refine (Cert.BlockDot.kdot_apply (R := 2000) (K := 128) (N := 128) none _ _ p c).trans ?_
  exact Finset.sum_congr rfl fun k _ => by rw [shapeCast_self, weight_apply]

/-- The bias row broadcast down the rows, read at (p, c): the bias of column c. -/
theorem bias_apply (v18 : FVec Ideal S1x128 .f32) (p : Fin 2000) (c : Fin 128) :
    broadcastTo S2000x128 (shapeCast S1x128 v18 shapeCasts_S1x128_S1x128) broadcasts_S1x128_S2000x128 (ix2 p c)
      = v18 (ix2 0 c) := by
  rw [shapeCast_self]
  exact broadcastTo_1b_ab_apply v18 broadcasts_S1x128_S2000x128 p c

/-- The whole body read at (p, c) is the row formula. -/
theorem body_apply (v0 : FVec Ideal S2000x128 .f32) (v2 : FVec Ideal S2000x1 .f32) (v7 : FVec Ideal S2000x128 .bf16)
    (v9 v12 : FVec Ideal S128x128 .f32) (v18 : FVec Ideal S1x128 .f32) (p : Fin 2000) (c : Fin 128) :
    (truncf .bf16
      (maximumf
        (addf
          (addf
            (matmul dot_S2000x128_S128x128_S2000x128_1_0_0_1_n_n none
              (truncf .bf16 (mulf (shapeCast S2000x128 v0 shapeCasts_S2000x128_S2000x128)
                (broadcastTo S2000x128 (shapeCast S2000x1 v2 shapeCasts_S2000x1_S2000x1) broadcasts_S2000x1_S2000x128))
                bitsLt_bf16_f32 : FVec Ideal S2000x128 .bf16)
              (truncf .bf16 (shapeCast S128x128 v9 shapeCasts_S128x128_S128x128) bitsLt_bf16_f32 : FVec Ideal S128x128 .bf16)
              (constant S2000x128 .f32 0x00000000#32))
            (matmul dot_S2000x128_S128x128_S2000x128_1_0_0_1_n_n none
              (shapeCast S2000x128 v7 shapeCasts_S2000x128_S2000x128)
              (truncf .bf16 (shapeCast S128x128 v12 shapeCasts_S128x128_S128x128) bitsLt_bf16_f32 : FVec Ideal S128x128 .bf16)
              (constant S2000x128 .f32 0x00000000#32)))
          (broadcastTo S2000x128 (shapeCast S1x128 v18 shapeCasts_S1x128_S1x128) broadcasts_S1x128_S2000x128))
        (broadcast S2000x128 (Scalar.ofBits (F := Ideal) .f32 0x00000000#32)))
      bitsLt_bf16_f32 : FVec Ideal S2000x128 .bf16) (ix2 p c)
      = Cert.Sage.sageRow (fun k => v0 (ix2 p k)) (fun k => v7 (ix2 p k)) (v2 (ix2 p 0)) (fun k c => v9 (ix2 k c))
          (fun k c => v12 (ix2 k c)) (fun c => v18 (ix2 0 c)) c := by
  rw [truncf_apply, maximumf_apply, addf_apply, addf_apply, prodL_apply, prodR_apply, bias_apply, broadcast_apply]
  show max _ (Ideal.ofBits .f32 0x00000000#32) = _
  rw [Ideal.ofBits_zero_f32]
  rfl

/-- The stored value of layer kernel 0 is the layer on its block of 2000 rows. -/
theorem pay0_eq (v0 : Vec Ideal S2000x128 .f32) (v2 : Vec Ideal S2000x1 .f32) (v7 : Vec Ideal S2000x128 .bf16)
    (v9 v12 : Vec Ideal S128x128 .f32) (v18 : Vec Ideal S1x128 .f32) :
    Cert.KernelIdeal.Gen.k0_pay1 (F := Ideal) v0 v2 v7 v9 v12 v18
      = Cert.Sage.sageArr (R := 2000) v0 v7 v2 v9 v18 v12 := by
  funext j
  obtain ⟨p, c, rfl⟩ : ∃ (p : Fin 2000) (c : Fin 128), j = ix2 p c := ⟨j 0, j 1, eq_ix2 j⟩
  exact body_apply v0 v2 v7 v9 v12 v18 p c

/-- The stored value of layer kernel 1 is the layer on its block of 2000 rows. -/
theorem pay1_eq (v0 : Vec Ideal S2000x128 .f32) (v2 : Vec Ideal S2000x1 .f32) (v7 : Vec Ideal S2000x128 .bf16)
    (v9 v12 : Vec Ideal S128x128 .f32) (v18 : Vec Ideal S1x128 .f32) :
    Cert.KernelIdeal.Gen.k1_pay1 (F := Ideal) v0 v2 v7 v9 v12 v18
      = Cert.Sage.sageArr (R := 2000) v0 v7 v2 v9 v18 v12 := by
  funext j
  obtain ⟨p, c, rfl⟩ : ∃ (p : Fin 2000) (c : Fin 128), j = ix2 p c := ⟨j 0, j 1, eq_ix2 j⟩
  exact body_apply v0 v2 v7 v9 v12 v18 p c

/-- The stored value of layer kernel 2 is the layer on its block of 2000 rows. -/
theorem pay2_eq (v0 : Vec Ideal S2000x128 .f32) (v2 : Vec Ideal S2000x1 .f32) (v7 : Vec Ideal S2000x128 .bf16)
    (v9 v12 : Vec Ideal S128x128 .f32) (v18 : Vec Ideal S1x128 .f32) :
    Cert.KernelIdeal.Gen.k2_pay1 (F := Ideal) v0 v2 v7 v9 v12 v18
      = Cert.Sage.sageArr (R := 2000) v0 v7 v2 v9 v18 v12 := by
  funext j
  obtain ⟨p, c, rfl⟩ : ∃ (p : Fin 2000) (c : Fin 128), j = ix2 p c := ⟨j 0, j 1, eq_ix2 j⟩
  exact body_apply v0 v2 v7 v9 v12 v18 p c

/-- The stored value of layer kernel 3 is the layer on its block of 2000 rows. -/
theorem pay3_eq (v0 : Vec Ideal S2000x128 .f32) (v2 : Vec Ideal S2000x1 .f32) (v7 : Vec Ideal S2000x128 .bf16)
    (v9 v12 : Vec Ideal S128x128 .f32) (v18 : Vec Ideal S1x128 .f32) :
    Cert.KernelIdeal.Gen.k3_pay1 (F := Ideal) v0 v2 v7 v9 v12 v18
      = Cert.Sage.sageArr (R := 2000) v0 v7 v2 v9 v18 v12 := by
  funext j
  obtain ⟨p, c, rfl⟩ : ∃ (p : Fin 2000) (c : Fin 128), j = ix2 p c := ⟨j 0, j 1, eq_ix2 j⟩
  exact body_apply v0 v2 v7 v9 v12 v18 p c

end Cert.KernelIdeal.SageValue

end
-- ==== Proof.KI.SageArr0.lean ====
/-
  Region 0: the result array after the region is the layer of the whole operand arrays

The region runs the layer kernel on a grid of 25 points.  Point t owns rows 2000 t … 2000 t + 1999 of the three
row-wise operands (two feature arrays of 128 columns, one column of scaling factors) and of the result; the two
128x128 weight matrices and the 1x128 bias row are read whole at every point.  At a point the body stores, over its
whole output block, the layer of its six input blocks.  The layer is row-local: row p of the layer of a block of rows
depends on row p of the row-wise operands only, with the weights and the bias shared.  So what point t writes back is
rows 2000 t … 2000 t + 1999 of the layer of the whole arrays, the 25 blocks cover all 50000 rows (row r lies in the
block of point r / 2000), and the array the region leaves is the layer of the six arrays it found.
-/
import proofs.«121412_j16045997818029_2_alg».proof.Proof.KI.Sage0
import proofs.«121412_j16045997818029_2_alg».proof.Proof.SagePayload
import proofs.«121412_j16045997818029_2_alg».proof.Proof.SageSpec
import Idealize.ShloMosaic.Lib.Pipeline.Value
import Idealize.ShloMosaic.Lib.ValueIdx
import Idealize.ShloMosaic.PureOps.Ideal

noncomputable section

namespace Cert.KernelIdeal.SageValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of a whole-block rectangle are zero on both axes. -/
theorem zero_offsets0 : (![0, 0] : Fin 2 → Nat) = fun _ => 0 := funext fun a => by fin_cases a <;> rfl

/-- The layer of the region's six operand arrays, as the region finds them, on all 50000 rows. -/
abbrev layer0 (c : Dev nD) : S50000x128.Idx → EReal :=
  Cert.Sage.sageArr (R := 50000) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- The block index maps, decided over the 25 points of the grid: the three row-wise operands and the result are
    at block (t, 0) at point t; the two weight matrices and the bias row are at block (0, 0) at every point. -/
theorem index_facts0 : ∀ t : Fin cfg0.N, t.val < 25
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the block of point t is row 2000 t + p of the array. -/
def rowAt0 (t : Fin cfg0.N) (p : Fin 2000) : Fin 50000 :=
  ⟨2000 * t.val + p.val, by have h := (index_facts0 t).1; have := p.isLt; omega⟩

/-- The block of the first row-wise operand at point t, read at (p, k), is the array at (2000 t + p, k). -/
theorem iblk0_0_apply (c : Dev nD) (t : Fin cfg0.N) (p : Fin 2000) (k : Fin 128) :
    (Hand.iblk0 V c 0 t : S2000x128.Idx → EReal) (ix2 p k)
      = (V c (Pipeline.arrRef spec0 0) : S50000x128.Idx → EReal) (ix2 (rowAt0 t p) k) := by
  obtain ⟨-, e0, e1, -⟩ := index_facts0 t
  unfold Hand.iblk0
  rw [View.read_apply]
  refine congrArg (V c (Pipeline.arrRef spec0 0) : S50000x128.Idx → EReal) ?_
  funext a; apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The block of the second row-wise operand at point t, read at (p, k), is the array at (2000 t + p, k). -/
theorem iblk0_1_apply (c : Dev nD) (t : Fin cfg0.N) (p : Fin 2000) (k : Fin 128) :
    (Hand.iblk0 V c 1 t : S2000x128.Idx → EReal) (ix2 p k)
      = (V c (Pipeline.arrRef spec0 1) : S50000x128.Idx → EReal) (ix2 (rowAt0 t p) k) := by
  obtain ⟨-, -, -, e0, e1, -⟩ := index_facts0 t
  unfold Hand.iblk0
  rw [View.read_apply]
  refine congrArg (V c (Pipeline.arrRef spec0 1) : S50000x128.Idx → EReal) ?_
  funext a; apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The block of the column operand at point t, read at (p, 0), is the array at (2000 t + p, 0). -/
theorem iblk0_2_apply (c : Dev nD) (t : Fin cfg0.N) (p : Fin 2000) :
    (Hand.iblk0 V c 2 t : S2000x1.Idx → EReal) (ix2 p 0)
      = (V c (Pipeline.arrRef spec0 2) : S50000x1.Idx → EReal) (ix2 (rowAt0 t p) 0) := by
  obtain ⟨-, -, -, -, -, e0, e1, -⟩ := index_facts0 t
  unfold Hand.iblk0
  rw [View.read_apply]
  refine congrArg (V c (Pipeline.arrRef spec0 2) : S50000x1.Idx → EReal) ?_
  funext a; apply Fin.ext
  match a with
  | ⟨0, _⟩ => show win0_2.index t (0 : Fin 2) * 2000 + 1 * p.val = 2000 * t.val + p.val; rw [e0]; omega
  | ⟨1, _⟩ => show win0_2.index t (1 : Fin 2) * 1 + 1 * (0 : Fin 1).val = (0 : Fin 1).val; rw [e1]; omega

/-- The first weight matrix's block is the whole matrix at every point. -/
theorem iblk0_3_eq (c : Dev nD) (t : Fin cfg0.N) :
    (Hand.iblk0 V c 3 t : S128x128.Idx → EReal) = V c (Pipeline.arrRef spec0 3) := by
  obtain ⟨-, -, -, -, -, -, -, e0, e1, -⟩ := index_facts0 t
  funext j
  unfold Hand.iblk0
  rw [View.read_apply]
  refine congrArg (V c (Pipeline.arrRef spec0 3) : S128x128.Idx → EReal) ?_
  funext a; apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- The bias row's block is the whole row at every point. -/
theorem iblk0_4_eq (c : Dev nD) (t : Fin cfg0.N) :
    (Hand.iblk0 V c 4 t : S1x128.Idx → EReal) = V c (Pipeline.arrRef spec0 4) := by
  obtain ⟨-, -, -, -, -, -, -, -, -, e0, e1, -⟩ := index_facts0 t
  funext j
  unfold Hand.iblk0
  rw [View.read_apply]
  refine congrArg (V c (Pipeline.arrRef spec0 4) : S1x128.Idx → EReal) ?_
  funext a; apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- The second weight matrix's block is the whole matrix at every point. -/
theorem iblk0_5_eq (c : Dev nD) (t : Fin cfg0.N) :
    (Hand.iblk0 V c 5 t : S128x128.Idx → EReal) = V c (Pipeline.arrRef spec0 5) := by
  obtain ⟨-, -, -, -, -, -, -, -, -, -, -, e0, e1, -⟩ := index_facts0 t
  funext j
  unfold Hand.iblk0
  rw [View.read_apply]
  refine congrArg (V c (Pipeline.arrRef spec0 5) : S128x128.Idx → EReal) ?_
  funext a; apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- What point t writes back is block t of the layer of the whole arrays: the body's one store covers its block,
    the stored value is the layer of the six input blocks, and row p of that is row 2000 t + p of the layer of the
    arrays because the layer is row-local and the weights and the bias are the whole arrays at every point. -/
theorem flushed0_eq (c : Dev nD) (t : Fin cfg0.N) :
    (Hand.dat0 (F := Ideal) V c).flushed 6 t = ((cfg0.win 6).blk t).view.read (Elt Ideal) (layer0 V c) := by
  show (cfg0.win 6).cut (grid0.coords t) ((Hand.dat0 V c).after 6 t) = _
  rw [Hand.after0_6]
  unfold Hand.out0_6
  rw [View.canon_unit_zero zero_offsets0]
  simp only [View.ld_unit_zero (S := S2000x128) zero_offsets0, View.ld_unit_zero (S := S2000x1) zero_offsets0,
    View.ld_unit_zero (S := S128x128) zero_offsets0, View.ld_unit_zero (S := S1x128) zero_offsets0]
  rw [pay0_eq, iblk0_3_eq, iblk0_4_eq, iblk0_5_eq]
  obtain ⟨-, -, -, -, -, -, -, -, -, -, -, -, -, e0, e1⟩ := index_facts0 t
  funext j
  obtain ⟨p, k, rfl⟩ : ∃ (p : Fin 2000) (k : Fin 128), j = ix2 p k := ⟨j 0, j 1, eq_ix2 j⟩
  rw [View.read_apply]
  have hemb : (((cfg0.win 6).blk t).view.emb (ix2 p k) : S50000x128.Idx) = ix2 (rowAt0 t p) k := by
    funext a; apply Fin.ext
    match a with
    | ⟨0, _⟩ => show win0_6.index t (0 : Fin 2) * 2000 + 1 * p.val = 2000 * t.val + p.val; rw [e0]; omega
    | ⟨1, _⟩ => show win0_6.index t (1 : Fin 2) * 128 + 1 * k.val = k.val; rw [e1]; omega
  refine Eq.trans ?_ (congrArg (layer0 V c) hemb).symm
  exact Cert.Sage.sageArr_rows _ _ _ _ _ _ _ _ _ p (rowAt0 t p) (fun k' => iblk0_0_apply V c t p k')
    (fun k' => iblk0_1_apply V c t p k') (iblk0_2_apply V c t p) k

/-- An index of the result array is in point t's block iff each coordinate is in the block's range on its axis. -/
theorem mem_blk0 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole (Pipeline.arrRef spec0 6)).slice (win0_6.rect t)).set ↔ _
  rw [View.set_slice_whole, Rect.mem_set_unit]
  exact Iff.rfl

/-- Every index of the result array is in some point's block: row r is in the block of point r / 2000. -/
theorem cover0 (i : S50000x128.Idx) :
    ∃ t : Fin cfg0.N, (cfg0.win 6).flush t = true ∧ i ∈ ((cfg0.win 6).blk t).view.set := by
  have h0 : (i 0).val < 50000 := (i 0).isLt
  have h1 : (i 1).val < 128 := (i 1).isLt
  have hN : cfg0.N = 25 := N_0
  have ht : (i 0).val / 2000 < cfg0.N := by rw [hN]; omega
  obtain ⟨-, -, -, -, -, -, -, -, -, -, -, -, -, e0, e1⟩ := index_facts0 ⟨(i 0).val / 2000, ht⟩
  refine ⟨⟨(i 0).val / 2000, ht⟩, flush0_6 _, ?_⟩
  rw [mem_blk0]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e1]; omega

/-- The result array after the region is the layer of the six operand arrays as the region finds them. -/
theorem arr0 (c : Dev nD) : (Hand.dat0 (F := Ideal) V c).arrAt 6 cfg0.N = layer0 V c :=
  (Hand.dat0 V c).arrAt_eq_of_cover 6 (layer0 V c) (fun t _ => flushed0_eq V c t) cover0

end Cert.KernelIdeal.SageValue

end
-- ==== Proof.KI.SageArr1.lean ====
/-
  Region 1: the result array after the region is the layer of the whole operand arrays

The region runs the layer kernel on a grid of 25 points.  Point t owns rows 2000 t … 2000 t + 1999 of the three
row-wise operands (two feature arrays of 128 columns, one column of scaling factors) and of the result; the two
128x128 weight matrices and the 1x128 bias row are read whole at every point.  At a point the body stores, over its
whole output block, the layer of its six input blocks.  The layer is row-local: row p of the layer of a block of rows
depends on row p of the row-wise operands only, with the weights and the bias shared.  So what point t writes back is
rows 2000 t … 2000 t + 1999 of the layer of the whole arrays, the 25 blocks cover all 50000 rows (row r lies in the
block of point r / 2000), and the array the region leaves is the layer of the six arrays it found.
-/
import proofs.«121412_j16045997818029_2_alg».proof.Proof.KI.Sage1
import proofs.«121412_j16045997818029_2_alg».proof.Proof.SagePayload
import proofs.«121412_j16045997818029_2_alg».proof.Proof.SageSpec
import Idealize.ShloMosaic.Lib.Pipeline.Value
import Idealize.ShloMosaic.Lib.ValueIdx
import Idealize.ShloMosaic.PureOps.Ideal

noncomputable section

namespace Cert.KernelIdeal.SageValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of a whole-block rectangle are zero on both axes. -/
theorem zero_offsets1 : (![0, 0] : Fin 2 → Nat) = fun _ => 0 := funext fun a => by fin_cases a <;> rfl

/-- The layer of the region's six operand arrays, as the region finds them, on all 50000 rows. -/
abbrev layer1 (c : Dev nD) : S50000x128.Idx → EReal :=
  Cert.Sage.sageArr (R := 50000) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-- The block index maps, decided over the 25 points of the grid: the three row-wise operands and the result are
    at block (t, 0) at point t; the two weight matrices and the bias row are at block (0, 0) at every point. -/
theorem index_facts1 : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the block of point t is row 2000 t + p of the array. -/
def rowAt1 (t : Fin cfg1.N) (p : Fin 2000) : Fin 50000 :=
  ⟨2000 * t.val + p.val, by have h := (index_facts1 t).1; have := p.isLt; omega⟩

/-- The block of the first row-wise operand at point t, read at (p, k), is the array at (2000 t + p, k). -/
theorem iblk1_0_apply (c : Dev nD) (t : Fin cfg1.N) (p : Fin 2000) (k : Fin 128) :
    (Hand.iblk1 V c 0 t : S2000x128.Idx → EReal) (ix2 p k)
      = (V c (Pipeline.arrRef spec1 0) : S50000x128.Idx → EReal) (ix2 (rowAt1 t p) k) := by
  obtain ⟨-, e0, e1, -⟩ := index_facts1 t
  unfold Hand.iblk1
  rw [View.read_apply]
  refine congrArg (V c (Pipeline.arrRef spec1 0) : S50000x128.Idx → EReal) ?_
  funext a; apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The block of the second row-wise operand at point t, read at (p, k), is the array at (2000 t + p, k). -/
theorem iblk1_1_apply (c : Dev nD) (t : Fin cfg1.N) (p : Fin 2000) (k : Fin 128) :
    (Hand.iblk1 V c 1 t : S2000x128.Idx → EReal) (ix2 p k)
      = (V c (Pipeline.arrRef spec1 1) : S50000x128.Idx → EReal) (ix2 (rowAt1 t p) k) := by
  obtain ⟨-, -, -, e0, e1, -⟩ := index_facts1 t
  unfold Hand.iblk1
  rw [View.read_apply]
  refine congrArg (V c (Pipeline.arrRef spec1 1) : S50000x128.Idx → EReal) ?_
  funext a; apply Fin.ext
  match a with
  | ⟨0, _⟩ => show win1_1.index t (0 : Fin 2) * 2000 + 1 * p.val = 2000 * t.val + p.val; rw [e0]; omega
  | ⟨1, _⟩ => show win1_1.index t (1 : Fin 2) * 128 + 1 * k.val = k.val; rw [e1]; omega

/-- The block of the column operand at point t, read at (p, 0), is the array at (2000 t + p, 0). -/
theorem iblk1_2_apply (c : Dev nD) (t : Fin cfg1.N) (p : Fin 2000) :
    (Hand.iblk1 V c 2 t : S2000x1.Idx → EReal) (ix2 p 0)
      = (V c (Pipeline.arrRef spec1 2) : S50000x1.Idx → EReal) (ix2 (rowAt1 t p) 0) := by
  obtain ⟨-, -, -, -, -, e0, e1, -⟩ := index_facts1 t
  unfold Hand.iblk1
  rw [View.read_apply]
  refine congrArg (V c (Pipeline.arrRef spec1 2) : S50000x1.Idx → EReal) ?_
  funext a; apply Fin.ext
  match a with
  | ⟨0, _⟩ => show win1_2.index t (0 : Fin 2) * 2000 + 1 * p.val = 2000 * t.val + p.val; rw [e0]; omega
  | ⟨1, _⟩ => show win1_2.index t (1 : Fin 2) * 1 + 1 * (0 : Fin 1).val = (0 : Fin 1).val; rw [e1]; omega

/-- The first weight matrix's block is the whole matrix at every point. -/
theorem iblk1_3_eq (c : Dev nD) (t : Fin cfg1.N) :
    (Hand.iblk1 V c 3 t : S128x128.Idx → EReal) = V c (Pipeline.arrRef spec1 3) := by
  obtain ⟨-, -, -, -, -, -, -, e0, e1, -⟩ := index_facts1 t
  funext j
  unfold Hand.iblk1
  rw [View.read_apply]
  refine congrArg (V c (Pipeline.arrRef spec1 3) : S128x128.Idx → EReal) ?_
  funext a; apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- The bias row's block is the whole row at every point. -/
theorem iblk1_4_eq (c : Dev nD) (t : Fin cfg1.N) :
    (Hand.iblk1 V c 4 t : S1x128.Idx → EReal) = V c (Pipeline.arrRef spec1 4) := by
  obtain ⟨-, -, -, -, -, -, -, -, -, e0, e1, -⟩ := index_facts1 t
  funext j
  unfold Hand.iblk1
  rw [View.read_apply]
  refine congrArg (V c (Pipeline.arrRef spec1 4) : S1x128.Idx → EReal) ?_
  funext a; apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- The second weight matrix's block is the whole matrix at every point. -/
theorem iblk1_5_eq (c : Dev nD) (t : Fin cfg1.N) :
    (Hand.iblk1 V c 5 t : S128x128.Idx → EReal) = V c (Pipeline.arrRef spec1 5) := by
  obtain ⟨-, -, -, -, -, -, -, -, -, -, -, e0, e1, -⟩ := index_facts1 t
  funext j
  unfold Hand.iblk1
  rw [View.read_apply]
  refine congrArg (V c (Pipeline.arrRef spec1 5) : S128x128.Idx → EReal) ?_
  funext a; apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-- What point t writes back is block t of the layer of the whole arrays: the body's one store covers its block,
    the stored value is the layer of the six input blocks, and row p of that is row 2000 t + p of the layer of the
    arrays because the layer is row-local and the weights and the bias are the whole arrays at every point. -/
theorem flushed1_eq (c : Dev nD) (t : Fin cfg1.N) :
    (Hand.dat1 (F := Ideal) V c).flushed 6 t = ((cfg1.win 6).blk t).view.read (Elt Ideal) (layer1 V c) := by
  show (cfg1.win 6).cut (grid1.coords t) ((Hand.dat1 V c).after 6 t) = _
  rw [Hand.after1_6]
  unfold Hand.out1_6
  rw [View.canon_unit_zero zero_offsets1]
  simp only [View.ld_unit_zero (S := S2000x128) zero_offsets1, View.ld_unit_zero (S := S2000x1) zero_offsets1,
    View.ld_unit_zero (S := S128x128) zero_offsets1, View.ld_unit_zero (S := S1x128) zero_offsets1]
  rw [pay1_eq, iblk1_3_eq, iblk1_4_eq, iblk1_5_eq]
  obtain ⟨-, -, -, -, -, -, -, -, -, -, -, -, -, e0, e1⟩ := index_facts1 t
  funext j
  obtain ⟨p, k, rfl⟩ : ∃ (p : Fin 2000) (k : Fin 128), j = ix2 p k := ⟨j 0, j 1, eq_ix2 j⟩
  rw [View.read_apply]
  have hemb : (((cfg1.win 6).blk t).view.emb (ix2 p k) : S50000x128.Idx) = ix2 (rowAt1 t p) k := by
    funext a; apply Fin.ext
    match a with
    | ⟨0, _⟩ => show win1_6.index t (0 : Fin 2) * 2000 + 1 * p.val = 2000 * t.val + p.val; rw [e0]; omega
    | ⟨1, _⟩ => show win1_6.index t (1 : Fin 2) * 128 + 1 * k.val = k.val; rw [e1]; omega
  refine Eq.trans ?_ (congrArg (layer1 V c) hemb).symm
  exact Cert.Sage.sageArr_rows _ _ _ _ _ _ _ _ _ p (rowAt1 t p) (fun k' => iblk1_0_apply V c t p k')
    (fun k' => iblk1_1_apply V c t p k') (iblk1_2_apply V c t p) k

/-- An index of the result array is in point t's block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole (Pipeline.arrRef spec1 6)).slice (win1_6.rect t)).set ↔ _
  rw [View.set_slice_whole, Rect.mem_set_unit]
  exact Iff.rfl

/-- Every index of the result array is in some point's block: row r is in the block of point r / 2000. -/
theorem cover1 (i : S50000x128.Idx) :
    ∃ t : Fin cfg1.N, (cfg1.win 6).flush t = true ∧ i ∈ ((cfg1.win 6).blk t).view.set := by
  have h0 : (i 0).val < 50000 := (i 0).isLt
  have h1 : (i 1).val < 128 := (i 1).isLt
  have hN : cfg1.N = 25 := N_1
  have ht : (i 0).val / 2000 < cfg1.N := by rw [hN]; omega
  obtain ⟨-, -, -, -, -, -, -, -, -, -, -, -, -, e0, e1⟩ := index_facts1 ⟨(i 0).val / 2000, ht⟩
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

/-- The result array after the region is the layer of the six operand arrays as the region finds them. -/
theorem arr1 (c : Dev nD) : (Hand.dat1 (F := Ideal) V c).arrAt 6 cfg1.N = layer1 V c :=
  (Hand.dat1 V c).arrAt_eq_of_cover 6 (layer1 V c) (fun t _ => flushed1_eq V c t) cover1

end Cert.KernelIdeal.SageValue

end
-- ==== Proof.KI.SageArr2.lean ====
/-
  Region 2: the result array after the region is the layer of the whole operand arrays

The region runs the layer kernel on a grid of 25 points.  Point t owns rows 2000 t … 2000 t + 1999 of the three
row-wise operands (two feature arrays of 128 columns, one column of scaling factors) and of the result; the two
128x128 weight matrices and the 1x128 bias row are read whole at every point.  At a point the body stores, over its
whole output block, the layer of its six input blocks.  The layer is row-local: row p of the layer of a block of rows
depends on row p of the row-wise operands only, with the weights and the bias shared.  So what point t writes back is
rows 2000 t … 2000 t + 1999 of the layer of the whole arrays, the 25 blocks cover all 50000 rows (row r lies in the
block of point r / 2000), and the array the region leaves is the layer of the six arrays it found.
-/
import proofs.«121412_j16045997818029_2_alg».proof.Proof.KI.Sage2
import proofs.«121412_j16045997818029_2_alg».proof.Proof.SagePayload
import proofs.«121412_j16045997818029_2_alg».proof.Proof.SageSpec
import Idealize.ShloMosaic.Lib.Pipeline.Value
import Idealize.ShloMosaic.Lib.ValueIdx
import Idealize.ShloMosaic.PureOps.Ideal

noncomputable section

namespace Cert.KernelIdeal.SageValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of a whole-block rectangle are zero on both axes. -/
theorem zero_offsets2 : (![0, 0] : Fin 2 → Nat) = fun _ => 0 := funext fun a => by fin_cases a <;> rfl

/-- The layer of the region's six operand arrays, as the region finds them, on all 50000 rows. -/
abbrev layer2 (c : Dev nD) : S50000x128.Idx → EReal :=
  Cert.Sage.sageArr (R := 50000) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- The block index maps, decided over the 25 points of the grid: the three row-wise operands and the result are
    at block (t, 0) at point t; the two weight matrices and the bias row are at block (0, 0) at every point. -/
theorem index_facts2 : ∀ t : Fin cfg2.N, t.val < 25
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of the block of point t is row 2000 t + p of the array. -/
def rowAt2 (t : Fin cfg2.N) (p : Fin 2000) : Fin 50000 :=
  ⟨2000 * t.val + p.val, by have h := (index_facts2 t).1; have := p.isLt; omega⟩

/-- The block of the first row-wise operand at point t, read at (p, k), is the array at (2000 t + p, k). -/
theorem iblk2_0_apply (c : Dev nD) (t : Fin cfg2.N) (p : Fin 2000) (k : Fin 128) :
    (Hand.iblk2 V c 0 t : S2000x128.Idx → EReal) (ix2 p k)
      = (V c (Pipeline.arrRef spec2 0) : S50000x128.Idx → EReal) (ix2 (rowAt2 t p) k) := by
  obtain ⟨-, e0, e1, -⟩ := index_facts2 t
  unfold Hand.iblk2
  rw [View.read_apply]
  refine congrArg (V c (Pipeline.arrRef spec2 0) : S50000x128.Idx → EReal) ?_
  funext a; apply Fin.ext
  match a with
  | ⟨0, _⟩ => show win2_0.index t (0 : Fin 2) * 2000 + 1 * p.val = 2000 * t.val + p.val; rw [e0]; omega
  | ⟨1, _⟩ => show win2_0.index t (1 : Fin 2) * 128 + 1 * k.val = k.val; rw [e1]; omega

/-- The block of the second row-wise operand at point t, read at (p, k), is the array at (2000 t + p, k). -/
theorem iblk2_1_apply (c : Dev nD) (t : Fin cfg2.N) (p : Fin 2000) (k : Fin 128) :
    (Hand.iblk2 V c 1 t : S2000x128.Idx → EReal) (ix2 p k)
      = (V c (Pipeline.arrRef spec2 1) : S50000x128.Idx → EReal) (ix2 (rowAt2 t p) k) := by
  obtain ⟨-, -, -, e0, e1, -⟩ := index_facts2 t
  unfold Hand.iblk2
  rw [View.read_apply]
  refine congrArg (V c (Pipeline.arrRef spec2 1) : S50000x128.Idx → EReal) ?_
  funext a; apply Fin.ext
  match a with
  | ⟨0, _⟩ => show win2_1.index t (0 : Fin 2) * 2000 + 1 * p.val = 2000 * t.val + p.val; rw [e0]; omega
  | ⟨1, _⟩ => show win2_1.index t (1 : Fin 2) * 128 + 1 * k.val = k.val; rw [e1]; omega

/-- The block of the column operand at point t, read at (p, 0), is the array at (2000 t + p, 0). -/
theorem iblk2_2_apply (c : Dev nD) (t : Fin cfg2.N) (p : Fin 2000) :
    (Hand.iblk2 V c 2 t : S2000x1.Idx → EReal) (ix2 p 0)
      = (V c (Pipeline.arrRef spec2 2) : S50000x1.Idx → EReal) (ix2 (rowAt2 t p) 0) := by
  obtain ⟨-, -, -, -, -, e0, e1, -⟩ := index_facts2 t
  unfold Hand.iblk2
  rw [View.read_apply]
  refine congrArg (V c (Pipeline.arrRef spec2 2) : S50000x1.Idx → EReal) ?_
  funext a; apply Fin.ext
  match a with
  | ⟨0, _⟩ => show win2_2.index t (0 : Fin 2) * 2000 + 1 * p.val = 2000 * t.val + p.val; rw [e0]; omega
  | ⟨1, _⟩ => show win2_2.index t (1 : Fin 2) * 1 + 1 * (0 : Fin 1).val = (0 : Fin 1).val; rw [e1]; omega

/-- The first weight matrix's block is the whole matrix at every point. -/
theorem iblk2_3_eq (c : Dev nD) (t : Fin cfg2.N) :
    (Hand.iblk2 V c 3 t : S128x128.Idx → EReal) = V c (Pipeline.arrRef spec2 3) := by
  obtain ⟨-, -, -, -, -, -, -, e0, e1, -⟩ := index_facts2 t
  funext j
  unfold Hand.iblk2
  rw [View.read_apply]
  refine congrArg (V c (Pipeline.arrRef spec2 3) : S128x128.Idx → EReal) ?_
  funext a; apply Fin.ext
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- The bias row's block is the whole row at every point. -/
theorem iblk2_4_eq (c : Dev nD) (t : Fin cfg2.N) :
    (Hand.iblk2 V c 4 t : S1x128.Idx → EReal) = V c (Pipeline.arrRef spec2 4) := by
  obtain ⟨-, -, -, -, -, -, -, -, -, e0, e1, -⟩ := index_facts2 t
  funext j
  unfold Hand.iblk2
  rw [View.read_apply]
  refine congrArg (V c (Pipeline.arrRef spec2 4) : S1x128.Idx → EReal) ?_
  funext a; apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- The second weight matrix's block is the whole matrix at every point. -/
theorem iblk2_5_eq (c : Dev nD) (t : Fin cfg2.N) :
    (Hand.iblk2 V c 5 t : S128x128.Idx → EReal) = V c (Pipeline.arrRef spec2 5) := by
  obtain ⟨-, -, -, -, -, -, -, -, -, -, -, e0, e1, -⟩ := index_facts2 t
  funext j
  unfold Hand.iblk2
  rw [View.read_apply]
  refine congrArg (V c (Pipeline.arrRef spec2 5) : S128x128.Idx → EReal) ?_
  funext a; apply Fin.ext
  match a with
  | ⟨0, _⟩ => show win2_5.index t (0 : Fin 2) * 128 + 1 * (j 0).val = (j 0).val; rw [e0]; omega
  | ⟨1, _⟩ => show win2_5.index t (1 : Fin 2) * 128 + 1 * (j 1).val = (j 1).val; rw [e1]; omega

/-- What point t writes back is block t of the layer of the whole arrays: the body's one store covers its block,
    the stored value is the layer of the six input blocks, and row p of that is row 2000 t + p of the layer of the
    arrays because the layer is row-local and the weights and the bias are the whole arrays at every point. -/
theorem flushed2_eq (c : Dev nD) (t : Fin cfg2.N) :
    (Hand.dat2 (F := Ideal) V c).flushed 6 t = ((cfg2.win 6).blk t).view.read (Elt Ideal) (layer2 V c) := by
  show (cfg2.win 6).cut (grid2.coords t) ((Hand.dat2 V c).after 6 t) = _
  rw [Hand.after2_6]
  unfold Hand.out2_6
  rw [View.canon_unit_zero zero_offsets2]
  simp only [View.ld_unit_zero (S := S2000x128) zero_offsets2, View.ld_unit_zero (S := S2000x1) zero_offsets2,
    View.ld_unit_zero (S := S128x128) zero_offsets2, View.ld_unit_zero (S := S1x128) zero_offsets2]
  rw [pay2_eq, iblk2_3_eq, iblk2_4_eq, iblk2_5_eq]
  obtain ⟨-, -, -, -, -, -, -, -, -, -, -, -, -, e0, e1⟩ := index_facts2 t
  funext j
  obtain ⟨p, k, rfl⟩ : ∃ (p : Fin 2000) (k : Fin 128), j = ix2 p k := ⟨j 0, j 1, eq_ix2 j⟩
  rw [View.read_apply]
  have hemb : (((cfg2.win 6).blk t).view.emb (ix2 p k) : S50000x128.Idx) = ix2 (rowAt2 t p) k := by
    funext a; apply Fin.ext
    match a with
    | ⟨0, _⟩ => show win2_6.index t (0 : Fin 2) * 2000 + 1 * p.val = 2000 * t.val + p.val; rw [e0]; omega
    | ⟨1, _⟩ => show win2_6.index t (1 : Fin 2) * 128 + 1 * k.val = k.val; rw [e1]; omega
  refine Eq.trans ?_ (congrArg (layer2 V c) hemb).symm
  exact Cert.Sage.sageArr_rows _ _ _ _ _ _ _ _ _ p (rowAt2 t p) (fun k' => iblk2_0_apply V c t p k')
    (fun k' => iblk2_1_apply V c t p k') (iblk2_2_apply V c t p) k

/-- An index of the result array is in point t's block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole (Pipeline.arrRef spec2 6)).slice (win2_6.rect t)).set ↔ _
  rw [View.set_slice_whole, Rect.mem_set_unit]
  exact Iff.rfl

/-- Every index of the result array is in some point's block: row r is in the block of point r / 2000. -/
theorem cover2 (i : S50000x128.Idx) :
    ∃ t : Fin cfg2.N, (cfg2.win 6).flush t = true ∧ i ∈ ((cfg2.win 6).blk t).view.set := by
  have h0 : (i 0).val < 50000 := (i 0).isLt
  have h1 : (i 1).val < 128 := (i 1).isLt
  have hN : cfg2.N = 25 := N_2
  have ht : (i 0).val / 2000 < cfg2.N := by rw [hN]; omega
  obtain ⟨-, -, -, -, -, -, -, -, -, -, -, -, -, e0, e1⟩ := index_facts2 ⟨(i 0).val / 2000, ht⟩
  refine ⟨⟨(i 0).val / 2000, ht⟩, flush2_6 _, ?_⟩
  rw [mem_blk2]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

/-- The result array after the region is the layer of the six operand arrays as the region finds them. -/
theorem arr2 (c : Dev nD) : (Hand.dat2 (F := Ideal) V c).arrAt 6 cfg2.N = layer2 V c :=
  (Hand.dat2 V c).arrAt_eq_of_cover 6 (layer2 V c) (fun t _ => flushed2_eq V c t) cover2

end Cert.KernelIdeal.SageValue

end
-- ==== Proof.KI.SageArr3.lean ====
/-
  Region 3: the result array after the region is the layer of the whole operand arrays

The region runs the layer kernel on a grid of 25 points.  Point t owns rows 2000 t … 2000 t + 1999 of the three
row-wise operands (two feature arrays of 128 columns, one column of scaling factors) and of the result; the two
128x128 weight matrices and the 1x128 bias row are read whole at every point.  At a point the body stores, over its
whole output block, the layer of its six input blocks.  The layer is row-local: row p of the layer of a block of rows
depends on row p of the row-wise operands only, with the weights and the bias shared.  So what point t writes back is
rows 2000 t … 2000 t + 1999 of the layer of the whole arrays, the 25 blocks cover all 50000 rows (row r lies in the
block of point r / 2000), and the array the region leaves is the layer of the six arrays it found.
-/
import proofs.«121412_j16045997818029_2_alg».proof.Proof.KI.Sage3
import proofs.«121412_j16045997818029_2_alg».proof.Proof.SagePayload
import proofs.«121412_j16045997818029_2_alg».proof.Proof.SageSpec
import Idealize.ShloMosaic.Lib.Pipeline.Value
import Idealize.ShloMosaic.Lib.ValueIdx
import Idealize.ShloMosaic.PureOps.Ideal

noncomputable section

namespace Cert.KernelIdeal.SageValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of a whole-block rectangle are zero on both axes. -/
theorem zero_offsets3 : (![0, 0] : Fin 2 → Nat) = fun _ => 0 := funext fun a => by fin_cases a <;> rfl

/-- The layer of the region's six operand arrays, as the region finds them, on all 50000 rows. -/
abbrev layer3 (c : Dev nD) : S50000x128.Idx → EReal :=
  Cert.Sage.sageArr (R := 50000) (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

/-- The block index maps, decided over the 25 points of the grid: the three row-wise operands and the result are
    at block (t, 0) at point t; the two weight matrices and the bias row are at block (0, 0) at every point. -/
theorem index_facts3 : ∀ t : Fin cfg3.N, t.val < 25
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of the block of point t is row 2000 t + p of the array. -/
def rowAt3 (t : Fin cfg3.N) (p : Fin 2000) : Fin 50000 :=
  ⟨2000 * t.val + p.val, by have h := (index_facts3 t).1; have := p.isLt; omega⟩

/-- The block of the first row-wise operand at point t, read at (p, k), is the array at (2000 t + p, k). -/
theorem iblk3_0_apply (c : Dev nD) (t : Fin cfg3.N) (p : Fin 2000) (k : Fin 128) :
    (Hand.iblk3 V c 0 t : S2000x128.Idx → EReal) (ix2 p k)
      = (V c (Pipeline.arrRef spec3 0) : S50000x128.Idx → EReal) (ix2 (rowAt3 t p) k) := by
  obtain ⟨-, e0, e1, -⟩ := index_facts3 t
  unfold Hand.iblk3
  rw [View.read_apply]
  refine congrArg (V c (Pipeline.arrRef spec3 0) : S50000x128.Idx → EReal) ?_
  funext a; apply Fin.ext
  match a with
  | ⟨0, _⟩ => show win3_0.index t (0 : Fin 2) * 2000 + 1 * p.val = 2000 * t.val + p.val; rw [e0]; omega
  | ⟨1, _⟩ => show win3_0.index t (1 : Fin 2) * 128 + 1 * k.val = k.val; rw [e1]; omega

/-- The block of the second row-wise operand at point t, read at (p, k), is the array at (2000 t + p, k). -/
theorem iblk3_1_apply (c : Dev nD) (t : Fin cfg3.N) (p : Fin 2000) (k : Fin 128) :
    (Hand.iblk3 V c 1 t : S2000x128.Idx → EReal) (ix2 p k)
      = (V c (Pipeline.arrRef spec3 1) : S50000x128.Idx → EReal) (ix2 (rowAt3 t p) k) := by
  obtain ⟨-, -, -, e0, e1, -⟩ := index_facts3 t
  unfold Hand.iblk3
  rw [View.read_apply]
  refine congrArg (V c (Pipeline.arrRef spec3 1) : S50000x128.Idx → EReal) ?_
  funext a; apply Fin.ext
  match a with
  | ⟨0, _⟩ => show win3_1.index t (0 : Fin 2) * 2000 + 1 * p.val = 2000 * t.val + p.val; rw [e0]; omega
  | ⟨1, _⟩ => show win3_1.index t (1 : Fin 2) * 128 + 1 * k.val = k.val; rw [e1]; omega

/-- The block of the column operand at point t, read at (p, 0), is the array at (2000 t + p, 0). -/
theorem iblk3_2_apply (c : Dev nD) (t : Fin cfg3.N) (p : Fin 2000) :
    (Hand.iblk3 V c 2 t : S2000x1.Idx → EReal) (ix2 p 0)
      = (V c (Pipeline.arrRef spec3 2) : S50000x1.Idx → EReal) (ix2 (rowAt3 t p) 0) := by
  obtain ⟨-, -, -, -, -, e0, e1, -⟩ := index_facts3 t
  unfold Hand.iblk3
  rw [View.read_apply]
  refine congrArg (V c (Pipeline.arrRef spec3 2) : S50000x1.Idx → EReal) ?_
  funext a; apply Fin.ext
  match a with
  | ⟨0, _⟩ => show win3_2.index t (0 : Fin 2) * 2000 + 1 * p.val = 2000 * t.val + p.val; rw [e0]; omega
  | ⟨1, _⟩ => show win3_2.index t (1 : Fin 2) * 1 + 1 * (0 : Fin 1).val = (0 : Fin 1).val; rw [e1]; omega

/-- The first weight matrix's block is the whole matrix at every point. -/
theorem iblk3_3_eq (c : Dev nD) (t : Fin cfg3.N) :
    (Hand.iblk3 V c 3 t : S128x128.Idx → EReal) = V c (Pipeline.arrRef spec3 3) := by
  obtain ⟨-, -, -, -, -, -, -, e0, e1, -⟩ := index_facts3 t
  funext j
  unfold Hand.iblk3
  rw [View.read_apply]
  refine congrArg (V c (Pipeline.arrRef spec3 3) : S128x128.Idx → EReal) ?_
  funext a; apply Fin.ext
  match a with
  | ⟨0, _⟩ => show win3_3.index t (0 : Fin 2) * 128 + 1 * (j 0).val = (j 0).val; rw [e0]; omega
  | ⟨1, _⟩ => show win3_3.index t (1 : Fin 2) * 128 + 1 * (j 1).val = (j 1).val; rw [e1]; omega

/-- The bias row's block is the whole row at every point. -/
theorem iblk3_4_eq (c : Dev nD) (t : Fin cfg3.N) :
    (Hand.iblk3 V c 4 t : S1x128.Idx → EReal) = V c (Pipeline.arrRef spec3 4) := by
  obtain ⟨-, -, -, -, -, -, -, -, -, e0, e1, -⟩ := index_facts3 t
  funext j
  unfold Hand.iblk3
  rw [View.read_apply]
  refine congrArg (V c (Pipeline.arrRef spec3 4) : S1x128.Idx → EReal) ?_
  funext a; apply Fin.ext
  match a with
  | ⟨0, _⟩ => show win3_4.index t (0 : Fin 2) * 1 + 1 * (j 0).val = (j 0).val; rw [e0]; omega
  | ⟨1, _⟩ => show win3_4.index t (1 : Fin 2) * 128 + 1 * (j 1).val = (j 1).val; rw [e1]; omega

/-- The second weight matrix's block is the whole matrix at every point. -/
theorem iblk3_5_eq (c : Dev nD) (t : Fin cfg3.N) :
    (Hand.iblk3 V c 5 t : S128x128.Idx → EReal) = V c (Pipeline.arrRef spec3 5) := by
  obtain ⟨-, -, -, -, -, -, -, -, -, -, -, e0, e1, -⟩ := index_facts3 t
  funext j
  unfold Hand.iblk3
  rw [View.read_apply]
  refine congrArg (V c (Pipeline.arrRef spec3 5) : S128x128.Idx → EReal) ?_
  funext a; apply Fin.ext
  match a with
  | ⟨0, _⟩ => show win3_5.index t (0 : Fin 2) * 128 + 1 * (j 0).val = (j 0).val; rw [e0]; omega
  | ⟨1, _⟩ => show win3_5.index t (1 : Fin 2) * 128 + 1 * (j 1).val = (j 1).val; rw [e1]; omega

/-- What point t writes back is block t of the layer of the whole arrays: the body's one store covers its block,
    the stored value is the layer of the six input blocks, and row p of that is row 2000 t + p of the layer of the
    arrays because the layer is row-local and the weights and the bias are the whole arrays at every point. -/
theorem flushed3_eq (c : Dev nD) (t : Fin cfg3.N) :
    (Hand.dat3 (F := Ideal) V c).flushed 6 t = ((cfg3.win 6).blk t).view.read (Elt Ideal) (layer3 V c) := by
  show (cfg3.win 6).cut (grid3.coords t) ((Hand.dat3 V c).after 6 t) = _
  rw [Hand.after3_6]
  unfold Hand.out3_6
  rw [View.canon_unit_zero zero_offsets3]
  simp only [View.ld_unit_zero (S := S2000x128) zero_offsets3, View.ld_unit_zero (S := S2000x1) zero_offsets3,
    View.ld_unit_zero (S := S128x128) zero_offsets3, View.ld_unit_zero (S := S1x128) zero_offsets3]
  rw [pay3_eq, iblk3_3_eq, iblk3_4_eq, iblk3_5_eq]
  obtain ⟨-, -, -, -, -, -, -, -, -, -, -, -, -, e0, e1⟩ := index_facts3 t
  funext j
  obtain ⟨p, k, rfl⟩ : ∃ (p : Fin 2000) (k : Fin 128), j = ix2 p k := ⟨j 0, j 1, eq_ix2 j⟩
  rw [View.read_apply]
  have hemb : (((cfg3.win 6).blk t).view.emb (ix2 p k) : S50000x128.Idx) = ix2 (rowAt3 t p) k := by
    funext a; apply Fin.ext
    match a with
    | ⟨0, _⟩ => show win3_6.index t (0 : Fin 2) * 2000 + 1 * p.val = 2000 * t.val + p.val; rw [e0]; omega
    | ⟨1, _⟩ => show win3_6.index t (1 : Fin 2) * 128 + 1 * k.val = k.val; rw [e1]; omega
  refine Eq.trans ?_ (congrArg (layer3 V c) hemb).symm
  exact Cert.Sage.sageArr_rows _ _ _ _ _ _ _ _ _ p (rowAt3 t p) (fun k' => iblk3_0_apply V c t p k')
    (fun k' => iblk3_1_apply V c t p k') (iblk3_2_apply V c t p) k

/-- An index of the result array is in point t's block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole (Pipeline.arrRef spec3 6)).slice (win3_6.rect t)).set ↔ _
  rw [View.set_slice_whole, Rect.mem_set_unit]
  exact Iff.rfl

/-- Every index of the result array is in some point's block: row r is in the block of point r / 2000. -/
theorem cover3 (i : S50000x128.Idx) :
    ∃ t : Fin cfg3.N, (cfg3.win 6).flush t = true ∧ i ∈ ((cfg3.win 6).blk t).view.set := by
  have h0 : (i 0).val < 50000 := (i 0).isLt
  have h1 : (i 1).val < 128 := (i 1).isLt
  have hN : cfg3.N = 25 := N_3
  have ht : (i 0).val / 2000 < cfg3.N := by rw [hN]; omega
  obtain ⟨-, -, -, -, -, -, -, -, -, -, -, -, -, e0, e1⟩ := index_facts3 ⟨(i 0).val / 2000, ht⟩
  refine ⟨⟨(i 0).val / 2000, ht⟩, flush3_6 _, ?_⟩
  rw [mem_blk3]
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val
      ∧ (i 1).val < win3_6.index ⟨(i 0).val / 2000, ht⟩ (1 : Fin 2) * 128 + 128
    rw [e1]; omega

/-- The result array after the region is the layer of the six operand arrays as the region finds them. -/
theorem arr3 (c : Dev nD) : (Hand.dat3 (F := Ideal) V c).arrAt 6 cfg3.N = layer3 V c :=
  (Hand.dat3 V c).arrAt_eq_of_cover 6 (layer3 V c) (fun t _ => flushed3_eq V c t) cover3

end Cert.KernelIdeal.SageValue

end
-- ==== Proof.KI.MlpArr.lean ====
import proofs.«121412_j16045997818029_2_alg».proof.Proof.KI.Mlp
import Idealize.ShloMosaic.Lib.Pipeline.Value

/-!
# The classifier region's output array

The region's grid has one point, and every window's block at that point is its whole array.  So the block the body is
handed for an input is the input array as the region finds it, what the body leaves in the output block is the stored
value computed from the six arrays themselves, and the write-back of that one block overwrites the whole output
array: after the region the output array holds the stored value as one function of the six input arrays.
-/

noncomputable section

namespace Cert.MlpArr

open Cert.KernelIdeal Cert.KernelIdeal.Gen Cert.KernelIdeal.Hand
open Idealize.ShloMosaic Idealize.ShloMosaic.TcCoe Idealize.SL.Sem
open Idealize.ShloMosaic.Pipeline (Dat Cfg Window)

variable {F : FTy → Type} [FloatOps F]

-- the contents of the core's buffers when the region is entered
variable (V : (c : Dev nD) → (b : Ref sig .tc) → Buf (Elt F) ((c : Thread nD τ).loc b))

/-- The origin of a rank-2 shape. -/
theorem origin2 : (![0, 0] : Fin 2 → Nat) = fun _ => 0 := funext fun a => by fin_cases a <;> rfl

/-- At the grid's one point every window's block index is \`(0, 0)\`. -/
theorem index_zero : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- Window 0's block is the whole 128 × 512 array. -/
theorem iblk4_0 (c : Dev nD) (t : Fin cfg4.N) : iblk4 V c 0 t = V c (Pipeline.arrRef spec4 0) := by
  funext j
  show V c (Pipeline.arrRef spec4 0) (((cfg4.win 0).blk t).view.emb j) = V c (Pipeline.arrRef spec4 0) j
  refine congrArg _ (funext fun a => Fin.ext ?_)
  obtain ⟨⟨e0, e1⟩, -⟩ := index_zero t
  match a with
  | ⟨0, _⟩ => show win4_0.index t (0 : Fin 2) * 128 + 1 * (j 0).val = (j 0).val; omega
  | ⟨1, _⟩ => show win4_0.index t (1 : Fin 2) * 512 + 1 * (j 1).val = (j 1).val; omega

/-- Window 1's block is the whole 128 × 1 column. -/
theorem iblk4_1 (c : Dev nD) (t : Fin cfg4.N) : iblk4 V c 1 t = V c (Pipeline.arrRef spec4 1) := by
  funext j
  show V c (Pipeline.arrRef spec4 1) (((cfg4.win 1).blk t).view.emb j) = V c (Pipeline.arrRef spec4 1) j
  refine congrArg _ (funext fun a => Fin.ext ?_)
  obtain ⟨-, ⟨e0, e1⟩, -⟩ := index_zero t
  match a with
  | ⟨0, _⟩ => show win4_1.index t (0 : Fin 2) * 128 + 1 * (j 0).val = (j 0).val; omega
  | ⟨1, _⟩ => show win4_1.index t (1 : Fin 2) * 1 + 1 * (j 1).val = (j 1).val; omega

/-- Window 2's block is the whole 512 × 128 array. -/
theorem iblk4_2 (c : Dev nD) (t : Fin cfg4.N) : iblk4 V c 2 t = V c (Pipeline.arrRef spec4 2) := by
  funext j
  show V c (Pipeline.arrRef spec4 2) (((cfg4.win 2).blk t).view.emb j) = V c (Pipeline.arrRef spec4 2) j
  refine congrArg _ (funext fun a => Fin.ext ?_)
  obtain ⟨-, -, ⟨e0, e1⟩, -⟩ := index_zero t
  match a with
  | ⟨0, _⟩ => show win4_2.index t (0 : Fin 2) * 512 + 1 * (j 0).val = (j 0).val; omega
  | ⟨1, _⟩ => show win4_2.index t (1 : Fin 2) * 128 + 1 * (j 1).val = (j 1).val; omega

/-- Window 3's block is the whole 1 × 128 row. -/
theorem iblk4_3 (c : Dev nD) (t : Fin cfg4.N) : iblk4 V c 3 t = V c (Pipeline.arrRef spec4 3) := by
  funext j
  show V c (Pipeline.arrRef spec4 3) (((cfg4.win 3).blk t).view.emb j) = V c (Pipeline.arrRef spec4 3) j
  refine congrArg _ (funext fun a => Fin.ext ?_)
  obtain ⟨-, -, -, ⟨e0, e1⟩, -⟩ := index_zero t
  match a with
  | ⟨0, _⟩ => show win4_3.index t (0 : Fin 2) * 1 + 1 * (j 0).val = (j 0).val; omega
  | ⟨1, _⟩ => show win4_3.index t (1 : Fin 2) * 128 + 1 * (j 1).val = (j 1).val; omega

/-- Window 4's block is the whole 128 × 10 array. -/
theorem iblk4_4 (c : Dev nD) (t : Fin cfg4.N) : iblk4 V c 4 t = V c (Pipeline.arrRef spec4 4) := by
  funext j
  show V c (Pipeline.arrRef spec4 4) (((cfg4.win 4).blk t).view.emb j) = V c (Pipeline.arrRef spec4 4) j
  refine congrArg _ (funext fun a => Fin.ext ?_)
  obtain ⟨-, -, -, -, ⟨e0, e1⟩, -⟩ := index_zero t
  match a with
  | ⟨0, _⟩ => show win4_4.index t (0 : Fin 2) * 128 + 1 * (j 0).val = (j 0).val; omega
  | ⟨1, _⟩ => show win4_4.index t (1 : Fin 2) * 10 + 1 * (j 1).val = (j 1).val; omega

/-- Window 5's block is the whole 1 × 10 row. -/
theorem iblk4_5 (c : Dev nD) (t : Fin cfg4.N) : iblk4 V c 5 t = V c (Pipeline.arrRef spec4 5) := by
  funext j
  show V c (Pipeline.arrRef spec4 5) (((cfg4.win 5).blk t).view.emb j) = V c (Pipeline.arrRef spec4 5) j
  refine congrArg _ (funext fun a => Fin.ext ?_)
  obtain ⟨-, -, -, -, -, ⟨e0, e1⟩, -⟩ := index_zero t
  match a with
  | ⟨0, _⟩ => show win4_5.index t (0 : Fin 2) * 1 + 1 * (j 0).val = (j 0).val; omega
  | ⟨1, _⟩ => show win4_5.index t (1 : Fin 2) * 10 + 1 * (j 1).val = (j 1).val; omega

/-- What the one point writes back is the stored value of the six arrays, read through the point's block (the whole
    output array). -/
theorem flushed4_6 (c : Dev nD) (t : Fin cfg4.N) :
    (dat4 V c).flushed 6 t = ((cfg4.win 6).blk t).view.read (Elt F)
      (k4_pay1 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V c).after 6 t) = _
  rw [after4_6, iblk4_0, iblk4_1, iblk4_2, iblk4_3, iblk4_4, iblk4_5]
  unfold out4_6
  rw [View.canon_unit_zero origin2]
  simp only [View.ld_unit_zero (S := S128x512) origin2, View.ld_unit_zero (S := S128x1) origin2,
    View.ld_unit_zero (S := S512x128) origin2, View.ld_unit_zero (S := S1x128) origin2,
    View.ld_unit_zero (S := S128x10) origin2, View.ld_unit_zero (S := S1x10) origin2]
  funext j
  show k4_pay1 (V c (Pipeline.arrRef spec4 0)) (V c (Pipeline.arrRef spec4 1)) (V c (Pipeline.arrRef spec4 2))
      (V c (Pipeline.arrRef spec4 3)) (V c (Pipeline.arrRef spec4 4)) (V c (Pipeline.arrRef spec4 5)) j
    = k4_pay1 (V c (Pipeline.arrRef spec4 0)) (V c (Pipeline.arrRef spec4 1)) (V c (Pipeline.arrRef spec4 2))
      (V c (Pipeline.arrRef spec4 3)) (V c (Pipeline.arrRef spec4 4)) (V c (Pipeline.arrRef spec4 5))
      (((cfg4.win 6).blk t).view.emb j)
  refine congrArg _ (funext fun a => Fin.ext ?_)
  obtain ⟨-, -, -, -, -, -, e0, e1⟩ := index_zero t
  match a with
  | ⟨0, _⟩ => show (j 0).val = win4_6.index t (0 : Fin 2) * 128 + 1 * (j 0).val; omega
  | ⟨1, _⟩ => show (j 1).val = win4_6.index t (1 : Fin 2) * 10 + 1 * (j 1).val; omega

/-- An index of the output array is in the point's block iff each coordinate is in the block's range on its axis. -/
theorem mem_blk4_6 (t : Fin cfg4.N) (i : S128x10.Idx) :
    i ∈ ((cfg4.win 6).blk t).view.set ↔ ∀ a : Fin 2, win4_6.index t a * S128x10.size a ≤ (i a).val
      ∧ (i a).val < win4_6.index t a * S128x10.size a + S128x10.size a := by
  show i ∈ ((View.whole main_v116).slice (win4_6.rect t)).set ↔ _
  rw [View.set_slice_whole, Rect.mem_set_unit]
  exact Iff.rfl

/-- THE OUTPUT ARRAY after the region: the stored value as one function of the six input arrays as the region finds
    them. -/
theorem arr4 (c : Dev nD) :
    (dat4 V c).arrAt 6 cfg4.N
      = k4_pay1 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 V c).arrAt_eq_of_cover 6 _ (fun t _ => flushed4_6 V c t) (fun i => ⟨t4_0, flush4_6 t4_0, by
    rw [mem_blk4_6]
    obtain ⟨-, -, -, -, -, -, e0, e1⟩ := index_zero t4_0
    intro a
    match a with
    | ⟨0, _⟩ =>
      show win4_6.index t4_0 (0 : Fin 2) * 128 ≤ (i 0).val ∧ (i 0).val < win4_6.index t4_0 (0 : Fin 2) * 128 + 128
      have h0 : (i 0).val < 128 := (i 0).isLt
      omega
    | ⟨1, _⟩ =>
      show win4_6.index t4_0 (1 : Fin 2) * 10 ≤ (i 1).val ∧ (i 1).val < win4_6.index t4_0 (1 : Fin 2) * 10 + 10
      have h1 : (i 1).val < 10 := (i 1).isLt
      omega⟩)

end Cert.MlpArr

end
-- ==== Proof.KernelChain.lean ====
/-
  THE KERNEL PROGRAM'S VALUE, as one function of its ten argument arrays, over the extended reals.

  Four layers: layer `l + 1`'s node features are the dense layer of SageSpec applied to the neighbour sum of layer `l`'s
  features, those features themselves, the inverse degrees and layer `l`'s weights; the first layer reads the input
  features.  Then every layer's features are summed per graph, the four sums joined along the columns, and the classifier
  (the last kernel's stored value) applied to the joined sums, the per-graph node counts and the classifier's weights.
-/
import proofs.«121412_j16045997818029_2_alg».proof.Proof.KernelTerms
import proofs.«121412_j16045997818029_2_alg».proof.Proof.SageSpec

noncomputable section

namespace Cert.KernelIdeal.Terms

open Cert.KernelIdeal Cert.KernelIdeal.Gen Idealize.ShloMosaic

/-- One layer on whole arrays, at the program's array types: the node features after the layer from the features `h`
    before it. -/
def step (x1 : (⟨S2x800000, .i32⟩ : BufTy).Contents (Elt Ideal)) (h : (⟨S50000x128, .bf16⟩ : BufTy).Contents (Elt Ideal))
    (wl : (⟨S128x128, .f32⟩ : BufTy).Contents (Elt Ideal)) (bl : (⟨S1x128, .f32⟩ : BufTy).Contents (Elt Ideal))
    (wr : (⟨S128x128, .f32⟩ : BufTy).Contents (Elt Ideal)) : (⟨S50000x128, .bf16⟩ : BufTy).Contents (Elt Ideal) :=
  Cert.Sage.sageArr (R := 50000) (agg x1 h) h (inv x1) wl bl wr

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal))
  (x6 : (⟨S512x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal))

/-- The node features after the first layer. -/
def hK1 : (⟨S50000x128, .bf16⟩ : BufTy).Contents (Elt Ideal) := step x1 (h0 x0) (wl0 x3) (bl0 x4) (wr0 x5)
/-- … after the second. -/
def hK2 : (⟨S50000x128, .bf16⟩ : BufTy).Contents (Elt Ideal) := step x1 (hK1 x0 x1 x3 x4 x5) (wl1 x3) (bl1 x4) (wr1 x5)
/-- … after the third. -/
def hK3 : (⟨S50000x128, .bf16⟩ : BufTy).Contents (Elt Ideal) := step x1 (hK2 x0 x1 x3 x4 x5) (wl2 x3) (bl2 x4) (wr2 x5)
/-- … after the fourth. -/
def hK4 : (⟨S50000x128, .bf16⟩ : BufTy).Contents (Elt Ideal) := step x1 (hK3 x0 x1 x3 x4 x5) (wl3 x3) (bl3 x4) (wr3 x5)

/-- The per-graph sums of the four layers' features, joined along the columns. -/
def pooledK : (⟨S128x512, .f32⟩ : BufTy).Contents (Elt Ideal) :=
  pooled (pool x2 (hK1 x0 x1 x3 x4 x5)) (pool x2 (hK2 x0 x1 x3 x4 x5)) (pool x2 (hK3 x0 x1 x3 x4 x5)) (pool x2 (hK4 x0 x1 x3 x4 x5))

/-- The program's result: the classifier on the joined sums. -/
def outK : (⟨S128x10, .f32⟩ : BufTy).Contents (Elt Ideal) :=
  k4_pay1 (F := Ideal) (pooledK x0 x1 x2 x3 x4 x5) (cnt x2) x6 (b1row x7) x8 (b2row x9)

end Cert.KernelIdeal.Terms

end
-- ==== Proof.KI.KernelValue.lean ====
/-
  THE KERNEL PROGRAM'S RESULT IS `outK` OF ITS ARGUMENTS, at the exact reals.

  Boundary by boundary through @main: each layer's region leaves the dense layer of SageSpec applied to the six arrays
  it is entered with (blocks of 2000 rows written back one after the other make up the whole array), and each stretch
  of host operations before a region puts there the neighbour sum of the previous layer's features, those features, the
  inverse degrees and the layer's weights; so the four result buffers hold `hK1 … hK4`.  The last stretch joins the four
  per-graph sums and counts the nodes, and the last region, one block, stores the classifier's value of them: `outK`.
-/
import proofs.«121412_j16045997818029_2_alg».proof.Proof.KI.Glue
import proofs.«121412_j16045997818029_2_alg».proof.Proof.KI.SageArr0
import proofs.«121412_j16045997818029_2_alg».proof.Proof.KI.SageArr1
import proofs.«121412_j16045997818029_2_alg».proof.Proof.KI.SageArr2
import proofs.«121412_j16045997818029_2_alg».proof.Proof.KI.SageArr3
import proofs.«121412_j16045997818029_2_alg».proof.Proof.KI.MlpArr
import proofs.«121412_j16045997818029_2_alg».proof.Proof.KernelChain

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- After layer 1's region its result buffer holds the features `hK1` of the arguments: the region leaves the dense
    layer of its six operands as it finds them, and the stretch before it has put there the neighbour sum of the
    previous features, those features, the inverse degrees and the layer's weights. -/
theorem after1 : W2 m ρ c (Proc.devRef .tc main_v32) = Terms.hK1 (m (c, Proc.devRef .tc main_arg0)) (m (c, Proc.devRef .tc main_arg1)) (m (c, Proc.devRef .tc main_arg3)) (m (c, Proc.devRef .tc main_arg4)) (m (c, Proc.devRef .tc main_arg5)) := by
  refine (W2_arr (F := Ideal) m ρ c 6).trans ?_
  rw [SageValue.arr0]
  show Cert.Sage.sageArr (R := 50000) (W1 m ρ c (Proc.devRef .tc main_v24)) (W1 m ρ c (Proc.devRef .tc main_v13))
      (W1 m ρ c (Proc.devRef .tc main_v12)) (W1 m ρ c (Proc.devRef .tc main_v26)) (W1 m ρ c (Proc.devRef .tc main_v31))
      (W1 m ρ c (Proc.devRef .tc main_v30)) = _
  rw [entry0_agg, entry0_h, entry0_inv, entry0_wl, entry0_bl, entry0_wr]
  rfl

/-- After layer 2's region its result buffer holds the features `hK2` of the arguments: the region leaves the dense
    layer of its six operands as it finds them, and the stretch before it has put there the neighbour sum of the
    previous features, those features, the inverse degrees and the layer's weights. -/
theorem after2 : W4 m ρ c (Proc.devRef .tc main_v55) = Terms.hK2 (m (c, Proc.devRef .tc main_arg0)) (m (c, Proc.devRef .tc main_arg1)) (m (c, Proc.devRef .tc main_arg3)) (m (c, Proc.devRef .tc main_arg4)) (m (c, Proc.devRef .tc main_arg5)) := by
  refine (W4_arr (F := Ideal) m ρ c 6).trans ?_
  rw [SageValue.arr1]
  show Cert.Sage.sageArr (R := 50000) (W3 m ρ c (Proc.devRef .tc main_v47)) (W3 m ρ c (Proc.devRef .tc main_v32))
      (W3 m ρ c (Proc.devRef .tc main_v12)) (W3 m ρ c (Proc.devRef .tc main_v49)) (W3 m ρ c (Proc.devRef .tc main_v54))
      (W3 m ρ c (Proc.devRef .tc main_v53)) = _
  rw [entry1_agg, entry1_h, entry1_inv, entry1_wl, entry1_bl, entry1_wr, after1]
  rfl

/-- After layer 3's region its result buffer holds the features `hK3` of the arguments: the region leaves the dense
    layer of its six operands as it finds them, and the stretch before it has put there the neighbour sum of the
    previous features, those features, the inverse degrees and the layer's weights. -/
theorem after3 : W6 m ρ c (Proc.devRef .tc main_v78) = Terms.hK3 (m (c, Proc.devRef .tc main_arg0)) (m (c, Proc.devRef .tc main_arg1)) (m (c, Proc.devRef .tc main_arg3)) (m (c, Proc.devRef .tc main_arg4)) (m (c, Proc.devRef .tc main_arg5)) := by
  refine (W6_arr (F := Ideal) m ρ c 6).trans ?_
  rw [SageValue.arr2]
  show Cert.Sage.sageArr (R := 50000) (W5 m ρ c (Proc.devRef .tc main_v70)) (W5 m ρ c (Proc.devRef .tc main_v55))
      (W5 m ρ c (Proc.devRef .tc main_v12)) (W5 m ρ c (Proc.devRef .tc main_v72)) (W5 m ρ c (Proc.devRef .tc main_v77))
      (W5 m ρ c (Proc.devRef .tc main_v76)) = _
  rw [entry2_agg, entry2_h, entry2_inv, entry2_wl, entry2_bl, entry2_wr, after2]
  rfl

/-- After layer 4's region its result buffer holds the features `hK4` of the arguments: the region leaves the dense
    layer of its six operands as it finds them, and the stretch before it has put there the neighbour sum of the
    previous features, those features, the inverse degrees and the layer's weights. -/
theorem after4 : W8 m ρ c (Proc.devRef .tc main_v101) = Terms.hK4 (m (c, Proc.devRef .tc main_arg0)) (m (c, Proc.devRef .tc main_arg1)) (m (c, Proc.devRef .tc main_arg3)) (m (c, Proc.devRef .tc main_arg4)) (m (c, Proc.devRef .tc main_arg5)) := by
  refine (W8_arr (F := Ideal) m ρ c 6).trans ?_
  rw [SageValue.arr3]
  show Cert.Sage.sageArr (R := 50000) (W7 m ρ c (Proc.devRef .tc main_v93)) (W7 m ρ c (Proc.devRef .tc main_v78))
      (W7 m ρ c (Proc.devRef .tc main_v12)) (W7 m ρ c (Proc.devRef .tc main_v95)) (W7 m ρ c (Proc.devRef .tc main_v100))
      (W7 m ρ c (Proc.devRef .tc main_v99)) = _
  rw [entry3_agg, entry3_h, entry3_inv, entry3_wl, entry3_bl, entry3_wr, after3]
  rfl

/-- The result array after the last region: the classifier's value of the joined per-graph sums, the node counts and
    the classifier's weights, i.e. `outK` of the ten arguments as launched. -/
theorem kernel_value :
    (dat4 (F := Ideal) (V9 m ρ) c).arrAt 6 cfg4.N
      = Terms.outK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [Cert.MlpArr.arr4]
  show k4_pay1 (F := Ideal) (W9 m ρ c (Proc.devRef .tc main_v106)) (W9 m ρ c (Proc.devRef .tc main_v113))
      (W9 m ρ c (Proc.devRef .tc main_arg6)) (W9 m ρ c (Proc.devRef .tc main_v114)) (W9 m ρ c (Proc.devRef .tc main_arg8))
      (W9 m ρ c (Proc.devRef .tc main_v115))
    = Terms.outK (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9))
  rw [entry4_pooled, entry4_cnt, entry4_w1, entry4_b1, entry4_w2, entry4_b2, after1, after2, after3, after4]
  rfl

end Cert.KernelIdeal.Hand

end
-- ==== Proof.RefLayer.lean ====
/-
  ONE GRAPH-CONVOLUTION LAYER AS A HOST PROGRAM SPELLS IT, at the ideal values.

  For every node (row) `p` the layer combines the summed neighbour features `agg p`, scaled by the node's inverse degree
  `inv p`, through a weight matrix `wl`, with the node's own features `h p` through a second weight matrix `wr`, adds a
  bias and rectifies.  The host spells it with whole-array operations: the inverse-degree column broadcast across the 128
  feature columns and multiplied in, two `dot_general`s, the bias VECTOR broadcast first to one row and then over all the
  rows, and a maximum with a broadcast zero.  It associates the three summands as `((Σ₁ + b) + Σ₂)`; the row-wise
  definition `Cert.Sage.sageRow` associates them as `((Σ₁ + Σ₂) + b)`.  Addition of extended reals is commutative and
  associative (with no finiteness condition), so the two agree: `refLayer_eq`.  The bias enters the row-wise definition as
  a one-row array; here it is the cast of the vector to one row.
-/
import proofs.«121412_j16045997818029_2_alg».proof.ReferenceIdeal
import proofs.«121412_j16045997818029_2_alg».proof.Proof.SageSpec
import proofs.«121412_j16045997818029_2_alg».proof.Proof.LibBlockDot
import proofs.«121412_j16045997818029_2_alg».proof.Proof.LibColumn
import Idealize.ShloMosaic.Lib.IdealHost

noncomputable section

open scoped BigOperators

namespace Cert.ReferenceIdeal.Layer

open Idealize.ShloMosaic Idealize.ShloMosaic.ValueIdx Cert.ReferenceIdeal Cert.ReferenceIdeal.Facts₀

variable [Facts₀]

/-- The layer as the host computes it from whole arrays: `max (((agg ⊙ inv) · wl + b) + h · wr) 0`. -/
def refLayer (agg h : FVec Ideal S50000x128 .f32) (inv : FVec Ideal S50000x1 .f32) (wl : FVec Ideal S128x128 .f32)
    (blv : FVec Ideal S128 .f32) (wr : FVec Ideal S128x128 .f32) : FVec Ideal S50000x128 .f32 :=
  maximumf
    (addf
      (addf
        (Host.dotGeneral (F := Ideal) dot_S50000x128_S128x128_S50000x128_1_0_0_1_n_n none
          (mulf agg (broadcastInDim S50000x128 ![0, 1] bcast_S50000x1_S50000x128_0_1 inv)) wl)
        (broadcastInDim S50000x128 ![0, 1] bcast_S1x128_S50000x128_0_1
          (broadcastInDim S1x128 ![1] bcast_S128_S1x128_1 blv)))
      (Host.dotGeneral (F := Ideal) dot_S50000x128_S128x128_S50000x128_1_0_0_1_n_n none h wr))
    (broadcastInDim S50000x128 ![] bcast_S_S50000x128 (constant (F := Ideal) S_ .f32 0x00000000#32))

/-- The inverse-degree column broadcast across the feature columns reads, at `(p, k)`, the column's entry of row `p`. -/
theorem inv_bcast_apply (inv : FVec Ideal S50000x1 .f32) (p : Fin 50000) (k : Fin 128) :
    broadcastInDim S50000x128 ![0, 1] bcast_S50000x1_S50000x128_0_1 inv (ix2 p k) = inv (ix2 p (0 : Fin 1)) :=
  broadcastInDim_apply _ bcast_S50000x1_S50000x128_0_1 inv (ix2 p k) (ix2 p (0 : Fin 1)) fun ax => by
    match ax with
    | ⟨0, _⟩ =>
      show p.val = if (50000 : ℕ) = 1 then 0 else p.val
      rw [if_neg (by decide)]
    | ⟨1, _⟩ =>
      show 0 = if (1 : ℕ) = 1 then 0 else k.val
      rw [if_pos rfl]

/-- The bias vector broadcast to one row and then over the rows reads, at `(p, c)`, the vector's entry `c`. -/
theorem bias_bcast_apply (blv : FVec Ideal S128 .f32) (p : Fin 50000) (c : Fin 128) :
    broadcastInDim S50000x128 ![0, 1] bcast_S1x128_S50000x128_0_1 (broadcastInDim S1x128 ![1] bcast_S128_S1x128_1 blv)
        (ix2 p c) = blv (ix1 c) := by
  have e2 : broadcastInDim S50000x128 ![0, 1] bcast_S1x128_S50000x128_0_1
        (broadcastInDim S1x128 ![1] bcast_S128_S1x128_1 blv) (ix2 p c)
      = broadcastInDim S1x128 ![1] bcast_S128_S1x128_1 blv (ix2 (0 : Fin 1) c) :=
    broadcastInDim_apply _ bcast_S1x128_S50000x128_0_1 _ (ix2 p c) (ix2 (0 : Fin 1) c) fun ax => by
      match ax with
      | ⟨0, _⟩ => show 0 = if (1 : ℕ) = 1 then 0 else p.val; rw [if_pos rfl]
      | ⟨1, _⟩ => show c.val = if (128 : ℕ) = 1 then 0 else c.val; rw [if_neg (by decide)]
  have e1 : broadcastInDim S1x128 ![1] bcast_S128_S1x128_1 blv (ix2 (0 : Fin 1) c) = blv (ix1 c) :=
    broadcastInDim_apply _ bcast_S128_S1x128_1 blv (ix2 (0 : Fin 1) c) (ix1 c) fun ax => by
      match ax with
      | ⟨0, _⟩ => show c.val = if (128 : ℕ) = 1 then 0 else c.val; rw [if_neg (by decide)]
  rw [e2, e1]

/-- The broadcast zero literal reads the extended real zero everywhere. -/
theorem zero_bcast_apply (i : S50000x128.Idx) :
    broadcastInDim S50000x128 ![] bcast_S_S50000x128 (constant (F := Ideal) S_ .f32 0x00000000#32) i = (0 : EReal) := by
  rw [broadcastInDim_scalar_apply, constant_apply, Ideal.ofBits_zero_f32]

/-- The host's layer is the row-wise layer `Cert.Sage.sageArr` on all 50000 rows, with the bias vector cast to one row. -/
theorem refLayer_eq (hc : S128.ShapeCasts S1x128) (agg h : FVec Ideal S50000x128 .f32) (inv : FVec Ideal S50000x1 .f32)
    (wl : FVec Ideal S128x128 .f32) (blv : FVec Ideal S128 .f32) (wr : FVec Ideal S128x128 .f32) :
    refLayer agg h inv wl blv wr
      = Cert.Sage.sageArr (R := 50000) agg h inv wl (shapeCast S1x128 blv hc) wr := by
  funext i
  obtain ⟨p, c, rfl⟩ : ∃ (p : Fin 50000) (c : Fin 128), i = ix2 p c := ⟨i 0, i 1, eq_ix2 i⟩
  rw [Cert.Sage.sageArr_apply]
  have hd1 : Host.dotGeneral (F := Ideal) dot_S50000x128_S128x128_S50000x128_1_0_0_1_n_n none
        (mulf agg (broadcastInDim S50000x128 ![0, 1] bcast_S50000x1_S50000x128_0_1 inv)) wl (ix2 p c)
      = ∑ k : Fin 128, (agg (ix2 p k) * inv (ix2 p (0 : Fin 1))) * wl (ix2 k c) := by
    show Host.dotGeneral (F := Ideal) (DotDims.plain 50000 128 128) none
        (mulf agg (broadcastInDim S50000x128 ![0, 1] bcast_S50000x1_S50000x128_0_1 inv)) wl (ix2 p c) = _
    rw [Cert.BlockDot.hdot_apply]
    exact Finset.sum_congr rfl fun k _ => by rw [mulf_apply, inv_bcast_apply]
  have hd2 : Host.dotGeneral (F := Ideal) dot_S50000x128_S128x128_S50000x128_1_0_0_1_n_n none h wr (ix2 p c)
      = ∑ k : Fin 128, h (ix2 p k) * wr (ix2 k c) := by
    show Host.dotGeneral (F := Ideal) (DotDims.plain 50000 128 128) none h wr (ix2 p c) = _
    rw [Cert.BlockDot.hdot_apply]
  have hb : shapeCast S1x128 blv hc (ix2 (0 : Fin 1) c) = blv (ix1 c) := shapeCast_a_1a_apply blv hc 0 c
  unfold refLayer Cert.Sage.sageRow
  rw [maximumf_apply, addf_apply, addf_apply, hd1, hd2, bias_bcast_apply, zero_bcast_apply]
  show max (((∑ k : Fin 128, (agg (ix2 p k) * inv (ix2 p (0 : Fin 1))) * wl (ix2 k c)) + blv (ix1 c))
      + ∑ k : Fin 128, h (ix2 p k) * wr (ix2 k c)) 0
    = max (((∑ k : Fin 128, (agg (ix2 p k) * inv (ix2 p (0 : Fin 1))) * wl (ix2 k c))
      + ∑ k : Fin 128, h (ix2 p k) * wr (ix2 k c)) + shapeCast S1x128 blv hc (ix2 (0 : Fin 1) c)) 0
  rw [hb, add_right_comm]

end Cert.ReferenceIdeal.Layer

end
-- ==== Proof.RefChain.lean ====
/-
  THE REFERENCE'S FOUR LAYERS, each as the host layer applied to the previous layer's output.

  The reference program computes a graph-convolution layer four times.  Each time it gathers every edge's source row of
  the current node features, adds it into the edge's destination row (`aggR`), scales by the inverse in-degree column,
  and applies the dense stage of `Layer.refLayer` with that layer's slice of the stacked weights.  The program
  re-derives the two index columns and the zero array in every layer under fresh names; they are the same terms as in
  layer 0, so one neighbour-sum function serves all four layers.  Finally the four outputs are joined along the columns
  and summed per graph (`pooledR`).  Every statement here is an unfolding of the generated stage functions: no
  arithmetic is involved.
-/
import proofs.«121412_j16045997818029_2_alg».proof.Proof.Gen.ReferenceIdeal.Read
import proofs.«121412_j16045997818029_2_alg».proof.Proof.RefLayer

noncomputable section

namespace Cert.ReferenceIdeal.Chain

open Cert.ReferenceIdeal Cert.ReferenceIdeal.Gen Cert.ReferenceIdeal.Read Idealize.ShloMosaic

/-- The neighbour sum of node features `h`: every edge's source row of `h` added into the edge's destination row. -/
def aggR (x1 : (⟨S2x800000, .i32⟩ : BufTy).Contents (Elt Ideal)) (h : FVec Ideal S50000x128 .f32) :
    FVec Ideal S50000x128 .f32 :=
  Host.scatterAdd (F := Ideal) scatter_S50000x128_S800000x1_S800000x128_1_0_0_1 (val_main_v20 (F := Ideal))
    (val_main_v21 (F := Ideal) x1)
    (Host.gather gather_S50000x128_S800000x1_S800000x128_1_0_n_n_0_1_1128 h (val_main_v18 (F := Ideal) x1))

/-! ## Layer 0 -/

/-- Layer 0 of the reference is the host layer on the input features, with slice 0 of the stacked weights. -/
theorem layer0 (x0 : (⟨S50000x128, .f32⟩ : BufTy).Contents (Elt Ideal)) (x1 : (⟨S2x800000, .i32⟩ : BufTy).Contents (Elt Ideal))
    (x3 : (⟨S4x128x128, .f32⟩ : BufTy).Contents (Elt Ideal)) (x4 : (⟨S4x128, .f32⟩ : BufTy).Contents (Elt Ideal))
    (x5 : (⟨S4x128x128, .f32⟩ : BufTy).Contents (Elt Ideal)) :
    val_main_v37 (F := Ideal) x0 x1 x3 x4 x5
      = Layer.refLayer (aggR x1 x0) x0 (val_main_v12 (F := Ideal) x1) (val_main_v26 (F := Ideal) x3)
          (val_main_v29 (F := Ideal) x4) (val_main_v34 (F := Ideal) x5) := by
  unfold val_main_v37 val_main_v36 val_main_v32 val_main_v27 val_main_v24 val_main_v23 val_main_v22 val_main_v19
    val_main_v31 val_main_v30 val_main_v35 val_main_call0_v0 val_main_call0_cst
  unfold Layer.refLayer aggR
  rfl

/-! ## Layer 1 -/

/-- Layer 1 re-computes the column of gather indices under new names: it is layer 0's. -/
theorem srcIdx1 (x1 : (⟨S2x800000, .i32⟩ : BufTy).Contents (Elt Ideal)) :
    val_main_v43 (F := Ideal) x1 = val_main_v18 (F := Ideal) x1 := by
  unfold val_main_v43 val_main_v42 val_main_v39 val_main_v41 val_main_v38 val_main_v40 val_main_c_5 val_main_c_6
    val_main_v18 val_main_v17 val_main_v14 val_main_v16 val_main_v13 val_main_v15 val_main_c val_main_c_3
  rfl

/-- Layer 1's column of scatter indices is layer 0's. -/
theorem dstIdx1 (x1 : (⟨S2x800000, .i32⟩ : BufTy).Contents (Elt Ideal)) :
    val_main_v46 (F := Ideal) x1 = val_main_v21 (F := Ideal) x1 := by
  unfold val_main_v46 val_main_v21
  rfl

/-- Layer 1's zero array is layer 0's. -/
theorem zeros1 : val_main_v45 (F := Ideal) = val_main_v20 (F := Ideal) := by
  unfold val_main_v45 val_main_cst_7 val_main_v20 val_main_cst_4
  rfl

/-- Layer 1 of the reference is the host layer on layer 0's output, with slice 1 of the stacked weights. -/
theorem layer1 (x0 : (⟨S50000x128, .f32⟩ : BufTy).Contents (Elt Ideal)) (x1 : (⟨S2x800000, .i32⟩ : BufTy).Contents (Elt Ideal))
    (x3 : (⟨S4x128x128, .f32⟩ : BufTy).Contents (Elt Ideal)) (x4 : (⟨S4x128, .f32⟩ : BufTy).Contents (Elt Ideal))
    (x5 : (⟨S4x128x128, .f32⟩ : BufTy).Contents (Elt Ideal)) :
    val_main_v62 (F := Ideal) x0 x1 x3 x4 x5
      = Layer.refLayer (aggR x1 (val_main_v37 (F := Ideal) x0 x1 x3 x4 x5)) (val_main_v37 (F := Ideal) x0 x1 x3 x4 x5) (val_main_v12 (F := Ideal) x1)
          (val_main_v51 (F := Ideal) x3) (val_main_v54 (F := Ideal) x4) (val_main_v59 (F := Ideal) x5) := by
  unfold val_main_v62 val_main_v61 val_main_v57 val_main_v52 val_main_v49 val_main_v48 val_main_v47 val_main_v44
    val_main_v56 val_main_v55 val_main_v60 val_main_call1_v0 val_main_call1_cst
  rw [srcIdx1, dstIdx1, zeros1]
  unfold Layer.refLayer aggR
  rfl

/-! ## Layer 2 -/

/-- Layer 2 re-computes the column of gather indices under new names: it is layer 0's. -/
theorem srcIdx2 (x1 : (⟨S2x800000, .i32⟩ : BufTy).Contents (Elt Ideal)) :
    val_main_v68 (F := Ideal) x1 = val_main_v18 (F := Ideal) x1 := by
  unfold val_main_v68 val_main_v67 val_main_v64 val_main_v66 val_main_v63 val_main_v65 val_main_c_8 val_main_c_9
    val_main_v18 val_main_v17 val_main_v14 val_main_v16 val_main_v13 val_main_v15 val_main_c val_main_c_3
  rfl

/-- Layer 2's column of scatter indices is layer 0's. -/
theorem dstIdx2 (x1 : (⟨S2x800000, .i32⟩ : BufTy).Contents (Elt Ideal)) :
    val_main_v71 (F := Ideal) x1 = val_main_v21 (F := Ideal) x1 := by
  unfold val_main_v71 val_main_v21
  rfl

/-- Layer 2's zero array is layer 0's. -/
theorem zeros2 : val_main_v70 (F := Ideal) = val_main_v20 (F := Ideal) := by
  unfold val_main_v70 val_main_cst_10 val_main_v20 val_main_cst_4
  rfl

/-- Layer 2 of the reference is the host layer on layer 1's output, with slice 2 of the stacked weights. -/
theorem layer2 (x0 : (⟨S50000x128, .f32⟩ : BufTy).Contents (Elt Ideal)) (x1 : (⟨S2x800000, .i32⟩ : BufTy).Contents (Elt Ideal))
    (x3 : (⟨S4x128x128, .f32⟩ : BufTy).Contents (Elt Ideal)) (x4 : (⟨S4x128, .f32⟩ : BufTy).Contents (Elt Ideal))
    (x5 : (⟨S4x128x128, .f32⟩ : BufTy).Contents (Elt Ideal)) :
    val_main_v87 (F := Ideal) x0 x1 x3 x4 x5
      = Layer.refLayer (aggR x1 (val_main_v62 (F := Ideal) x0 x1 x3 x4 x5)) (val_main_v62 (F := Ideal) x0 x1 x3 x4 x5) (val_main_v12 (F := Ideal) x1)
          (val_main_v76 (F := Ideal) x3) (val_main_v79 (F := Ideal) x4) (val_main_v84 (F := Ideal) x5) := by
  unfold val_main_v87 val_main_v86 val_main_v82 val_main_v77 val_main_v74 val_main_v73 val_main_v72 val_main_v69
    val_main_v81 val_main_v80 val_main_v85 val_main_call2_v0 val_main_call2_cst
  rw [srcIdx2, dstIdx2, zeros2]
  unfold Layer.refLayer aggR
  rfl

/-! ## Layer 3 -/

/-- Layer 3 re-computes the column of gather indices under new names: it is layer 0's. -/
theorem srcIdx3 (x1 : (⟨S2x800000, .i32⟩ : BufTy).Contents (Elt Ideal)) :
    val_main_v93 (F := Ideal) x1 = val_main_v18 (F := Ideal) x1 := by
  unfold val_main_v93 val_main_v92 val_main_v89 val_main_v91 val_main_v88 val_main_v90 val_main_c_11 val_main_c_12
    val_main_v18 val_main_v17 val_main_v14 val_main_v16 val_main_v13 val_main_v15 val_main_c val_main_c_3
  rfl

/-- Layer 3's column of scatter indices is layer 0's. -/
theorem dstIdx3 (x1 : (⟨S2x800000, .i32⟩ : BufTy).Contents (Elt Ideal)) :
    val_main_v96 (F := Ideal) x1 = val_main_v21 (F := Ideal) x1 := by
  unfold val_main_v96 val_main_v21
  rfl

/-- Layer 3's zero array is layer 0's. -/
theorem zeros3 : val_main_v95 (F := Ideal) = val_main_v20 (F := Ideal) := by
  unfold val_main_v95 val_main_cst_13 val_main_v20 val_main_cst_4
  rfl

/-- Layer 3 of the reference is the host layer on layer 2's output, with slice 3 of the stacked weights. -/
theorem layer3 (x0 : (⟨S50000x128, .f32⟩ : BufTy).Contents (Elt Ideal)) (x1 : (⟨S2x800000, .i32⟩ : BufTy).Contents (Elt Ideal))
    (x3 : (⟨S4x128x128, .f32⟩ : BufTy).Contents (Elt Ideal)) (x4 : (⟨S4x128, .f32⟩ : BufTy).Contents (Elt Ideal))
    (x5 : (⟨S4x128x128, .f32⟩ : BufTy).Contents (Elt Ideal)) :
    val_main_v112 (F := Ideal) x0 x1 x3 x4 x5
      = Layer.refLayer (aggR x1 (val_main_v87 (F := Ideal) x0 x1 x3 x4 x5)) (val_main_v87 (F := Ideal) x0 x1 x3 x4 x5) (val_main_v12 (F := Ideal) x1)
          (val_main_v101 (F := Ideal) x3) (val_main_v104 (F := Ideal) x4) (val_main_v109 (F := Ideal) x5) := by
  unfold val_main_v112 val_main_v111 val_main_v107 val_main_v102 val_main_v99 val_main_v98 val_main_v97 val_main_v94
    val_main_v106 val_main_v105 val_main_v110 val_main_call3_v0 val_main_call3_cst
  rw [srcIdx3, dstIdx3, zeros3]
  unfold Layer.refLayer aggR
  rfl

/-! ## The pooled array -/

/-- The reference's pooled array: the four layer outputs joined along the columns, summed per graph into zeros. -/
theorem pooledR (x0 : (⟨S50000x128, .f32⟩ : BufTy).Contents (Elt Ideal)) (x1 : (⟨S2x800000, .i32⟩ : BufTy).Contents (Elt Ideal))
    (x2 : (⟨S50000, .i32⟩ : BufTy).Contents (Elt Ideal))
    (x3 : (⟨S4x128x128, .f32⟩ : BufTy).Contents (Elt Ideal)) (x4 : (⟨S4x128, .f32⟩ : BufTy).Contents (Elt Ideal))
    (x5 : (⟨S4x128x128, .f32⟩ : BufTy).Contents (Elt Ideal)) :
    val_main_v116 (F := Ideal) x0 x1 x2 x3 x4 x5
      = Host.scatterAdd (F := Ideal) (φ := .f32) scatter_S128x512_S50000x1_S50000x512_1_0_0_1 (val_main_v114 (F := Ideal))
          (val_main_v115 (F := Ideal) x2)
          (concatenate S50000x512 1
            [⟨S50000x128, val_main_v37 (F := Ideal) x0 x1 x3 x4 x5⟩, ⟨S50000x128, val_main_v62 (F := Ideal) x0 x1 x3 x4 x5⟩,
             ⟨S50000x128, val_main_v87 (F := Ideal) x0 x1 x3 x4 x5⟩, ⟨S50000x128, val_main_v112 (F := Ideal) x0 x1 x3 x4 x5⟩]
            concatenates_S50000x128_S50000x128_S50000x128_S50000x128_S50000x512_d1) := by
  unfold val_main_v116 val_main_v113
  rfl

end Cert.ReferenceIdeal.Chain

end
-- ==== Proof.LibSegmentSum.lean ====
/-
  A segment sum read at an index.

  An array `upd` of `R` rows and `C` columns is added, row by row, into an array `x` of `M` rows: row `i` goes to
  the row its index `idx i` names (an integer read signed; a row whose index is not in `[0, M)` is dropped).  At the
  exact instance the result at `(m, j)` is `x (m, j)` plus the sum, over the rows `i` whose index is `m`, of
  `upd (i, j)`.  The dimension numbers are those of a scatter along axis 0 with whole rows as windows.
-/
import Idealize.ShloMosaic.PureOps.Ideal
import Idealize.ShloMosaic.Lib.ValueIdx

noncomputable section

open scoped BigOperators

namespace Cert.SegmentSum

open Idealize.ShloMosaic Idealize.ShloMosaic.ValueIdx

/-- The operand: `M` rows of `C` columns. -/
abbrev SO (M C : ℕ) : Shape := ⟨2, ![M, C]⟩
/-- The scatter indices: one index per row of the updates. -/
abbrev SI (R : ℕ) : Shape := ⟨2, ![R, 1]⟩
/-- The updates: `R` rows of `C` columns. -/
abbrev SU (R C : ℕ) : Shape := ⟨2, ![R, C]⟩

variable (M R C : ℕ) (wf : ScatterDims.WF (SO M C) (SI R) (SU R C) [1] [0] [0] 1)

/-- The dimension numbers of a row scatter: the updates' axis 1 is the window, the operand's axis 0 is indexed. -/
abbrev dRow : ScatterDims (SO M C) (SI R) (SU R C) :=
  { updateWindowDims := [1], insertedWindowDims := [0], scatterDimsToOperandDims := [0], indexVectorDim := 1, wf := wf }

/-- The indexed axis carries no window coordinate. -/
theorem window0 (j : (SU R C).Idx) : (dRow M R C wf).window j 0 = 0 := by
  simp [ScatterDims.window, ScatterDims.sKept, Shape.kept]

/-- The window coordinate on the column axis is the update's column. -/
theorem window1 (j : (SU R C).Idx) : (dRow M R C wf).window j 1 = (j 1).val := by
  simp [ScatterDims.window, ScatterDims.sKept, Shape.kept]
  rfl

/-- The column axis is not indexed: its start is zero. -/
theorem start1 {w : Nat} (j : (SU R C).Idx) (idx : IVec (SI R) w) : (dRow M R C wf).start j idx 1 = 0 := by
  simp [ScatterDims.start]

/-- The start on the row axis is the signed index of the update's row. -/
theorem start0 {w : Nat} (j : (SU R C).Idx) (idx : IVec (SI R) w) : (dRow M R C wf).start j idx 0 = (idx (ix2 (j 0) 0)).toInt := by
  have e : (dRow M R C wf).siIdx j 0 = ix2 (j 0) 0 := by
    funext b
    match b with
    | ⟨0, _⟩ => apply Fin.ext; simp [ScatterDims.siIdx, ScatterDims.siCoord, ScatterDims.uScatter, ScatterDims.siKept, Shape.kept]; rfl
    | ⟨1, _⟩ => apply Fin.ext; simp [ScatterDims.siIdx]
  simp [ScatterDims.start, e]

/-- Update `(i, k)` lands on `(m, j)` exactly when row `i`'s index is `m` and the columns agree. -/
theorem resultIdx_row {w : Nat} (idx : IVec (SI R) w) (i : Fin R) (k : Fin C) (m : Fin M) (j : Fin C) :
    (dRow M R C wf).resultIdx? (ix2 i k) idx = some (ix2 m j) ↔ ((idx (ix2 i 0)).toInt = (m.val : ℤ) ∧ k = j) := by
  have hs0 : (dRow M R C wf).start (ix2 i k) idx 0 = (idx (ix2 i 0)).toInt := start0 M R C wf (ix2 i k) idx
  have hs1 := start1 M R C wf (ix2 i k) idx
  have hw0 := window0 M R C wf (ix2 i k)
  have hw1 : (dRow M R C wf).window (ix2 i k) 1 = k.val := window1 M R C wf (ix2 i k)
  have hm := m.isLt
  have hk := k.isLt
  have hz0 : (SO M C).size 0 = M := rfl
  have hz1 : (SO M C).size 1 = C := rfl
  unfold ScatterDims.resultIdx?
  split
  · rename_i h
    have h0 := h 0
    have h1 := h 1
    rw [hs0, hw0, hz0] at h0
    rw [hs1, hw1, hz1] at h1
    constructor
    · intro e
      have e' := Option.some.inj e
      have e0 : ((dRow M R C wf).start (ix2 i k) idx 0 + ((dRow M R C wf).window (ix2 i k) 0 : ℕ)).toNat = m.val :=
        congrArg (fun f : (SO M C).Idx => (f 0).val) e'
      have e1 : ((dRow M R C wf).start (ix2 i k) idx 1 + ((dRow M R C wf).window (ix2 i k) 1 : ℕ)).toNat = j.val :=
        congrArg (fun f : (SO M C).Idx => (f 1).val) e'
      rw [hs0, hw0] at e0
      rw [hs1, hw1] at e1
      exact ⟨by omega, Fin.ext (by omega)⟩
    · rintro ⟨ht, rfl⟩
      congr 1
      funext a
      match a with
      | ⟨0, _⟩ => apply Fin.ext; show ((dRow M R C wf).start (ix2 i k) idx 0 + ((dRow M R C wf).window (ix2 i k) 0 : ℕ)).toNat = m.val; rw [hs0, hw0]; omega
      | ⟨1, _⟩ => apply Fin.ext; show ((dRow M R C wf).start (ix2 i k) idx 1 + ((dRow M R C wf).window (ix2 i k) 1 : ℕ)).toNat = k.val; rw [hs1, hw1]; omega
  · rename_i h
    constructor
    · intro e; cases e
    · rintro ⟨ht, rfl⟩
      exfalso; apply h
      refine Fin.forall_fin_two.2 ⟨?_, ?_⟩
      · rw [hs0, hw0, hz0]; omega
      · rw [hs1, hw1, hz1]; omega

/-- The accumulating scatter of the rows of `upd` into the rows their indices name, read at `(m, j)`: the operand's
    entry plus the entries at column `j` of the rows whose index is `m`. -/
theorem scatterAdd_rows_apply {w : Nat} (x : FVec Ideal (SO M C) .f32) (idx : IVec (SI R) w) (upd : FVec Ideal (SU R C) .f32)
    (m : Fin M) (j : Fin C) :
    Host.scatterAdd (dRow M R C wf) x idx upd (ix2 m j)
      = x (ix2 m j) + ∑ i ∈ Finset.univ.filter (fun i : Fin R => (idx (ix2 i 0)).toInt = (m.val : ℤ)), upd (ix2 i j) := by
  show Ideal.hostScatterAdd (dRow M R C wf) x idx upd (ix2 m j) = _
  unfold Ideal.hostScatterAdd
  congr 1
  rw [Finset.sum_filter, sum_idx2, Finset.sum_filter]
  refine Finset.sum_congr rfl fun i _ => ?_
  by_cases hi : (idx (ix2 i 0)).toInt = (m.val : ℤ)
  · rw [if_pos hi]
    rw [Finset.sum_eq_single j]
    · rw [if_pos ((resultIdx_row M R C wf idx i j m j).2 ⟨hi, rfl⟩)]
    · intro k _ hk
      rw [if_neg (fun e => hk ((resultIdx_row M R C wf idx i k m j).1 e).2)]
    · intro h; exact absurd (Finset.mem_univ _) h
  · rw [if_neg hi]
    exact Finset.sum_eq_zero fun k _ => if_neg (fun e => hi ((resultIdx_row M R C wf idx i k m j).1 e).1)

end Cert.SegmentSum

end
-- ==== Proof.PoolConcat.lean ====
/-
  POOLING COMMUTES WITH JOINING COLUMNS, at the ideal values.

  Pooling sums the rows of a node-feature array into the row of the graph each node belongs to: a row scatter-add into
  zeros, so the pooled array has at `(m, j)` the sum over the nodes `i` of graph `m` of the feature `(i, j)`.  Each column
  is pooled independently of the others.  Hence pooling four `[50000, 128]` arrays separately and then laying the four
  `[128, 128]` results side by side gives the same `[128, 512]` array as laying the four inputs side by side first and
  pooling the `[50000, 512]` array once: at column `q = 128·l + j` both are `0 + ∑_{i : graph i = m} h_l (i, j)`.  The sums
  are compared term by term; no algebra of the extended reals is used.
-/
import proofs.«121412_j16045997818029_2_alg».proof.KernelIdeal
import proofs.«121412_j16045997818029_2_alg».proof.ReferenceIdeal
import proofs.«121412_j16045997818029_2_alg».proof.Proof.LibSegmentSum
import Idealize.ShloMosaic.Lib.Pipeline.Value
import Idealize.ShloMosaic.Lib.IdealHost

noncomputable section

open scoped BigOperators

namespace Cert.Pool

open Idealize.ShloMosaic Idealize.ShloMosaic.ValueIdx

/-- Four arrays of 128 columns joined along the columns, read at `(p, q)` with `q = 128·l + j`: piece `l` at `(p, j)`. -/
theorem concat4_cols_apply {α : Type} {R : ℕ} (x0 x1 x2 x3 : (⟨2, ![R, 128]⟩ : Shape).Idx → α)
    (h : Shape.Concatenates [(⟨2, ![R, 128]⟩ : Shape), ⟨2, ![R, 128]⟩, ⟨2, ![R, 128]⟩, ⟨2, ![R, 128]⟩] ⟨2, ![R, 512]⟩ (1 : Fin 2))
    (p : Fin R) (l : Fin 4) (j : Fin 128) (q : Fin 512) (hq : q.val = 128 * l.val + j.val) :
    concatenate ⟨2, ![R, 512]⟩ (1 : Fin 2)
        [⟨⟨2, ![R, 128]⟩, x0⟩, ⟨⟨2, ![R, 128]⟩, x1⟩, ⟨⟨2, ![R, 128]⟩, x2⟩, ⟨⟨2, ![R, 128]⟩, x3⟩] h (ix2 p q)
      = (![x0, x1, x2, x3] : Fin 4 → (⟨2, ![R, 128]⟩ : Shape).Idx → α) l (ix2 p j) := by
  have hoff : ∀ b : Fin 2, b.cast (rfl : (2 : ℕ) = 2) ≠ (1 : Fin 2) → ((ix2 p j) b).val = ((ix2 p q) (b.cast rfl)).val := by
    intro b hb
    match b with
    | ⟨0, _⟩ => rfl
    | ⟨1, _⟩ => exact absurd rfl hb
  match l with
  | ⟨0, _⟩ =>
    exact concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h (ix2 p q) 0 (by simp) ⟨2, ![R, 128]⟩ x0 rfl rfl 0 rfl (ix2 p j) hoff
      (by show 0 + j.val = q.val; simp at hq; omega)
  | ⟨1, _⟩ =>
    exact concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h (ix2 p q) 1 (by simp) ⟨2, ![R, 128]⟩ x1 rfl rfl 128 rfl (ix2 p j) hoff
      (by show 128 + j.val = q.val; simp at hq; omega)
  | ⟨2, _⟩ =>
    exact concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h (ix2 p q) 2 (by simp) ⟨2, ![R, 128]⟩ x2 rfl rfl 256 rfl (ix2 p j) hoff
      (by show 256 + j.val = q.val; simp at hq; omega)
  | ⟨3, _⟩ =>
    exact concatenate_apply_piece (t := ⟨2, ![R, 512]⟩) (1 : Fin 2) [⟨⟨2, ![R, 128]⟩, x0⟩, ⟨⟨2, ![R, 128]⟩, x1⟩, ⟨⟨2, ![R, 128]⟩, x2⟩, ⟨⟨2, ![R, 128]⟩, x3⟩] h (ix2 p q) 3 (by simp) ⟨2, ![R, 128]⟩ x3 rfl rfl 384 rfl (ix2 p j) hoff
      (by show 384 + j.val = q.val; simp at hq; omega)

section

variable [Cert.KernelIdeal.Facts₀] [Cert.ReferenceIdeal.Facts₀]

/-- One `[50000, 128]` array pooled into zeros, read at `(m, j)`: zero plus the sum of column `j` over the rows whose
    graph id is `m`. -/
theorem pooled128_apply (idx : IVec Cert.KernelIdeal.S50000x1 32) (x : FVec Ideal Cert.KernelIdeal.S50000x128 .f32)
    (m : Fin 128) (j : Fin 128) :
    Host.scatterAdd (F := Ideal) Cert.KernelIdeal.scatter_S128x128_S50000x1_S50000x128_1_0_0_1
        (broadcastInDim Cert.KernelIdeal.S128x128 ![] Cert.KernelIdeal.Facts₀.bcast_S_S128x128 (constant (F := Ideal) Cert.KernelIdeal.S_ .f32 0x00000000#32)) idx x (ix2 m j)
      = 0 + ∑ i ∈ Finset.univ.filter (fun i : Fin 50000 => (idx (ix2 i 0)).toInt = (m.val : ℤ)), x (ix2 i j) := by
  show Host.scatterAdd (F := Ideal)
      (Cert.SegmentSum.dRow 128 50000 128 Cert.KernelIdeal.Facts₀.scatter_S128x128_S50000x1_S50000x128_1_0_0_1_wf)
      (broadcastInDim Cert.KernelIdeal.S128x128 ![] Cert.KernelIdeal.Facts₀.bcast_S_S128x128 (constant (F := Ideal) Cert.KernelIdeal.S_ .f32 0x00000000#32)) idx x (ix2 m j) = _
  rw [Cert.SegmentSum.scatterAdd_rows_apply, broadcastInDim_scalar_apply, constant_apply, Ideal.ofBits_zero_f32]

/-- The `[50000, 512]` array pooled into zeros, read at `(m, q)`: zero plus the sum of column `q` over the rows whose
    graph id is `m`. -/
theorem pooled512_apply (idx : IVec Cert.ReferenceIdeal.S50000x1 32) (x : FVec Ideal Cert.ReferenceIdeal.S50000x512 .f32)
    (m : Fin 128) (q : Fin 512) :
    Host.scatterAdd (F := Ideal) Cert.ReferenceIdeal.scatter_S128x512_S50000x1_S50000x512_1_0_0_1
        (broadcastInDim Cert.ReferenceIdeal.S128x512 ![] Cert.ReferenceIdeal.Facts₀.bcast_S_S128x512 (constant (F := Ideal) Cert.ReferenceIdeal.S_ .f32 0x00000000#32)) idx x (ix2 m q)
      = 0 + ∑ i ∈ Finset.univ.filter (fun i : Fin 50000 => (idx (ix2 i 0)).toInt = (m.val : ℤ)), x (ix2 i q) := by
  show Host.scatterAdd (F := Ideal)
      (Cert.SegmentSum.dRow 128 50000 512 Cert.ReferenceIdeal.Facts₀.scatter_S128x512_S50000x1_S50000x512_1_0_0_1_wf)
      (broadcastInDim Cert.ReferenceIdeal.S128x512 ![] Cert.ReferenceIdeal.Facts₀.bcast_S_S128x512 (constant (F := Ideal) Cert.ReferenceIdeal.S_ .f32 0x00000000#32)) idx x (ix2 m q) = _
  rw [Cert.SegmentSum.scatterAdd_rows_apply, broadcastInDim_scalar_apply, constant_apply, Ideal.ofBits_zero_f32]

/-- Pooling each of four `[50000, 128]` arrays and joining the four `[128, 128]` results along the columns is pooling the
    `[50000, 512]` array of the four joined along the columns. -/
theorem pool_concat (idx : IVec Cert.ReferenceIdeal.S50000x1 32) (h0 h1 h2 h3 : FVec Ideal Cert.ReferenceIdeal.S50000x128 .f32) :
    concatenate Cert.KernelIdeal.S128x512 1
        [⟨Cert.KernelIdeal.S128x128, Host.scatterAdd (F := Ideal) Cert.KernelIdeal.scatter_S128x128_S50000x1_S50000x128_1_0_0_1
          (broadcastInDim Cert.KernelIdeal.S128x128 ![] Cert.KernelIdeal.Facts₀.bcast_S_S128x128 (constant (F := Ideal) Cert.KernelIdeal.S_ .f32 0x00000000#32)) idx h0⟩,
         ⟨Cert.KernelIdeal.S128x128, Host.scatterAdd (F := Ideal) Cert.KernelIdeal.scatter_S128x128_S50000x1_S50000x128_1_0_0_1
          (broadcastInDim Cert.KernelIdeal.S128x128 ![] Cert.KernelIdeal.Facts₀.bcast_S_S128x128 (constant (F := Ideal) Cert.KernelIdeal.S_ .f32 0x00000000#32)) idx h1⟩,
         ⟨Cert.KernelIdeal.S128x128, Host.scatterAdd (F := Ideal) Cert.KernelIdeal.scatter_S128x128_S50000x1_S50000x128_1_0_0_1
          (broadcastInDim Cert.KernelIdeal.S128x128 ![] Cert.KernelIdeal.Facts₀.bcast_S_S128x128 (constant (F := Ideal) Cert.KernelIdeal.S_ .f32 0x00000000#32)) idx h2⟩,
         ⟨Cert.KernelIdeal.S128x128, Host.scatterAdd (F := Ideal) Cert.KernelIdeal.scatter_S128x128_S50000x1_S50000x128_1_0_0_1
          (broadcastInDim Cert.KernelIdeal.S128x128 ![] Cert.KernelIdeal.Facts₀.bcast_S_S128x128 (constant (F := Ideal) Cert.KernelIdeal.S_ .f32 0x00000000#32)) idx h3⟩]
        Cert.KernelIdeal.Facts₀.concatenates_S128x128_S128x128_S128x128_S128x128_S128x512_d1
      = Host.scatterAdd (F := Ideal) Cert.ReferenceIdeal.scatter_S128x512_S50000x1_S50000x512_1_0_0_1
          (broadcastInDim Cert.ReferenceIdeal.S128x512 ![] Cert.ReferenceIdeal.Facts₀.bcast_S_S128x512 (constant (F := Ideal) Cert.ReferenceIdeal.S_ .f32 0x00000000#32)) idx
          (concatenate Cert.ReferenceIdeal.S50000x512 1
            [⟨Cert.ReferenceIdeal.S50000x128, h0⟩, ⟨Cert.ReferenceIdeal.S50000x128, h1⟩,
             ⟨Cert.ReferenceIdeal.S50000x128, h2⟩, ⟨Cert.ReferenceIdeal.S50000x128, h3⟩]
            Cert.ReferenceIdeal.Facts₀.concatenates_S50000x128_S50000x128_S50000x128_S50000x128_S50000x512_d1) := by
  funext i
  obtain ⟨m, q, rfl⟩ : ∃ (m : Fin 128) (q : Fin 512), i = ix2 m q := ⟨i 0, i 1, eq_ix2 i⟩
  obtain ⟨l, j, hq⟩ : ∃ (l : Fin 4) (j : Fin 128), q.val = 128 * l.val + j.val :=
    ⟨⟨q.val / 128, by have := q.isLt; omega⟩, ⟨q.val % 128, Nat.mod_lt _ (by decide)⟩,
      by show q.val = 128 * (q.val / 128) + q.val % 128; omega⟩
  rw [pooled512_apply]
  refine (concat4_cols_apply _ _ _ _ Cert.KernelIdeal.Facts₀.concatenates_S128x128_S128x128_S128x128_S128x128_S128x512_d1 m l j q hq).trans ?_
  have hcat : ∀ i : Fin 50000,
      concatenate Cert.ReferenceIdeal.S50000x512 1
          [⟨Cert.ReferenceIdeal.S50000x128, h0⟩, ⟨Cert.ReferenceIdeal.S50000x128, h1⟩,
           ⟨Cert.ReferenceIdeal.S50000x128, h2⟩, ⟨Cert.ReferenceIdeal.S50000x128, h3⟩]
          Cert.ReferenceIdeal.Facts₀.concatenates_S50000x128_S50000x128_S50000x128_S50000x128_S50000x512_d1 (ix2 i q)
        = (![h0, h1, h2, h3] : Fin 4 → FVec Ideal Cert.ReferenceIdeal.S50000x128 .f32) l (ix2 i j) :=
    fun i => concat4_cols_apply h0 h1 h2 h3 Cert.ReferenceIdeal.Facts₀.concatenates_S50000x128_S50000x128_S50000x128_S50000x128_S50000x512_d1 i l j q hq
  rw [Finset.sum_congr rfl fun i _ => hcat i]
  match l with
  | ⟨0, _⟩ => exact pooled128_apply idx h0 m j
  | ⟨1, _⟩ => exact pooled128_apply idx h1 m j
  | ⟨2, _⟩ => exact pooled128_apply idx h2 m j
  | ⟨3, _⟩ => exact pooled128_apply idx h3 m j

end

end Cert.Pool

end
-- ==== Proof.CrossTerms.lean ====
/-
  THE KERNEL PROGRAM'S HOST TERMS ARE THE REFERENCE'S, at the ideal values.

  Outside its kernels the kernel program prepares the same arrays as the reference: the edges' source and destination
  columns, the inverse in-degree, each layer's slices of the stacked weights, the neighbour sum, the per-graph sums and
  counts.  The two printed programs carry their own copies of every shape, dimension record and side condition, equal by
  unfolding.  Where the spellings differ they are compared directly: a vector made a column by a reshape against the same
  vector made a column by a broadcast (index by index: both read entry `p` at `(p, 0)`), and a change of float format,
  which is the identity on extended reals.
-/
import proofs.«121412_j16045997818029_2_alg».proof.Proof.KernelTerms
import proofs.«121412_j16045997818029_2_alg».proof.Proof.Gen.ReferenceIdeal.Read
import proofs.«121412_j16045997818029_2_alg».proof.Proof.RefChain
import proofs.«121412_j16045997818029_2_alg».proof.Proof.PoolConcat
import proofs.«121412_j16045997818029_2_alg».proof.Proof.LibColumn

noncomputable section

namespace Cert.Cross

open Idealize.ShloMosaic Idealize.ShloMosaic.ValueIdx Cert.KernelIdeal Cert.ReferenceIdeal

/-! ## Index columns -/

/-- The destination-node column of scatter indices. -/
theorem dstIdx_eq (x1 : (⟨Cert.KernelIdeal.S2x800000, .i32⟩ : BufTy).Contents (Elt Ideal)) : Terms.dstIdx x1 = Read.val_main_v21 (F := Ideal) x1 := by
  unfold Terms.dstIdx Terms.dst Read.val_main_v21 Read.val_main_v3 Read.val_main_v2
  rfl

/-- The source-node column of gather indices. -/
theorem srcIdx_eq (x1 : (⟨Cert.KernelIdeal.S2x800000, .i32⟩ : BufTy).Contents (Elt Ideal)) : Terms.srcIdx x1 = Read.val_main_v18 (F := Ideal) x1 := by
  unfold Terms.srcIdx Terms.src Read.val_main_v18 Read.val_main_v17 Read.val_main_v14 Read.val_main_v16 Read.val_main_v13
    Read.val_main_v15 Read.val_main_c Read.val_main_c_3 Read.val_main_v1 Read.val_main_v0
  rfl

/-! ## Weights and biases -/

theorem wl0_eq (x3 : (⟨Cert.KernelIdeal.S4x128x128, .f32⟩ : BufTy).Contents (Elt Ideal)) : Terms.wl0 x3 = Read.val_main_v26 (F := Ideal) x3 := by
  unfold Terms.wl0 Read.val_main_v26 Read.val_main_v25
  rfl

theorem blv0_eq (x4 : (⟨Cert.KernelIdeal.S4x128, .f32⟩ : BufTy).Contents (Elt Ideal)) : Terms.blv0 x4 = Read.val_main_v29 (F := Ideal) x4 := by
  unfold Terms.blv0 Read.val_main_v29 Read.val_main_v28
  rfl

theorem wr0_eq (x5 : (⟨Cert.KernelIdeal.S4x128x128, .f32⟩ : BufTy).Contents (Elt Ideal)) : Terms.wr0 x5 = Read.val_main_v34 (F := Ideal) x5 := by
  unfold Terms.wr0 Read.val_main_v34 Read.val_main_v33
  rfl

theorem wl1_eq (x3 : (⟨Cert.KernelIdeal.S4x128x128, .f32⟩ : BufTy).Contents (Elt Ideal)) : Terms.wl1 x3 = Read.val_main_v51 (F := Ideal) x3 := by
  unfold Terms.wl1 Read.val_main_v51 Read.val_main_v50
  rfl

theorem blv1_eq (x4 : (⟨Cert.KernelIdeal.S4x128, .f32⟩ : BufTy).Contents (Elt Ideal)) : Terms.blv1 x4 = Read.val_main_v54 (F := Ideal) x4 := by
  unfold Terms.blv1 Read.val_main_v54 Read.val_main_v53
  rfl

theorem wr1_eq (x5 : (⟨Cert.KernelIdeal.S4x128x128, .f32⟩ : BufTy).Contents (Elt Ideal)) : Terms.wr1 x5 = Read.val_main_v59 (F := Ideal) x5 := by
  unfold Terms.wr1 Read.val_main_v59 Read.val_main_v58
  rfl

theorem wl2_eq (x3 : (⟨Cert.KernelIdeal.S4x128x128, .f32⟩ : BufTy).Contents (Elt Ideal)) : Terms.wl2 x3 = Read.val_main_v76 (F := Ideal) x3 := by
  unfold Terms.wl2 Read.val_main_v76 Read.val_main_v75
  rfl

theorem blv2_eq (x4 : (⟨Cert.KernelIdeal.S4x128, .f32⟩ : BufTy).Contents (Elt Ideal)) : Terms.blv2 x4 = Read.val_main_v79 (F := Ideal) x4 := by
  unfold Terms.blv2 Read.val_main_v79 Read.val_main_v78
  rfl

theorem wr2_eq (x5 : (⟨Cert.KernelIdeal.S4x128x128, .f32⟩ : BufTy).Contents (Elt Ideal)) : Terms.wr2 x5 = Read.val_main_v84 (F := Ideal) x5 := by
  unfold Terms.wr2 Read.val_main_v84 Read.val_main_v83
  rfl

theorem wl3_eq (x3 : (⟨Cert.KernelIdeal.S4x128x128, .f32⟩ : BufTy).Contents (Elt Ideal)) : Terms.wl3 x3 = Read.val_main_v101 (F := Ideal) x3 := by
  unfold Terms.wl3 Read.val_main_v101 Read.val_main_v100
  rfl

theorem blv3_eq (x4 : (⟨Cert.KernelIdeal.S4x128, .f32⟩ : BufTy).Contents (Elt Ideal)) : Terms.blv3 x4 = Read.val_main_v104 (F := Ideal) x4 := by
  unfold Terms.blv3 Read.val_main_v104 Read.val_main_v103
  rfl

theorem wr3_eq (x5 : (⟨Cert.KernelIdeal.S4x128x128, .f32⟩ : BufTy).Contents (Elt Ideal)) : Terms.wr3 x5 = Read.val_main_v109 (F := Ideal) x5 := by
  unfold Terms.wr3 Read.val_main_v109 Read.val_main_v108
  rfl

/-! ## The inverse in-degree column -/

/-- The vector of inverse in-degrees under both columns. -/
theorem invVec_eq (x1 : (⟨Cert.KernelIdeal.S2x800000, .i32⟩ : BufTy).Contents (Elt Ideal)) :
    Host.divf (F := Ideal) (broadcastInDim Cert.KernelIdeal.S50000 ![] Cert.KernelIdeal.Gen.bcast_S_S50000 (constant (F := Ideal) Cert.KernelIdeal.S_ .f32 0x3F800000#32))
      (maximumf
        (Host.scatterAdd (F := Ideal) Cert.KernelIdeal.scatter_S50000_S800000x1_S800000_n_0_0_1
          (broadcastInDim Cert.KernelIdeal.S50000 ![] Cert.KernelIdeal.Gen.bcast_S_S50000 (constant (F := Ideal) Cert.KernelIdeal.S_ .f32 0x00000000#32)) (Terms.dstIdx x1)
          (broadcastInDim Cert.KernelIdeal.S800000 ![] Cert.KernelIdeal.Gen.bcast_S_S800000 (constant (F := Ideal) Cert.KernelIdeal.S_ .f32 0x3F800000#32)))
        (broadcastInDim Cert.KernelIdeal.S50000 ![] Cert.KernelIdeal.Gen.bcast_S_S50000 (constant (F := Ideal) Cert.KernelIdeal.S_ .f32 0x3F800000#32)))
      = Read.val_main_v11 (F := Ideal) x1 := by
  rw [dstIdx_eq]
  unfold Read.val_main_v11 Read.val_main_v10 Read.val_main_cst_2 Read.val_main_v9 Read.val_main_v8 Read.val_main_cst_1
    Read.val_main_v7 Read.val_main_v5 Read.val_main_cst_0 Read.val_main_v4 Read.val_main_cst Read.val_main_v6 Read.val_main_v21
  rfl

/-- The kernel program makes the inverse in-degree vector a column by a reshape, the reference by a broadcast along a new
    unit axis: both columns read, at `(p, 0)`, the vector's entry `p`. -/
theorem inv_eq (x1 : (⟨Cert.KernelIdeal.S2x800000, .i32⟩ : BufTy).Contents (Elt Ideal)) : Terms.inv x1 = Read.val_main_v12 (F := Ideal) x1 := by
  funext i
  obtain ⟨p, u, rfl⟩ : ∃ (p : Fin 50000) (u : Fin 1), i = ix2 p u := ⟨i 0, i 1, eq_ix2 i⟩
  unfold Terms.inv Read.val_main_v12
  rw [invVec_eq]
  refine (ColumnLayout.shapeCast_a_a1_apply (Read.val_main_v11 (F := Ideal) x1) Cert.KernelIdeal.Gen.shapeCasts_S50000_S50000x1 p u).trans ?_
  refine (broadcastInDim_apply _ Cert.ReferenceIdeal.Gen.bcast_S50000_S50000x1_0 (Read.val_main_v11 (F := Ideal) x1) (ix2 p u) (ix1 p) fun ax => ?_).symm
  match ax with
  | ⟨0, _⟩ =>
    show p.val = if (50000 : ℕ) = 1 then 0 else p.val
    rw [if_neg (by decide)]

/-! ## The neighbour sum, the first layer's input, the pooled sums and the counts -/

/-- The kernel program's neighbour sum (gathered in the narrower float format and widened) is the reference's. -/
theorem agg_eq (x1 : (⟨Cert.KernelIdeal.S2x800000, .i32⟩ : BufTy).Contents (Elt Ideal)) (h : (⟨Cert.KernelIdeal.S50000x128, .bf16⟩ : BufTy).Contents (Elt Ideal)) :
    Terms.agg x1 h = Chain.aggR x1 h := by
  unfold Terms.agg Chain.aggR
  rw [dstIdx_eq, srcIdx_eq]
  unfold Read.val_main_v20 Read.val_main_cst_4
  rfl

/-- Narrowing the float format leaves the numbers as they are. -/
theorem h0_eq (x0 : (⟨Cert.KernelIdeal.S50000x128, .f32⟩ : BufTy).Contents (Elt Ideal)) : Terms.h0 x0 = x0 := rfl

/-- The per-graph sum without the change of format. -/
theorem pool_eq (x2 : (⟨Cert.KernelIdeal.S50000, .i32⟩ : BufTy).Contents (Elt Ideal)) (h : (⟨Cert.KernelIdeal.S50000x128, .bf16⟩ : BufTy).Contents (Elt Ideal)) :
    Terms.pool x2 h
      = Host.scatterAdd (F := Ideal) (φ := .f32) Cert.KernelIdeal.scatter_S128x128_S50000x1_S50000x128_1_0_0_1
          (broadcastInDim Cert.KernelIdeal.S128x128 ![] Cert.KernelIdeal.Gen.bcast_S_S128x128 (constant (F := Ideal) Cert.KernelIdeal.S_ .f32 0x00000000#32))
          (broadcastInDim Cert.KernelIdeal.S50000x1 ![0] Cert.KernelIdeal.Gen.bcast_S50000_S50000x1_0 x2) h := rfl

/-- The column of graph ids is spelt alike in the two programs. -/
theorem graphIdx_eq (x2 : (⟨Cert.KernelIdeal.S50000, .i32⟩ : BufTy).Contents (Elt Ideal)) :
    broadcastInDim Cert.KernelIdeal.S50000x1 ![0] Cert.KernelIdeal.Gen.bcast_S50000_S50000x1_0 x2 = Read.val_main_v115 (F := Ideal) x2 := by
  unfold Read.val_main_v115
  rfl

/-- The four per-graph sums joined along the columns are the reference's one sum of the four arrays joined along the
    columns (`Cert.Pool.pool_concat`), in the reference's stage names for the zeros and the index column. -/
theorem pooled_eq (x2 : (⟨Cert.KernelIdeal.S50000, .i32⟩ : BufTy).Contents (Elt Ideal)) (h0 h1 h2 h3 : (⟨Cert.KernelIdeal.S50000x128, .bf16⟩ : BufTy).Contents (Elt Ideal)) :
    Terms.pooled (Terms.pool x2 h0) (Terms.pool x2 h1) (Terms.pool x2 h2) (Terms.pool x2 h3)
      = Host.scatterAdd (F := Ideal) (φ := .f32) Cert.ReferenceIdeal.scatter_S128x512_S50000x1_S50000x512_1_0_0_1
          (Read.val_main_v114 (F := Ideal)) (Read.val_main_v115 (F := Ideal) x2)
          (concatenate Cert.ReferenceIdeal.S50000x512 1
            [⟨Cert.ReferenceIdeal.S50000x128, h0⟩, ⟨Cert.ReferenceIdeal.S50000x128, h1⟩, ⟨Cert.ReferenceIdeal.S50000x128, h2⟩, ⟨Cert.ReferenceIdeal.S50000x128, h3⟩]
            Cert.ReferenceIdeal.Gen.concatenates_S50000x128_S50000x128_S50000x128_S50000x128_S50000x512_d1) := by
  unfold Terms.pooled Read.val_main_v114 Read.val_main_cst_14
  rw [pool_eq, pool_eq, pool_eq, pool_eq, graphIdx_eq]
  exact Cert.Pool.pool_concat (Read.val_main_v115 (F := Ideal) x2) h0 h1 h2 h3

/-- The per-graph node counts: the kernel program's column is the reshape of the reference's vector. -/
theorem cnt_eq (x2 : (⟨Cert.KernelIdeal.S50000, .i32⟩ : BufTy).Contents (Elt Ideal)) :
    Terms.cnt x2 = shapeCast Cert.KernelIdeal.S128x1 (Read.val_main_v122 (F := Ideal) x2) Cert.KernelIdeal.Gen.shapeCasts_S128_S128x1 := by
  unfold Terms.cnt Read.val_main_v122 Read.val_main_v121 Read.val_main_cst_17 Read.val_main_v120 Read.val_main_v119
    Read.val_main_v118 Read.val_main_cst_16 Read.val_main_v117 Read.val_main_cst_15
  rfl

end Cert.Cross

end
-- ==== Proof.MlpTail.lean ====
/-
  THE CLASSIFIER TAIL: mean pooling, two dense layers, and a row-wise log-softmax, at the ideal values.

  From per-graph feature sums `g` (128 graphs, 512 features), the graphs' node counts `cnt`, weights `w1` (512 × 128),
  `w2` (128 × 10) and biases `b1`, `b2`, the tail computes, for every graph `p`:
      hidden (p, k) = max ((∑ q, (g (p, q) / cnt p) · w1 (q, k)) + b1 k) 0
      logit  (p, c) = (∑ k, hidden (p, k) · w2 (k, c)) + b2 c
      m p           = max (-∞) (the maximum over c of logit (p, c), folded from -∞)
      out    (p, c) = (logit (p, c) - m p) - log (∑ c', exp (logit (p, c') - m p)).
  Two spellings of it are compared: one over the vector unit's operations (counts kept as a column, biases as rows,
  matrix products into zero accumulators, lane reductions), one over the host's operations (`dot_general`, broadcasts in
  dimensions, `reduce`).  Both are read index by index down to the same expression over the extended reals; the only
  identity of the extended reals used is `0 + x = x` (the host's sum starts from its initial value `0`).  Nothing needs
  to be finite.
-/
import proofs.«121412_j16045997818029_2_alg».proof.Proof.Gen.KernelIdeal.Skeleton
import proofs.«121412_j16045997818029_2_alg».proof.Proof.Gen.ReferenceIdeal
import proofs.«121412_j16045997818029_2_alg».proof.Proof.LibBlockDot
import proofs.«121412_j16045997818029_2_alg».proof.Proof.LibColumn
import Idealize.ShloMosaic.Lib.ValueLayout
import Idealize.ShloMosaic.Lib.IdealHost
import Idealize.ShloMosaic.PureOps.Ideal.Laws

noncomputable section

open scoped BigOperators

namespace Cert.Mlp

open Idealize.ShloMosaic Idealize.ShloMosaic.ValueIdx Idealize.ShloMosaic.ColumnLayout

/-! ## The tail over the extended reals -/

/-- The hidden layer at graph `p`, unit `k`. -/
def hidE (g : Fin 128 → Fin 512 → EReal) (cnt : Fin 128 → EReal) (w1 : Fin 512 → Fin 128 → EReal) (b1 : Fin 128 → EReal)
    (p : Fin 128) (k : Fin 128) : EReal :=
  max ((∑ q : Fin 512, Ideal.div (g p q) (cnt p) * w1 q k) + b1 k) (Ideal.ofBits .f32 0x00000000#32)

/-- The logit at graph `p`, class `c`, from the hidden layer `h`. -/
def logitE (h : Fin 128 → Fin 128 → EReal) (w2 : Fin 128 → Fin 10 → EReal) (b2 : Fin 10 → EReal)
    (p : Fin 128) (c : Fin 10) : EReal :=
  (∑ k : Fin 128, h p k * w2 k c) + b2 c

/-! ## The host's spelling -/

section Host
open Cert.ReferenceIdeal Cert.ReferenceIdeal.Facts₀

/-- The host's hidden layer: divide the sums by the counts broadcast across the features, `dot_general` with `w1`, add the
    bias broadcast down the rows, rectify. -/
def refHidden (g : FVec Ideal S128x512 .f32) (cntv : FVec Ideal S128 .f32) (w1 : FVec Ideal S512x128 .f32)
    (b1v : FVec Ideal S128 .f32) : FVec Ideal S128x128 .f32 :=
  maximumf
    (addf
      (Host.dotGeneral dot_S128x512_S512x128_S128x128_1_0_0_1_n_n none
        (Host.divf g (broadcastInDim S128x512 ![0, 1] bcast_S128x1_S128x512_0_1
          (broadcastInDim S128x1 ![0] bcast_S128_S128x1_0 cntv))) w1)
      (broadcastInDim S128x128 ![0, 1] bcast_S1x128_S128x128_0_1 (broadcastInDim S1x128 ![1] bcast_S128_S1x128_1 b1v)))
    (broadcastInDim S128x128 ![] bcast_S_S128x128 (constant S_ .f32 0x00000000#32))

/-- The host's logits: `dot_general` of the hidden layer with `w2`, plus the bias broadcast down the rows. -/
def refLogits (g : FVec Ideal S128x512 .f32) (cntv : FVec Ideal S128 .f32) (w1 : FVec Ideal S512x128 .f32)
    (b1v : FVec Ideal S128 .f32) (w2 : FVec Ideal S128x10 .f32) (b2v : FVec Ideal S10 .f32) : FVec Ideal S128x10 .f32 :=
  addf
    (Host.dotGeneral dot_S128x128_S128x10_S128x10_1_0_0_1_n_n none (refHidden g cntv w1 b1v) w2)
    (broadcastInDim S128x10 ![0, 1] bcast_S1x10_S128x10_0_1 (broadcastInDim S1x10 ![1] bcast_S10_S1x10_1 b2v))

/-- A vector broadcast to a column and then across columns reads, at `(p, q)`, the vector at `p`. -/
theorem bcast_col_apply {b : ℕ} (x : (⟨1, ![128]⟩ : Shape).Idx → EReal)
    (h1 : (⟨1, ![128]⟩ : Shape).BroadcastsInDim ⟨2, ![128, 1]⟩ ![0])
    (h2 : (⟨2, ![128, 1]⟩ : Shape).BroadcastsInDim ⟨2, ![128, b]⟩ ![0, 1]) (p : Fin 128) (q : Fin b) :
    broadcastInDim ⟨2, ![128, b]⟩ ![0, 1] h2 (broadcastInDim ⟨2, ![128, 1]⟩ ![0] h1 x) (ix2 p q) = x (ix1 p) := by
  refine (broadcastInDim_apply _ h2 _ (ix2 p q) (ix2 p (0 : Fin 1)) fun a => ?_).trans
    (broadcastInDim_apply _ h1 x (ix2 p (0 : Fin 1)) (ix1 p) fun a => ?_)
  · match a with
    | ⟨0, _⟩ => show p.val = if (128 : ℕ) = 1 then 0 else p.val; rw [if_neg (by decide)]
    | ⟨1, _⟩ => show 0 = if (1 : ℕ) = 1 then 0 else q.val; rw [if_pos rfl]
  · match a with
    | ⟨0, _⟩ => show p.val = if (128 : ℕ) = 1 then 0 else p.val; rw [if_neg (by decide)]

/-- A vector of `n` entries (`n ≠ 1`) broadcast to a row and then down `a` rows reads, at `(p, k)`, the vector at `k`. -/
theorem bcast_row_apply {a n : ℕ} (hn : n ≠ 1) (x : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (k : Fin n) :
    broadcastInDim ⟨2, ![a, n]⟩ ![0, 1] h2 (broadcastInDim ⟨2, ![1, n]⟩ ![1] h1 x) (ix2 p k) = x (ix1 k) := by
  refine (broadcastInDim_apply _ h2 _ (ix2 p k) (ix2 (0 : Fin 1) k) fun ax => ?_).trans
    (broadcastInDim_apply _ h1 x (ix2 (0 : Fin 1) k) (ix1 k) fun ax => ?_)
  · match ax with
    | ⟨0, _⟩ => show 0 = if (1 : ℕ) = 1 then 0 else p.val; rw [if_pos rfl]
    | ⟨1, _⟩ => show k.val = if n = 1 then 0 else k.val; rw [if_neg hn]
  · match ax with
    | ⟨0, _⟩ => show k.val = if n = 1 then 0 else k.val; rw [if_neg hn]

/-- The host's hidden layer at `(p, k)`. -/
theorem refHidden_apply (g : FVec Ideal S128x512 .f32) (cntv : FVec Ideal S128 .f32) (w1 : FVec Ideal S512x128 .f32)
    (b1v : FVec Ideal S128 .f32) (p : Fin 128) (k : Fin 128) :
    refHidden g cntv w1 b1v (ix2 p k)
      = hidE (fun p q => g (ix2 p q)) (fun p => cntv (ix1 p)) (fun q k => w1 (ix2 q k)) (fun k => b1v (ix1 k)) p k := by
  show max (Host.dotGeneral (DotDims.plain 128 512 128) none _ w1 (ix2 p k) + _) _ = _
  rw [Cert.BlockDot.hdot_apply, bcast_row_apply (by decide), broadcastInDim_scalar_apply]
  unfold hidE
  refine congrArg (fun t => max (t + b1v (ix1 k)) _) (Finset.sum_congr rfl fun q _ => ?_)
  rw [hostDivf_apply, bcast_col_apply]

/-- The host's logits at `(p, c)`. -/
theorem refLogits_apply (g : FVec Ideal S128x512 .f32) (cntv : FVec Ideal S128 .f32) (w1 : FVec Ideal S512x128 .f32)
    (b1v : FVec Ideal S128 .f32) (w2 : FVec Ideal S128x10 .f32) (b2v : FVec Ideal S10 .f32) (p : Fin 128) (c : Fin 10) :
    refLogits g cntv w1 b1v w2 b2v (ix2 p c)
      = logitE (hidE (fun p q => g (ix2 p q)) (fun p => cntv (ix1 p)) (fun q k => w1 (ix2 q k)) (fun k => b1v (ix1 k)))
          (fun k c => w2 (ix2 k c)) (fun c => b2v (ix1 c)) p c := by
  show Host.dotGeneral (DotDims.plain 128 128 10) none (refHidden g cntv w1 b1v) w2 (ix2 p c) + _ = _
  rw [Cert.BlockDot.hdot_apply, bcast_row_apply (by decide)]
  unfold logitE
  refine congrArg (· + b2v (ix1 c)) (Finset.sum_congr rfl fun k _ => ?_)
  rw [refHidden_apply]

end Host

/-! ## The vector unit's spelling -/

section Kernel
open Cert.KernelIdeal Cert.KernelIdeal.Facts₀

/-- The vector unit's hidden layer: the sums divided by the counts column broadcast across the features, the matrix product
    with `w1` into a zero accumulator, plus the bias row broadcast down the rows, rectified. -/
def kHidden (v0 : FVec Ideal S128x512 .f32) (v2 : FVec Ideal S128x1 .f32) (v6 : FVec Ideal S512x128 .f32)
    (v7 : FVec Ideal S1x128 .f32) : FVec Ideal S128x128 .f32 :=
  maximumf
    (addf
      (matmul dot_S128x512_S512x128_S128x128_1_0_0_1_n_n none
        (truncf .bf16
          (divf (shapeCast S128x512 v0 shapeCasts_S128x512_S128x512)
            (broadcastTo S128x512 (shapeCast S128x1 v2 shapeCasts_S128x1_S128x1) broadcasts_S128x1_S128x512))
          bitsLt_bf16_f32)
        (truncf .bf16 v6 bitsLt_bf16_f32) (constant S128x128 .f32 0x00000000#32))
      (broadcastTo S128x128 (shapeCast S1x128 v7 shapeCasts_S1x128_S1x128) broadcasts_S1x128_S128x128))
    (broadcast S128x128 (Scalar.ofBits .f32 0x00000000#32))

/-- The vector unit's logits: the matrix product of the hidden layer with `w2` into a zero accumulator, plus the bias row
    broadcast down the rows. -/
def kLogits (v0 : FVec Ideal S128x512 .f32) (v2 : FVec Ideal S128x1 .f32) (v6 : FVec Ideal S512x128 .f32)
    (v7 : FVec Ideal S1x128 .f32) (v9 : FVec Ideal S128x10 .f32) (v10 : FVec Ideal S1x10 .f32) : FVec Ideal S128x10 .f32 :=
  addf
    (matmul dot_S128x128_S128x10_S128x10_1_0_0_1_n_n none (truncf .bf16 (kHidden v0 v2 v6 v7) bitsLt_bf16_f32)
      (truncf .bf16 v9 bitsLt_bf16_f32) (constant S128x10 .f32 0x00000000#32))
    (broadcastTo S128x10 (shapeCast S1x10 v10 shapeCasts_S1x10_S1x10) broadcasts_S1x10_S128x10)

/-- The vector unit's hidden layer at `(p, k)`, the counts given as a vector cast to a column and the bias as a vector
    cast to a row. -/
theorem kHidden_apply (g : FVec Ideal S128x512 .f32) (cntv : FVec Ideal S128 .f32) (w1 : FVec Ideal S512x128 .f32)
    (b1v : FVec Ideal S128 .f32) (p : Fin 128) (k : Fin 128) :
    kHidden g (shapeCast S128x1 cntv shapeCasts_S128_S128x1) w1 (shapeCast S1x128 b1v shapeCasts_S128_S1x128) (ix2 p k)
      = hidE (fun p q => g (ix2 p q)) (fun p => cntv (ix1 p)) (fun q k => w1 (ix2 q k)) (fun k => b1v (ix1 k)) p k := by
  show max (matmul (DotDims.plain 128 512 128) none _ _ (constant ⟨2, ![128, 128]⟩ .f32 0x00000000#32) (ix2 p k) + _) _ = _
  simp only [shapeCast_self]
  rw [Cert.BlockDot.kdot_apply, broadcastTo_1b_ab_apply, shapeCast_a_1a_apply]
  unfold hidE
  refine congrArg (fun t => max (t + b1v (ix1 k)) _) (Finset.sum_congr rfl fun q _ => ?_)
  show Ideal.div (g (ix2 p q)) (broadcastTo S128x512 _ _ (ix2 p q)) * _ = _
  rw [broadcastTo_a1_ab_apply, shapeCast_a_a1_apply]
  rfl

/-- The vector unit's logits at `(p, c)`. -/
theorem kLogits_apply (g : FVec Ideal S128x512 .f32) (cntv : FVec Ideal S128 .f32) (w1 : FVec Ideal S512x128 .f32)
    (b1v : FVec Ideal S128 .f32) (w2 : FVec Ideal S128x10 .f32) (b2v : FVec Ideal S10 .f32) (p : Fin 128) (c : Fin 10) :
    kLogits g (shapeCast S128x1 cntv shapeCasts_S128_S128x1) w1 (shapeCast S1x128 b1v shapeCasts_S128_S1x128) w2
        (shapeCast S1x10 b2v shapeCasts_S10_S1x10) (ix2 p c)
      = logitE (hidE (fun p q => g (ix2 p q)) (fun p => cntv (ix1 p)) (fun q k => w1 (ix2 q k)) (fun k => b1v (ix1 k)))
          (fun k c => w2 (ix2 k c)) (fun c => b2v (ix1 c)) p c := by
  show matmul (DotDims.plain 128 128 10) none _ _ (constant ⟨2, ![128, 10]⟩ .f32 0x00000000#32) (ix2 p c) + _ = _
  simp only [shapeCast_self]
  rw [Cert.BlockDot.kdot_apply, broadcastTo_1b_ab_apply, shapeCast_a_1a_apply]
  unfold logitE
  refine congrArg (· + b2v (ix1 c)) (Finset.sum_congr rfl fun k _ => ?_)
  show kHidden g _ w1 _ (ix2 p k) * _ = _
  rw [kHidden_apply]
  rfl

end Kernel

/-- The two spellings of the logits are one array. -/
theorem logits_eq (g : FVec Ideal Cert.KernelIdeal.S128x512 .f32) (cntv : FVec Ideal Cert.KernelIdeal.S128 .f32)
    (w1 : FVec Ideal Cert.KernelIdeal.S512x128 .f32) (b1v : FVec Ideal Cert.KernelIdeal.S128 .f32)
    (w2 : FVec Ideal Cert.KernelIdeal.S128x10 .f32) (b2v : FVec Ideal Cert.KernelIdeal.S10 .f32) :
    kLogits g (shapeCast Cert.KernelIdeal.S128x1 cntv Cert.KernelIdeal.Facts₀.shapeCasts_S128_S128x1) w1
        (shapeCast Cert.KernelIdeal.S1x128 b1v Cert.KernelIdeal.Facts₀.shapeCasts_S128_S1x128) w2
        (shapeCast Cert.KernelIdeal.S1x10 b2v Cert.KernelIdeal.Facts₀.shapeCasts_S10_S1x10)
      = refLogits g cntv w1 b1v w2 b2v := by
  funext j
  obtain ⟨p, c, rfl⟩ : ∃ (p : Fin 128) (c : Fin 10), j = ix2 p c := ⟨j 0, j 1, eq_ix2 j⟩
  rw [kLogits_apply, refLogits_apply]

/-! ## The row-wise log-softmax -/

/-- The shift of row `p`: the row's maximum folded from `-∞`, and `-∞` once more. -/
def mxE (x : Fin 128 → Fin 10 → EReal) (p : Fin 128) : EReal :=
  max (Ideal.ofBits .f32 0xFF800000#32)
    ((Finset.univ : Finset (Fin 10)).fold max (Ideal.ofBits .f32 0xFF800000#32) (x p))

/-- The log-softmax of row `p` at class `c`. -/
def lsmE (x : Fin 128 → Fin 10 → EReal) (p : Fin 128) (c : Fin 10) : EReal :=
  (x p c - mxE x p) - Ideal.log (∑ c' : Fin 10, Ideal.exp (x p c' - mxE x p))

/-- In a 128 × 10 array reduced over its columns, row `p` with the column `k` put back is `(p, k)`. -/
theorem lift_eq (h : (⟨2, ![128, 10]⟩ : Shape).Reduces [1] ⟨1, ![128]⟩) (p : Fin 128) (k : Fin 10) :
    h.lift (ix1 p) k = ix2 p k := by
  funext a
  apply Fin.ext
  match a with
  | ⟨0, _⟩ => rfl
  | ⟨1, _⟩ => rfl

/-- The fold of `max` over a row's column coordinates, the row named by its entries. -/
theorem fold_row (h : (⟨2, ![128, 10]⟩ : Shape).Reduces [1] ⟨1, ![128]⟩) (x : (⟨2, ![128, 10]⟩ : Shape).Idx → EReal)
    (init : EReal) (p : Fin 128) :
    (Finset.univ : Finset (Fin 10)).fold max init (x ∘ h.lift (ix1 p))
      = (Finset.univ : Finset (Fin 10)).fold max init fun c => x (ix2 p c) :=
  congrArg (fun f => (Finset.univ : Finset (Fin 10)).fold max init f) (funext fun k => congrArg x (lift_eq h p k))

/-- The sum over a row's column coordinates, the row named by its entries. -/
theorem sum_row (h : (⟨2, ![128, 10]⟩ : Shape).Reduces [1] ⟨1, ![128]⟩) (x : (⟨2, ![128, 10]⟩ : Shape).Idx → EReal)
    (p : Fin 128) : (∑ k : Fin 10, x (h.lift (ix1 p) k)) = ∑ c : Fin 10, x (ix2 p c) :=
  Finset.sum_congr rfl fun k _ => congrArg x (lift_eq h p k)

section Kernel
open Cert.KernelIdeal Cert.KernelIdeal.Facts₀

/-- The vector unit's shifted logits: each row minus its lane maximum (reduced from `-∞`, then `max` with `-∞`), the maximum
    cast to a column and broadcast across the classes. -/
def kShift (x : FVec Ideal S128x10 .f32) : FVec Ideal S128x10 .f32 :=
  subf x
    (broadcastTo S128x10
      (shapeCast S128x1
        (maximumf (broadcast S128 (Scalar.ofBits .f32 0xFF800000#32))
          (multiReduction .maximumf [1] S128 x 0xFF800000#32 reduces_S128x10_S128 (.inl rfl) rfl))
        shapeCasts_S128_S128x1)
      broadcasts_S128x1_S128x10)

/-- The vector unit's log-softmax: the shifted logits minus the logarithm of the lane sum of their exponentials, the sum
    cast to a column, the logarithm broadcast across the classes. -/
def kLsm (x : FVec Ideal S128x10 .f32) : FVec Ideal S128x10 .f32 :=
  subf (kShift x)
    (broadcastTo S128x10
      (log (shapeCast S128x1
        (multiReduction .add [1] S128 (exp (kShift x)) 0x00000000#32 reduces_S128x10_S128 (.inl rfl) rfl)
        shapeCasts_S128_S128x1))
      broadcasts_S128x1_S128x10)

/-- The vector unit's shifted logits at `(p, c)`. -/
theorem kShift_apply (x : FVec Ideal S128x10 .f32) (p : Fin 128) (c : Fin 10) :
    kShift x (ix2 p c) = x (ix2 p c) - mxE (fun p c => x (ix2 p c)) p := by
  show x (ix2 p c) - broadcastTo S128x10 (shapeCast S128x1 _ shapeCasts_S128_S128x1) _ (ix2 p c) = _
  rw [broadcastTo_a1_ab_apply, shapeCast_a_a1_apply]
  show x (ix2 p c) - max (Ideal.ofBits .f32 0xFF800000#32) (multiReduction .maximumf [1] S128 x 0xFF800000#32 _ _ _ (ix1 p)) = _
  exact congrArg (fun t => x (ix2 p c) - max (Ideal.ofBits .f32 0xFF800000#32) t)
    ((Ideal.multiReduction_maximumf_single x _ reduces_S128x10_S128 _ _ (ix1 p)).trans
      (fold_row reduces_S128x10_S128 x _ p))

/-- The vector unit's log-softmax at `(p, c)`. -/
theorem kLsm_apply (x : FVec Ideal S128x10 .f32) (p : Fin 128) (c : Fin 10) :
    kLsm x (ix2 p c) = lsmE (fun p c => x (ix2 p c)) p c := by
  show kShift x (ix2 p c) - broadcastTo S128x10 (log (shapeCast S128x1 _ shapeCasts_S128_S128x1)) _ (ix2 p c) = _
  rw [broadcastTo_a1_ab_apply]
  show kShift x (ix2 p c) - Ideal.log (shapeCast S128x1 _ shapeCasts_S128_S128x1 (ix2 p (0 : Fin 1))) = _
  rw [shapeCast_a_a1_apply, kShift_apply]
  unfold lsmE
  refine congrArg (fun t => (x (ix2 p c) - mxE (fun p c => x (ix2 p c)) p) - Ideal.log t) ?_
  refine (Ideal.multiReduction_add_single (exp (kShift x)) _ reduces_S128x10_S128 _ _ (ix1 p)).trans ?_
  refine (sum_row reduces_S128x10_S128 (exp (kShift x)) p).trans (Finset.sum_congr rfl fun c' _ => ?_)
  show Ideal.exp (kShift x (ix2 p c')) = _
  rw [kShift_apply]

end Kernel

section Host
open Cert.ReferenceIdeal Cert.ReferenceIdeal.Facts₀

/-- A column broadcast across `b` columns reads, at `(p, q)`, the column at row `p`. -/
theorem bcast_col_ab_apply {b : ℕ} (y : (⟨2, ![128, 1]⟩ : Shape).Idx → EReal)
    (h2 : (⟨2, ![128, 1]⟩ : Shape).BroadcastsInDim ⟨2, ![128, b]⟩ ![0, 1]) (p : Fin 128) (q : Fin b) :
    broadcastInDim ⟨2, ![128, b]⟩ ![0, 1] h2 y (ix2 p q) = y (ix2 p (0 : Fin 1)) :=
  broadcastInDim_apply _ h2 y (ix2 p q) (ix2 p (0 : Fin 1)) fun a => by
    match a with
    | ⟨0, _⟩ => show p.val = if (128 : ℕ) = 1 then 0 else p.val; rw [if_neg (by decide)]
    | ⟨1, _⟩ => show 0 = if (1 : ℕ) = 1 then 0 else q.val; rw [if_pos rfl]

/-- A vector broadcast to a column reads, at `(p, 0)`, the vector at `p`. -/
theorem bcast_vec_col_apply (x : (⟨1, ![128]⟩ : Shape).Idx → EReal)
    (h1 : (⟨1, ![128]⟩ : Shape).BroadcastsInDim ⟨2, ![128, 1]⟩ ![0]) (p : Fin 128) :
    broadcastInDim ⟨2, ![128, 1]⟩ ![0] h1 x (ix2 p (0 : Fin 1)) = x (ix1 p) :=
  broadcastInDim_apply _ h1 x (ix2 p (0 : Fin 1)) (ix1 p) fun a => by
    match a with
    | ⟨0, _⟩ => show p.val = if (128 : ℕ) = 1 then 0 else p.val; rw [if_neg (by decide)]

/-- The host's logarithm at an index. -/
theorem hostLog_apply {s : Shape} {φ : FTy} (y : FVec Ideal s φ) (i : s.Idx) : Host.log y i = Ideal.log (y i) := rfl

/-- The host's exponential at an index. -/
theorem hostExp_apply {s : Shape} {φ : FTy} (y : FVec Ideal s φ) (i : s.Idx) : Host.exp y i = Ideal.exp (y i) := rfl

/-- The host's shifted logits: each row minus its maximum (`reduce` by `max` from `-∞`, then `max` with `-∞`), the maximum
    broadcast to a column and across the classes. -/
def refShift (x : FVec Ideal S128x10 .f32) : FVec Ideal S128x10 .f32 :=
  subf x
    (broadcastInDim S128x10 ![0, 1] bcast_S128x1_S128x10_0_1
      (broadcastInDim S128x1 ![0] bcast_S128_S128x1_0
        (maximumf (broadcastInDim S128 ![] bcast_S_S128 (constant S_ .f32 0xFF800000#32))
          (Host.reduce FloatOps.maximumf x (constant S_ .f32 0xFF800000#32) reducesTo_S128x10_S128_d1 h_S_))))

/-- The host's log-softmax: the shifted logits minus the logarithm of the row sums (`reduce` by `add` from `0`) of their
    exponentials, the sums broadcast to a column, the logarithm across the classes. -/
def refLsm (x : FVec Ideal S128x10 .f32) : FVec Ideal S128x10 .f32 :=
  subf (refShift x)
    (broadcastInDim S128x10 ![0, 1] bcast_S128x1_S128x10_0_1
      (Host.log (broadcastInDim S128x1 ![0] bcast_S128_S128x1_0
        (Host.reduceAdd (Host.exp (refShift x)) (constant S_ .f32 0x00000000#32) reducesTo_S128x10_S128_d1 h_S_))))

/-- The host's shifted logits at `(p, c)`. -/
theorem refShift_apply (x : FVec Ideal S128x10 .f32) (p : Fin 128) (c : Fin 10) :
    refShift x (ix2 p c) = x (ix2 p c) - mxE (fun p c => x (ix2 p c)) p := by
  unfold refShift
  rw [subf_apply, bcast_col_ab_apply, bcast_vec_col_apply, maximumf_apply, broadcastInDim_scalar_apply,
    Host.reduce_eq_fold_single FloatOps.maximumf x _ reducesTo_S128x10_S128_d1 (by decide) h_S_ (ix1 p)]
  exact congrArg (fun t => x (ix2 p c) - max (Ideal.ofBits .f32 0xFF800000#32) t)
    (fold_row (by decide) x _ p)

/-- The host's log-softmax at `(p, c)`. -/
theorem refLsm_apply (x : FVec Ideal S128x10 .f32) (p : Fin 128) (c : Fin 10) :
    refLsm x (ix2 p c) = lsmE (fun p c => x (ix2 p c)) p c := by
  unfold refLsm
  rw [subf_apply, bcast_col_ab_apply, hostLog_apply, bcast_vec_col_apply, hostReduceAdd_apply,
    Ideal.hostReduceAdd_single reducesTo_S128x10_S128_d1 (by decide), refShift_apply, constant_apply,
    Ideal.ofBits_zero_f32, zero_add]
  unfold lsmE
  refine congrArg (fun t => (x (ix2 p c) - mxE (fun p c => x (ix2 p c)) p) - Ideal.log t) ?_
  refine (sum_row (by decide) (Host.exp (refShift x)) p).trans (Finset.sum_congr rfl fun c' _ => ?_)
  show Ideal.exp (refShift x (ix2 p c')) = _
  rw [refShift_apply]

end Host

/-- The two spellings of the log-softmax are one function of the logits. -/
theorem lsm_eq (x : FVec Ideal Cert.KernelIdeal.S128x10 .f32) : kLsm x = refLsm x := by
  funext j
  obtain ⟨p, c, rfl⟩ : ∃ (p : Fin 128) (c : Fin 10), j = ix2 p c := ⟨j 0, j 1, eq_ix2 j⟩
  rw [kLsm_apply, refLsm_apply]

/-! ## The whole tail -/

/-- The host's tail, as one term over its operations. -/
def refTail (g : FVec Ideal Cert.ReferenceIdeal.S128x512 .f32) (cntv : FVec Ideal Cert.ReferenceIdeal.S128 .f32)
    (w1 : FVec Ideal Cert.ReferenceIdeal.S512x128 .f32) (b1v : FVec Ideal Cert.ReferenceIdeal.S128 .f32)
    (w2 : FVec Ideal Cert.ReferenceIdeal.S128x10 .f32) (b2v : FVec Ideal Cert.ReferenceIdeal.S10 .f32) :
    FVec Ideal Cert.ReferenceIdeal.S128x10 .f32 :=
  refLsm (refLogits g cntv w1 b1v w2 b2v)

section Kernel
open Cert.KernelIdeal Cert.KernelIdeal.Facts₀

/-- The payload the vector unit stores is its log-softmax of its logits. -/
theorem pay_eq (v0 : FVec Ideal S128x512 .f32) (v2 : FVec Ideal S128x1 .f32) (v6 : FVec Ideal S512x128 .f32)
    (v7 : FVec Ideal S1x128 .f32) (v9 : FVec Ideal S128x10 .f32) (v10 : FVec Ideal S1x10 .f32) :
    Cert.KernelIdeal.Gen.k4_pay1 (F := Ideal) v0 v2 v6 v7 v9 v10 = kLsm (kLogits v0 v2 v6 v7 v9 v10) := rfl

/-- The vector unit's tail, fed the counts as a column and the biases as rows, is the host's tail. -/
theorem tail_eq (g : FVec Ideal S128x512 .f32) (cntv : FVec Ideal S128 .f32) (w1 : FVec Ideal S512x128 .f32)
    (b1v : FVec Ideal S128 .f32) (w2 : FVec Ideal S128x10 .f32) (b2v : FVec Ideal S10 .f32) :
    Cert.KernelIdeal.Gen.k4_pay1 (F := Ideal) g (shapeCast S128x1 cntv shapeCasts_S128_S128x1) w1
        (shapeCast S1x128 b1v shapeCasts_S128_S1x128) w2 (shapeCast S1x10 b2v shapeCasts_S10_S1x10)
      = refTail g cntv w1 b1v w2 b2v := by
  rw [pay_eq, logits_eq, lsm_eq]
  rfl

end Kernel

end Cert.Mlp

end
-- ==== Proof.Bridge.lean ====
/-
  THE KERNEL PROGRAM'S VALUE IS THE REFERENCE'S, over the extended reals.

  Layer by layer: the kernel program's layer is the row-wise layer `Cert.Sage.sageArr` applied to its own host terms, the
  reference's layer is the host layer `Layer.refLayer`, which is the same row-wise layer (`Layer.refLayer_eq`), and the
  host terms agree (`Cert.Cross`); so the node features after each of the four layers agree.  Pooling each layer's
  features and joining the results is pooling the joined features (`Cert.Pool.pool_concat`), so the pooled arrays agree.
  The classifier tail on the vector unit is the host's tail (`Cert.Mlp.tail_eq`), which is what the reference's last
  stages spell (`tailR`).  Hence the two programs' results are equal.
-/
import proofs.«121412_j16045997818029_2_alg».proof.Proof.KernelChain
import proofs.«121412_j16045997818029_2_alg».proof.Proof.RefChain
import proofs.«121412_j16045997818029_2_alg».proof.Proof.CrossTerms
import proofs.«121412_j16045997818029_2_alg».proof.Proof.RefLayer
import proofs.«121412_j16045997818029_2_alg».proof.Proof.PoolConcat
import proofs.«121412_j16045997818029_2_alg».proof.Proof.MlpTail
import proofs.«121412_j16045997818029_2_alg».proof.Proof.Gen.ReferenceIdeal.Read

noncomputable section

namespace Cert.Bridge

open Idealize.ShloMosaic Cert.KernelIdeal Cert.ReferenceIdeal

/-! ## The reference's tail -/

/-- The reference's last stages are the host's classifier tail on the pooled array and the vector of node counts. -/
theorem tailR (x0 : (⟨Cert.KernelIdeal.S50000x128, .f32⟩ : BufTy).Contents (Elt Ideal)) (x1 : (⟨Cert.KernelIdeal.S2x800000, .i32⟩ : BufTy).Contents (Elt Ideal))
    (x2 : (⟨Cert.KernelIdeal.S50000, .i32⟩ : BufTy).Contents (Elt Ideal)) (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal))
    (x6 : (⟨Cert.KernelIdeal.S512x128, .f32⟩ : BufTy).Contents (Elt Ideal)) (x7 : (⟨Cert.KernelIdeal.S128, .f32⟩ : BufTy).Contents (Elt Ideal))
    (x8 : (⟨Cert.KernelIdeal.S128x10, .f32⟩ : BufTy).Contents (Elt Ideal)) (x9 : (⟨Cert.KernelIdeal.S10, .f32⟩ : BufTy).Contents (Elt Ideal)) :
    Read.val_main_v135 (F := Ideal) x0 x1 x2 x3 x4 x5 x6 x7 x8 x9
      = Cert.Mlp.refTail (Read.val_main_v116 (F := Ideal) x0 x1 x2 x3 x4 x5) (Read.val_main_v122 (F := Ideal) x2) x6 x7 x8 x9 := by
  unfold Read.val_main_v135 Read.val_main_call5_v10 Read.val_main_call5_v9 Read.val_main_call5_v8 Read.val_main_call5_v7
    Read.val_main_call5_cst_1 Read.val_main_call5_v6 Read.val_main_call5_v5 Read.val_main_call5_v4 Read.val_main_call5_v3
    Read.val_main_call5_v2 Read.val_main_call5_v1 Read.val_main_call5_cst_0 Read.val_main_call5_v0 Read.val_main_call5_cst
    Read.val_main_v134 Read.val_main_v133 Read.val_main_v132 Read.val_main_v131 Read.val_main_v130 Read.val_main_call4_v0
    Read.val_main_call4_cst Read.val_main_v129 Read.val_main_v128 Read.val_main_v127 Read.val_main_v126 Read.val_main_v125
    Read.val_main_v124 Read.val_main_v123
  unfold Cert.Mlp.refTail Cert.Mlp.refLsm Cert.Mlp.refShift Cert.Mlp.refLogits Cert.Mlp.refHidden
  rfl

/-! ## One layer -/

/-- The row-wise layer respects equality of each of its six operands. -/
theorem sage_congr {R : ℕ} {a a' h h' : (Cert.Sage.A2 R 128).Idx → EReal} {i i' : (Cert.Sage.A2 R 1).Idx → EReal}
    {wl wl' wr wr' : (Cert.Sage.A2 128 128).Idx → EReal} {bl bl' : (Cert.Sage.A2 1 128).Idx → EReal}
    (ha : a = a') (hh : h = h') (hi : i = i') (hwl : wl = wl') (hbl : bl = bl') (hwr : wr = wr') :
    Cert.Sage.sageArr a h i wl bl wr = Cert.Sage.sageArr a' h' i' wl' bl' wr' := by
  subst ha hh hi hwl hbl hwr
  rfl

/-- The kernel program's layer on features `h` is the host layer on the same features `H`, when the weights agree and the
    one-row bias is the cast of the reference's bias vector. -/
theorem step_eq (x1 : (⟨Cert.KernelIdeal.S2x800000, .i32⟩ : BufTy).Contents (Elt Ideal)) (h : (⟨Cert.KernelIdeal.S50000x128, .bf16⟩ : BufTy).Contents (Elt Ideal))
    (H : FVec Ideal Cert.ReferenceIdeal.S50000x128 .f32) (hh : h = H)
    (wl : (⟨Cert.KernelIdeal.S128x128, .f32⟩ : BufTy).Contents (Elt Ideal)) (WL : FVec Ideal Cert.ReferenceIdeal.S128x128 .f32) (hwl : wl = WL)
    (bl : (⟨Cert.KernelIdeal.S1x128, .f32⟩ : BufTy).Contents (Elt Ideal)) (BLV : FVec Ideal Cert.ReferenceIdeal.S128 .f32)
    (hbl : bl = shapeCast Cert.ReferenceIdeal.S1x128 BLV Cert.KernelIdeal.Gen.shapeCasts_S128_S1x128)
    (wr : (⟨Cert.KernelIdeal.S128x128, .f32⟩ : BufTy).Contents (Elt Ideal)) (WR : FVec Ideal Cert.ReferenceIdeal.S128x128 .f32) (hwr : wr = WR) :
    Terms.step x1 h wl bl wr = Layer.refLayer (Chain.aggR x1 H) H (Read.val_main_v12 (F := Ideal) x1) WL BLV WR := by
  rw [Layer.refLayer_eq Cert.KernelIdeal.Gen.shapeCasts_S128_S1x128]
  unfold Terms.step
  exact sage_congr ((Cert.Cross.agg_eq x1 h).trans (congrArg (Chain.aggR x1) hh)) hh (Cert.Cross.inv_eq x1) hwl hbl hwr

/-- Layer 0's one-row bias is the cast of the reference's bias vector. -/
theorem bl0_eq (x4 : (⟨Cert.KernelIdeal.S4x128, .f32⟩ : BufTy).Contents (Elt Ideal)) :
    Terms.bl0 x4 = shapeCast Cert.ReferenceIdeal.S1x128 (Read.val_main_v29 (F := Ideal) x4) Cert.KernelIdeal.Gen.shapeCasts_S128_S1x128 := by
  unfold Terms.bl0
  rw [Cert.Cross.blv0_eq]

/-- The node features after layer 0 agree. -/
theorem h1_eq (x0 : (⟨Cert.KernelIdeal.S50000x128, .f32⟩ : BufTy).Contents (Elt Ideal)) (x1 : (⟨Cert.KernelIdeal.S2x800000, .i32⟩ : BufTy).Contents (Elt Ideal))
    (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal)) :
    Terms.hK1 x0 x1 x3 x4 x5 = Read.val_main_v37 (F := Ideal) x0 x1 x3 x4 x5 := by
  unfold Terms.hK1
  refine (step_eq x1 _ x0 (Cert.Cross.h0_eq x0) _ _ (Cert.Cross.wl0_eq x3) _ _ (bl0_eq x4) _ _ (Cert.Cross.wr0_eq x5)).trans ?_
  exact (Chain.layer0 x0 x1 x3 x4 x5).symm

/-- Layer 1's one-row bias is the cast of the reference's bias vector. -/
theorem bl1_eq (x4 : (⟨Cert.KernelIdeal.S4x128, .f32⟩ : BufTy).Contents (Elt Ideal)) :
    Terms.bl1 x4 = shapeCast Cert.ReferenceIdeal.S1x128 (Read.val_main_v54 (F := Ideal) x4) Cert.KernelIdeal.Gen.shapeCasts_S128_S1x128 := by
  unfold Terms.bl1
  rw [Cert.Cross.blv1_eq]

/-- The node features after layer 1 agree. -/
theorem h2_eq (x0 : (⟨Cert.KernelIdeal.S50000x128, .f32⟩ : BufTy).Contents (Elt Ideal)) (x1 : (⟨Cert.KernelIdeal.S2x800000, .i32⟩ : BufTy).Contents (Elt Ideal))
    (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal)) :
    Terms.hK2 x0 x1 x3 x4 x5 = Read.val_main_v62 (F := Ideal) x0 x1 x3 x4 x5 := by
  unfold Terms.hK2
  refine (step_eq x1 _ (Read.val_main_v37 (F := Ideal) x0 x1 x3 x4 x5) (h1_eq x0 x1 x3 x4 x5) _ _ (Cert.Cross.wl1_eq x3) _ _ (bl1_eq x4) _ _ (Cert.Cross.wr1_eq x5)).trans ?_
  exact (Chain.layer1 x0 x1 x3 x4 x5).symm

/-- Layer 2's one-row bias is the cast of the reference's bias vector. -/
theorem bl2_eq (x4 : (⟨Cert.KernelIdeal.S4x128, .f32⟩ : BufTy).Contents (Elt Ideal)) :
    Terms.bl2 x4 = shapeCast Cert.ReferenceIdeal.S1x128 (Read.val_main_v79 (F := Ideal) x4) Cert.KernelIdeal.Gen.shapeCasts_S128_S1x128 := by
  unfold Terms.bl2
  rw [Cert.Cross.blv2_eq]

/-- The node features after layer 2 agree. -/
theorem h3_eq (x0 : (⟨Cert.KernelIdeal.S50000x128, .f32⟩ : BufTy).Contents (Elt Ideal)) (x1 : (⟨Cert.KernelIdeal.S2x800000, .i32⟩ : BufTy).Contents (Elt Ideal))
    (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal)) :
    Terms.hK3 x0 x1 x3 x4 x5 = Read.val_main_v87 (F := Ideal) x0 x1 x3 x4 x5 := by
  unfold Terms.hK3
  refine (step_eq x1 _ (Read.val_main_v62 (F := Ideal) x0 x1 x3 x4 x5) (h2_eq x0 x1 x3 x4 x5) _ _ (Cert.Cross.wl2_eq x3) _ _ (bl2_eq x4) _ _ (Cert.Cross.wr2_eq x5)).trans ?_
  exact (Chain.layer2 x0 x1 x3 x4 x5).symm

/-- Layer 3's one-row bias is the cast of the reference's bias vector. -/
theorem bl3_eq (x4 : (⟨Cert.KernelIdeal.S4x128, .f32⟩ : BufTy).Contents (Elt Ideal)) :
    Terms.bl3 x4 = shapeCast Cert.ReferenceIdeal.S1x128 (Read.val_main_v104 (F := Ideal) x4) Cert.KernelIdeal.Gen.shapeCasts_S128_S1x128 := by
  unfold Terms.bl3
  rw [Cert.Cross.blv3_eq]

/-- The node features after layer 3 agree. -/
theorem h4_eq (x0 : (⟨Cert.KernelIdeal.S50000x128, .f32⟩ : BufTy).Contents (Elt Ideal)) (x1 : (⟨Cert.KernelIdeal.S2x800000, .i32⟩ : BufTy).Contents (Elt Ideal))
    (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal)) :
    Terms.hK4 x0 x1 x3 x4 x5 = Read.val_main_v112 (F := Ideal) x0 x1 x3 x4 x5 := by
  unfold Terms.hK4
  refine (step_eq x1 _ (Read.val_main_v87 (F := Ideal) x0 x1 x3 x4 x5) (h3_eq x0 x1 x3 x4 x5) _ _ (Cert.Cross.wl3_eq x3) _ _ (bl3_eq x4) _ _ (Cert.Cross.wr3_eq x5)).trans ?_
  exact (Chain.layer3 x0 x1 x3 x4 x5).symm

/-! ## The pooled array -/

/-- The joined per-graph sums agree. -/
theorem pooled_eq (x0 : (⟨Cert.KernelIdeal.S50000x128, .f32⟩ : BufTy).Contents (Elt Ideal)) (x1 : (⟨Cert.KernelIdeal.S2x800000, .i32⟩ : BufTy).Contents (Elt Ideal))
    (x2 : (⟨Cert.KernelIdeal.S50000, .i32⟩ : BufTy).Contents (Elt Ideal)) (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal)) :
    Terms.pooledK x0 x1 x2 x3 x4 x5 = Read.val_main_v116 (F := Ideal) x0 x1 x2 x3 x4 x5 := by
  unfold Terms.pooledK
  rw [Cert.Cross.pooled_eq, h1_eq, h2_eq, h3_eq, h4_eq]
  exact (Chain.pooledR x0 x1 x2 x3 x4 x5).symm

/-! ## The result -/

/-- The kernel program's result is the reference's. -/
theorem bridge (x0 : (⟨Cert.KernelIdeal.S50000x128, .f32⟩ : BufTy).Contents (Elt Ideal)) (x1 : (⟨Cert.KernelIdeal.S2x800000, .i32⟩ : BufTy).Contents (Elt Ideal))
    (x2 : (⟨Cert.KernelIdeal.S50000, .i32⟩ : BufTy).Contents (Elt Ideal)) (x3 : (⟨Cert.KernelIdeal.S4x128x128, .f32⟩ : BufTy).Contents (Elt Ideal))
    (x4 : (⟨Cert.KernelIdeal.S4x128, .f32⟩ : BufTy).Contents (Elt Ideal)) (x5 : (⟨Cert.KernelIdeal.S4x128x128, .f32⟩ : BufTy).Contents (Elt Ideal))
    (x6 : (⟨Cert.KernelIdeal.S512x128, .f32⟩ : BufTy).Contents (Elt Ideal)) (x7 : (⟨Cert.KernelIdeal.S128, .f32⟩ : BufTy).Contents (Elt Ideal))
    (x8 : (⟨Cert.KernelIdeal.S128x10, .f32⟩ : BufTy).Contents (Elt Ideal)) (x9 : (⟨Cert.KernelIdeal.S10, .f32⟩ : BufTy).Contents (Elt Ideal)) :
    Terms.outK x0 x1 x2 x3 x4 x5 x6 x7 x8 x9 = Read.val_main_v135 (F := Ideal) x0 x1 x2 x3 x4 x5 x6 x7 x8 x9 := by
  unfold Terms.outK Terms.b1row Terms.b2row
  rw [pooled_eq, Cert.Cross.cnt_eq]
  exact (Cert.Mlp.tail_eq (Read.val_main_v116 (F := Ideal) x0 x1 x2 x3 x4 x5) (Read.val_main_v122 (F := Ideal) x2) x6 x7 x8 x9).trans (tailR x0 x1 x2 x3 x4 x5 x6 x7 x8 x9).symm

end Cert.Bridge

end
-- ==== Proof.lean ====
/-
  The certificate's claim, assembled from the modules under Proof/.

  The kernel program computes a 128x10 array from ten argument arrays in five kernel launches among host operations.
  Four launches are the four layers: each produces the next 50000x128 array of node features from the neighbour sums of
  the previous one, the previous one itself, the inverse degrees and that layer's two weight matrices and bias row (the
  first layer starts from the argument features).  The host then sums every layer's features per graph and joins the four
  128x128 sums along the columns, and the fifth launch stores, from the joined sums, the per-graph node counts and the
  classifier's weights and biases, the row-wise log-softmax of the classifier.  The reference computes a 128x10 array
  from the same ten arguments with host operations alone.

  What is claimed, and how each part is obtained:
  * Each of the three programs — the kernel program on machine words, the same text read over the extended reals, and the
    reference over the extended reals — runs to the end without fault and leaves its arguments as launched.  For the
    kernel program this is the run of its five regions and the host stretches between them in turn, each region entered
    from the buffer contents the run has reached (Proof/KB/Run.lean and Proof/KI/Run.lean: one text at two number
    systems); for the reference it is part of its run.
  * Reading the kernel program over the extended reals rewrote none of its operations, so that step carries no side
    condition: the statement is `True`.
  * Over the extended reals, from memories that agree on the ten arguments, the two programs end with the same result,
    entry by entry.  The kernel program's result buffer ends at the function `outK` of the arguments
    (Proof/KernelChain.lean; read back through the regions and host stretches in Proof/KI/KernelValue.lean), the
    reference's at `val_main_v135` of its arguments, the arguments agree, and the two functions are equal at every ten
    arrays (Proof/Bridge.lean).
-/
import proofs.«121412_j16045997818029_2_alg».proof.Defs
import proofs.«121412_j16045997818029_2_alg».proof.Proof.Gen.Kernel
import proofs.«121412_j16045997818029_2_alg».proof.Proof.Gen.KernelIdeal
import proofs.«121412_j16045997818029_2_alg».proof.Proof.Gen.ReferenceIdeal
import proofs.«121412_j16045997818029_2_alg».proof.Proof.Gen.ReferenceIdeal.Run
import proofs.«121412_j16045997818029_2_alg».proof.Proof.Gen.ReferenceIdeal.Read
import proofs.«121412_j16045997818029_2_alg».proof.Proof.Gen.Pre_finite_inputs
import proofs.«121412_j16045997818029_2_alg».proof.Proof.KB.Run
import proofs.«121412_j16045997818029_2_alg».proof.Proof.KI.Run
import proofs.«121412_j16045997818029_2_alg».proof.Proof.KI.KernelValue
import proofs.«121412_j16045997818029_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its ten argument arrays as launched: the run of its five regions
    among the host stretches. -/
theorem frame_k : Cert.frame_Kernel := fun m ρ _ => Cert.Kernel.Hand.frame m ρ

/-- The same for the program read over the extended reals. -/
theorem frame_ki : Cert.frame_KernelIdeal := fun m ρ _ => Cert.KernelIdeal.Hand.frame m ρ

/-- The reference runs to the end and leaves its arguments as launched: its run, the result's clause dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the program over the extended reals rewrote none of its operations, so there is nothing to preserve. -/
theorem preserves : Cert.preserves_Kernel_KernelIdeal := trivial

/-- Over the extended reals, from memories that agree on the ten arguments, both programs end with one and the same
    128x10 result: the kernel program's result buffer holds `outK` of its arguments (the last region's output array, read
    back through the regions and host stretches), the reference's holds `val_main_v135` of its own, the arguments agree,
    and the two functions are equal at every ten arrays. -/
theorem algebraic : Cert.algebraic_KernelIdeal_ReferenceIdeal := by
  intro m ρ m' ρ' _ hagree
  refine ⟨fun c => Cert.KernelIdeal.Terms.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    ?_, ?_⟩
  · exact (θ_run Cert.KernelIdeal.defs _ _).mono
      (fun r h c => ⟨(h c).1.trans (Cert.KernelIdeal.Hand.kernel_value m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v135_eq m' c, h0, h1, h2, h3, h4, h5, h6, h7, h8, h9]
    exact (Cert.Bridge.bridge _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
